-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S22016x4096 : Shape := ⟨2, ![22016, 4096]⟩
abbrev S22016 : Shape := ⟨1, ![22016]⟩
abbrev S4096x11008 : Shape := ⟨2, ![4096, 11008]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S22016x4096 : S_.BroadcastsInDim S22016x4096 (![] : Fin 0 → Fin S22016x4096.rank)
  reducesTo_S22016x4096_S_d0_1 : S22016x4096.ReducesTo [0, 1] S_
  bcast_S_S22016 : S_.BroadcastsInDim S22016 (![] : Fin 0 → Fin S22016.rank)
  reducesTo_S22016_S_d0 : S22016.ReducesTo [0] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S22016x4096 .f32) (main_arg2 : FVec F S22016 .f32) (main_arg3 : FVec F S4096x11008 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S22016x4096 .f32 := Host.absf main_arg1
  let main_cst_0 : FVec F S_ .f32 := constant S_ .f32 0x7F800000#32
  let main_v5 : FVec F S22016x4096 .f32 := broadcastInDim S22016x4096 ![] bcast_S_S22016x4096 main_cst_0
  let main_v6 : IVec S22016x4096 1 := cmpf .olt main_v4 main_v5
  let main_c_1 : IVec S_ 1 := constantI S_ 1 1#1
  let main_v7 : IVec S_ 1 := (fun x v => Host.reduce IntOp.andi x v reducesTo_S22016x4096_S_d0_1 h_S_) main_v6 main_c_1
  let main_v8 : IVec S_ 1 := andi main_v3 main_v7
  let main_v9 : FVec F S22016 .f32 := Host.absf main_arg2
  let main_cst_2 : FVec F S_ .f32 := constant S_ .f32 0x7F800000#32
  let main_v10 : FVec F S22016 .f32 := broadcastInDim S22016 ![] bcast_S_S22016 main_cst_2
  let main_v11 : IVec S22016 1 := cmpf .olt main_v9 main_v10
  let main_c_3 : IVec S_ 1 := constantI S_ 1 1#1
  let main_v12 : IVec S_ 1 := (fun x v => Host.reduce IntOp.andi x v reducesTo_S22016_S_d0 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_v13 main_v16
-- ==== Kernel.lean ====
abbrev S4096x4096 : Shape := ⟨2, ![4096, 4096]⟩
abbrev S22016x4096 : Shape := ⟨2, ![22016, 4096]⟩
abbrev S22016 : Shape := ⟨1, ![22016]⟩
abbrev S4096x11008 : Shape := ⟨2, ![4096, 11008]⟩
abbrev S4096 : Shape := ⟨1, ![4096]⟩
abbrev S_ : Shape := ⟨0, ![]⟩
abbrev S1x1 : Shape := ⟨2, ![1, 1]⟩
abbrev S11008x4096 : Shape := ⟨2, ![11008, 4096]⟩
abbrev S11008 : Shape := ⟨1, ![11008]⟩
abbrev S1x11008 : Shape := ⟨2, ![1, 11008]⟩
abbrev S1024x1024 : Shape := ⟨2, ![1024, 1024]⟩
abbrev S256x1024 : Shape := ⟨2, ![256, 1024]⟩
abbrev S1x256 : Shape := ⟨2, ![1, 256]⟩
abbrev S1024x256 : Shape := ⟨2, ![1024, 256]⟩
abbrev S1x4096 : Shape := ⟨2, ![1, 4096]⟩
abbrev S1x1024 : Shape := ⟨2, ![1, 1024]⟩

abbrev nBuf : Space → Nat
  | .hbm => 26
  | .vmem => 25
  | .smem => 0
  | _ => 0

abbrev bufTy : (tb : Table) → Fin (tcTables nBuf tb) → BufTy
  | .hbm, ⟨0, _⟩ => ⟨S4096x4096, .f32⟩
  | .hbm, ⟨1, _⟩ => ⟨S22016x4096, .f32⟩
  | .hbm, ⟨2, _⟩ => ⟨S22016, .f32⟩
  | .hbm, ⟨3, _⟩ => ⟨S4096x11008, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S11008x4096, .f32⟩
  | .hbm, ⟨12, _⟩ => ⟨S11008x4096, .f32⟩
  | .hbm, ⟨13, _⟩ => ⟨S11008, .f32⟩
  | .hbm, ⟨14, _⟩ => ⟨S1x11008, .f32⟩
  | .hbm, ⟨15, _⟩ => ⟨S11008, .f32⟩
  | .hbm, ⟨16, _⟩ => ⟨S1x11008, .f32⟩
  | .hbm, ⟨17, _⟩ => ⟨S4096x11008, .f32⟩
  | .hbm, ⟨18, _⟩ => ⟨S4096x11008, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S1x4096, .f32⟩
  | .hbm, ⟨25, _⟩ => ⟨S4096x4096, .f32⟩
  | .local _ .vmem, ⟨0, _⟩ => ⟨S1x1, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1x1, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨3, ![4, 43, 4], ![false, false, false]⟩

def k0_cond2 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 4, 43], ![false, false, false]⟩

def k1_cond2 (i : grid1.Coords) : BitVec 1 :=
  let arg2 : BitVec 32 := BitVec.ofNat 32 (i 2).val
  let c42_i32 : BitVec 32 := 42#32
  let v24 : BitVec 1 := Scalar.cmpi .eq arg2 c42_i32
  let v25 : BitVec 32 := Scalar.extui v24
  let c0_i32_12 : BitVec 32 := 0#32
  let v26 : BitVec 1 := Scalar.cmpi .ne v25 c0_i32_12
  v26

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  reducesTo_S4096x4096_S_d0_1 : S4096x4096.ReducesTo [0, 1] S_
  h_S_ : 0 < S_.numel
  shapeCasts_S_S1x1 : S_.ShapeCasts S1x1
  slices_S22016x4096_S11008x4096_0_0 : S22016x4096.Slices ![0, 0] S11008x4096
  slices_S22016x4096_S11008x4096_11008_0 : S22016x4096.Slices ![11008, 0] S11008x4096
  slices_S22016_S11008_0 : S22016.Slices ![0] S11008
  shapeCasts_S11008_S1x11008 : S11008.ShapeCasts S1x11008
  slices_S22016_S11008_11008 : S22016.Slices ![11008] S11008
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reducesTo_S4096x11008_S_d0_1 : S4096x11008.ReducesTo [0, 1] S_
  shapeCasts_S4096_S1x4096 : S4096.ShapeCasts S1x4096
  shapeCasts_S1024x1024_S1024x1024 : S1024x1024.ShapeCasts S1024x1024
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S11008x4096.size a
  hwx0_2 : ∀ i : grid0.Coords, EltTy.bits .f32 = 32 ∨ (Rect.block (s := S11008x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S11008x4096.size a
  hwx0_3 : ∀ i : grid0.Coords, EltTy.bits .f32 = 32 ∨ (Rect.block (s := S11008x4096) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x11008.size a
  hwx0_6 : ∀ i : grid0.Coords, EltTy.bits .f32 = 32 ∨ (Rect.block (s := S4096x11008) S1024x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x11008.size a
  hwx1_1 : ∀ i : grid1.Coords, EltTy.bits .f32 = 32 ∨ (Rect.block (s := S4096x11008) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x11008.size a
  hwx1_2 : ∀ i : grid1.Coords, EltTy.bits .f32 = 32 ∨ (Rect.block (s := S4096x11008) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .f32 = 32 ∨ (Rect.block (s := S4096x4096) S1024x1024.size (cc1_transform_4 i) (hinb1_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v3) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v14) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S22016x4096 : Shape := ⟨2, ![22016, 4096]⟩
abbrev S22016 : Shape := ⟨1, ![22016]⟩
abbrev S4096x11008 : Shape := ⟨2, ![4096, 11008]⟩
abbrev S4096 : Shape := ⟨1, ![4096]⟩
abbrev S_ : Shape := ⟨0, ![]⟩
abbrev S4096x22016 : Shape := ⟨2, ![4096, 22016]⟩
abbrev S1x22016 : Shape := ⟨2, ![1, 22016]⟩
abbrev S11008x4096 : Shape := ⟨2, ![11008, 4096]⟩
abbrev S1x4096 : Shape := ⟨2, ![1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S22016x4096, .f32⟩
  | .hbm, ⟨2, _⟩ => ⟨S22016, .f32⟩
  | .hbm, ⟨3, _⟩ => ⟨S4096x11008, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x22016, .f32⟩
  | .hbm, ⟨22, _⟩ => ⟨S4096x22016, .f32⟩
  | .hbm, ⟨23, _⟩ => ⟨S22016, .f32⟩
  | .hbm, ⟨24, _⟩ => ⟨S22016, .f32⟩
  | .hbm, ⟨25, _⟩ => ⟨S1x22016, .f32⟩
  | .hbm, ⟨26, _⟩ => ⟨S4096x22016, .f32⟩
  | .hbm, ⟨27, _⟩ => ⟨S4096x22016, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | .hbm, ⟨32, _⟩ => ⟨S_, .f32⟩
  | .hbm, ⟨33, _⟩ => ⟨S4096x11008, .f32⟩
  | .hbm, ⟨34, _⟩ => ⟨S4096x11008, .f32⟩
  | .hbm, ⟨35, _⟩ => ⟨S_, .f32⟩
  | .hbm, ⟨36, _⟩ => ⟨S4096x11008, .f32⟩
  | .hbm, ⟨37, _⟩ => ⟨S4096x11008, .f32⟩
  | .hbm, ⟨38, _⟩ => ⟨S4096x11008, .f32⟩
  | .hbm, ⟨39, _⟩ => ⟨S4096x11008, .f32⟩
  | .hbm, ⟨40, _⟩ => ⟨S4096x11008, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x11008, .f32⟩
  | .hbm, ⟨46, _⟩ => ⟨S4096x11008, .f32⟩
  | .hbm, ⟨47, _⟩ => ⟨S4096x11008, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x11008, .f32⟩
  | .hbm, ⟨52, _⟩ => ⟨S4096x11008, .f32⟩
  | .hbm, ⟨53, _⟩ => ⟨S_, .f32⟩
  | .hbm, ⟨54, _⟩ => ⟨S4096x11008, .f32⟩
  | .hbm, ⟨55, _⟩ => ⟨S4096x11008, .f32⟩
  | .hbm, ⟨56, _⟩ => ⟨S11008x4096, .f32⟩
  | .hbm, ⟨57, _⟩ => ⟨S4096x4096, .f32⟩
  | .hbm, ⟨58, _⟩ => ⟨S4096, .f32⟩
  | .hbm, ⟨59, _⟩ => ⟨S4096, .f32⟩
  | .hbm, ⟨60, _⟩ => ⟨S1x4096, .f32⟩
  | .hbm, ⟨61, _⟩ => ⟨S4096x4096, .f32⟩
  | .hbm, ⟨62, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_cst_6 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S22016x4096_S4096x22016_1_0 : S22016x4096.Transposes [1, 0] S4096x22016
  bcast_S_S22016 : S_.BroadcastsInDim S22016 (![] : Fin 0 → Fin S22016.rank)
  bcast_S22016_S1x22016_1 : S22016.BroadcastsInDim S1x22016 (![1] : Fin 1 → Fin S1x22016.rank)
  bcast_S1x22016_S4096x22016_0_1 : S1x22016.BroadcastsInDim S4096x22016 (![0, 1] : Fin 2 → Fin S4096x22016.rank)
  slices_S4096x22016_S4096x11008_0_0 : S4096x22016.Slices ![0, 0] S4096x11008
  slices_S4096x22016_S4096x11008_0_11008 : S4096x22016.Slices ![0, 11008] S4096x11008
  bcast_S_S4096x11008 : S_.BroadcastsInDim S4096x11008 (![] : Fin 0 → Fin S4096x11008.rank)
  reducesTo_S4096x11008_S_d0_1 : S4096x11008.ReducesTo [0, 1] S_
  transposes_S4096x11008_S11008x4096_1_0 : S4096x11008.Transposes [1, 0] S11008x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x22016_S4096x22016_1_0_0_1_n_n_wf : DotDims.WF S4096x4096 S4096x22016 S4096x22016 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x22016_S4096x22016_1_0_0_1_n_n : DotDims S4096x4096 S4096x22016 S4096x22016 where
  lhsContracting := [1]
  rhsContracting := [0]
  lhsNonContracting := [0]
  rhsNonContracting := [1]
  lhsBatch := []
  rhsBatch := []
  wf := dot_S4096x4096_S4096x22016_S4096x22016_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.KGateUpBase.lean ====
/-
  The first kernel (gate and up projections) at one grid point: which of its two guarded blocks run there,
  where its output window is idle, and the names of its accumulator buffers.

  The grid is (4, 43, 4), walked with the last axis fastest, so point `t` is reduction step `t % 4` of a
  (row block, column block) pair: the accumulators are cleared where `t % 4 = 0`, and the output block is
  computed and written back where `t % 4 = 3`; at the other points the output's staging buffer is untouched.
-/
import proofs.«134952_j29721173688828_1_alg».proof.Proof.Gen.Kernel.Launch
import proofs.«134952_j29721173688828_1_alg».proof.Proof.Gen.Kernel.Skeleton
import proofs.«134952_j29721173688828_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The accumulators are cleared: the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is computed: the reduction coordinate is the last one, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last reduction step the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last reduction step it is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view
/-- One staging buffer of the output window, through which its contents are stated. -/
abbrev VO0_6 : View sig .tc .vmem S1024x256 .f32 := (Memref.whole cc0_stg6_0 : Memref sig .tc .vmem S1024x256 .f32).view

end Cert.Kernel.Hand

end
-- ==== Proof.KGateUpRunA.lean ====
/-
  The first kernel's body at a point where the reduction starts (`t % 4 = 0`): both accumulators are
  cleared, the first partial products are added into them, and the output's staging buffer is left as found.
  What each accumulator ends with is stated as a list of written pieces.
-/
import proofs.«134952_j29721173688828_1_alg».proof.Proof.KGateUpBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) :
    Σ' (LS0 : List (View.Piece (Elt F) S1024x256 .f32)), { LS1 : List (View.Piece (Elt F) S1024x256 .f32) //
      ∀ (xi6 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, fun xi6 E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.KGateUpRunB.lean ====
/-
  The first kernel's body at a middle reduction step (`t % 4` is 1 or 2): the partial products are added into
  the accumulators, which hold what the step before left; the output's staging buffer is left as found.
-/
import proofs.«134952_j29721173688828_1_alg».proof.Proof.KGateUpBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 : Vec F S1024x256 .f32) (xs1 : Vec F S1024x256 .f32) :
    Σ' (LS0 : List (View.Piece (Elt F) S1024x256 .f32)), { LS1 : List (View.Piece (Elt F) S1024x256 .f32) //
      ∀ (xi6 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, fun xi6 E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.KGateUpRunC.lean ====
/-
  The first kernel's body at the last reduction step (`t % 4 = 3`): the last partial products are added into
  the accumulators, and the output block — silu of the rescaled gate sum times the rescaled up sum — is stored
  over the whole staging buffer.
-/
import proofs.«134952_j29721173688828_1_alg».proof.Proof.KGateUpBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 : Vec F S1024x256 .f32) (xs1 : Vec F S1024x256 .f32) :
    Σ' (L6 : List (View.Piece (Elt F) S1024x256 .f32)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    iexists _; iexact HS1

end Cert.Kernel.Hand

end
-- ==== Proof.KGateUpDat.lean ====
/-
  The first kernel's proof data at the contents `V` it is entered with.

  What the two accumulators hold after each grid point is defined by recursion on the point: cleared and
  first added to where `t % 4 = 0`, added to elsewhere; the output's staging buffer holds the computed block
  after a point with `t % 4 = 3`.  The invariant between points keeps the accumulators at those contents,
  every other scoped buffer at anything, and the generator register at some state.
-/
import proofs.«134952_j29721173688828_1_alg».proof.Proof.KGateUpRunA
import proofs.«134952_j29721173688828_1_alg».proof.Proof.KGateUpRunB
import proofs.«134952_j29721173688828_1_alg».proof.Proof.KGateUpRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, read back from the pieces the run wrote -/

abbrev rdS0 (L : List (View.Piece (Elt F) S1024x256 .f32)) : Vec F S1024x256 .f32 := VS0_0.read (Elt F) (VS0_0.writes (Elt F) VS0_0.junk L)
abbrev rdS1 (L : List (View.Piece (Elt F) S1024x256 .f32)) : Vec F S1024x256 .f32 := VS0_1.read (Elt F) (VS0_1.writes (Elt F) VS0_1.junk L)
abbrev rdO6 (L : List (View.Piece (Elt F) S1024x256 .f32)) : Vec F S1024x256 .f32 := VO0_6.read (Elt F) (VO0_6.writes (Elt F) VO0_6.junk L)

/-- The run at a point where the reduction starts. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t)
/-- The run at a middle step, over what the step before left in the accumulators. -/
abbrev runB0 (c : Dev nD) (t : Fin cfg0.N) (h0 : ¬t.val % 4 = 0) (h1 : ¬t.val % 4 = 3) (xs0 xs1 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1
/-- The run at the last step. -/
abbrev runC0 (c : Dev nD) (t : Fin cfg0.N) (h1 : t.val % 4 = 3) (xs0 xs1 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => by have := (hcond0_0 t).mp h; omega) ((hcond0_1 t).mpr h1) (iblk0 V c 0 t) (iblk0 V c 1 t) (iblk0 V c 2 t) (iblk0 V c 3 t) (iblk0 V c 4 t) (iblk0 V c 5 t) xs0 xs1

theorem scover0_A_0 (c : Dev nD) (t : Fin cfg0.N) (h0 : t.val % 4 = 0) (y : S1024x256.Idx) : ∃ pc ∈ (runA0 V c t h0).1, y ∈ pc.1.set :=
  View.cover_of_tiledL (runA0 V c t h0).1 S1024x256.size (by sl_kernel_rfl) y
theorem scover0_A_1 (c : Dev nD) (t : Fin cfg0.N) (h0 : t.val % 4 = 0) (y : S1024x256.Idx) : ∃ pc ∈ (runA0 V c t h0).2.1, y ∈ pc.1.set :=
  View.cover_of_tiledL (runA0 V c t h0).2.1 S1024x256.size (by sl_kernel_rfl) y
theorem scover0_B_0 (c : Dev nD) (t : Fin cfg0.N) (h0 : ¬t.val % 4 = 0) (h1 : ¬t.val % 4 = 3) (xs0 xs1 : Vec F S1024x256 .f32) (y : S1024x256.Idx) : ∃ pc ∈ (runB0 V c t h0 h1 xs0 xs1).1, y ∈ pc.1.set :=
  View.cover_of_tiledL (runB0 V c t h0 h1 xs0 xs1).1 S1024x256.size (by sl_kernel_rfl) y
theorem scover0_B_1 (c : Dev nD) (t : Fin cfg0.N) (h0 : ¬t.val % 4 = 0) (h1 : ¬t.val % 4 = 3) (xs0 xs1 : Vec F S1024x256 .f32) (y : S1024x256.Idx) : ∃ pc ∈ (runB0 V c t h0 h1 xs0 xs1).2.1, y ∈ pc.1.set :=
  View.cover_of_tiledL (runB0 V c t h0 h1 xs0 xs1).2.1 S1024x256.size (by sl_kernel_rfl) y
theorem cover0_C_6 (c : Dev nD) (t : Fin cfg0.N) (h1 : t.val % 4 = 3) (xs0 xs1 : Vec F S1024x256 .f32) (y : S1024x256.Idx) : ∃ pc ∈ (runC0 V c t h1 xs0 xs1).1, y ∈ pc.1.set :=
  View.cover_of_tiledL (runC0 V c t h1 xs0 xs1).1 S1024x256.size (by sl_kernel_rfl) y
theorem scover0_C_0 (c : Dev nD) (t : Fin cfg0.N) (h1 : t.val % 4 = 3) (xs0 xs1 : Vec F S1024x256 .f32) (y : S1024x256.Idx) : ∃ pc ∈ (runC0 V c t h1 xs0 xs1).2.1, y ∈ pc.1.set :=
  View.cover_of_tiledL (runC0 V c t h1 xs0 xs1).2.1 S1024x256.size (by sl_kernel_rfl) y
theorem scover0_C_1 (c : Dev nD) (t : Fin cfg0.N) (h1 : t.val % 4 = 3) (xs0 xs1 : Vec F S1024x256 .f32) (y : S1024x256.Idx) : ∃ pc ∈ (runC0 V c t h1 xs0 xs1).2.2.1, y ∈ pc.1.set :=
  View.cover_of_tiledL (runC0 V c t h1 xs0 xs1).2.2.1 S1024x256.size (by sl_kernel_rfl) y

/-! ## What the output's staging buffer and the accumulators hold after each point -/

/-- After the body at position `n`: (the output's staging buffer, the gate accumulator, the up accumulator).
    The first component is consulted only after a last reduction step. -/
def stAt0 (c : Dev nD) : (n : ℕ) → n < cfg0.N → Vec F S1024x256 .f32 × Vec F S1024x256 .f32 × Vec F S1024x256 .f32
  | 0, hn => (rdO6 [], rdS0 (runA0 V c ⟨0, hn⟩ (Nat.zero_mod 4)).1, rdS1 (runA0 V c ⟨0, hn⟩ (Nat.zero_mod 4)).2.1)
  | n + 1, hn =>
    if h0 : (n + 1) % 4 = 0 then
      (rdO6 [], rdS0 (runA0 V c ⟨n + 1, hn⟩ h0).1, rdS1 (runA0 V c ⟨n + 1, hn⟩ h0).2.1)
    else
      if h1 : (n + 1) % 4 = 3 then
        (rdO6 (runC0 V c ⟨n + 1, hn⟩ h1 (stAt0 c n (Nat.lt_of_succ_lt hn)).2.1 (stAt0 c n (Nat.lt_of_succ_lt hn)).2.2).1,
         rdS0 (runC0 V c ⟨n + 1, hn⟩ h1 (stAt0 c n (Nat.lt_of_succ_lt hn)).2.1 (stAt0 c n (Nat.lt_of_succ_lt hn)).2.2).2.1,
         rdS1 (runC0 V c ⟨n + 1, hn⟩ h1 (stAt0 c n (Nat.lt_of_succ_lt hn)).2.1 (stAt0 c n (Nat.lt_of_succ_lt hn)).2.2).2.2.1)
      else
        (rdO6 [],
         rdS0 (runB0 V c ⟨n + 1, hn⟩ h0 h1 (stAt0 c n (Nat.lt_of_succ_lt hn)).2.1 (stAt0 c n (Nat.lt_of_succ_lt hn)).2.2).1,
         rdS1 (runB0 V c ⟨n + 1, hn⟩ h0 h1 (stAt0 c n (Nat.lt_of_succ_lt hn)).2.1 (stAt0 c n (Nat.lt_of_succ_lt hn)).2.2).2.1)

/-- The contents at the point before `t`, for a point that is not the first. -/
abbrev prev0 (c : Dev nD) (t : Fin cfg0.N) := stAt0 V c (t.val - 1) (Nat.lt_of_le_of_lt (Nat.sub_le _ _) t.isLt)

theorem stAt0_A (c : Dev nD) (t : Fin cfg0.N) (h0 : t.val % 4 = 0) :
    stAt0 V c t.val t.isLt = (rdO6 [], rdS0 (runA0 V c t h0).1, rdS1 (runA0 V c t h0).2.1) := by
  obtain ⟨n, hn⟩ := t
  cases n with
  | zero => exact rfl
  | succ n => exact (dif_pos h0).trans rfl

theorem stAt0_B (c : Dev nD) (t : Fin cfg0.N) (h0 : ¬t.val % 4 = 0) (h1 : ¬t.val % 4 = 3) :
    stAt0 V c t.val t.isLt = (rdO6 [], rdS0 (runB0 V c t h0 h1 (prev0 V c t).2.1 (prev0 V c t).2.2).1, rdS1 (runB0 V c t h0 h1 (prev0 V c t).2.1 (prev0 V c t).2.2).2.1) := by
  obtain ⟨n, hn⟩ := t
  cases n with
  | zero => exact (by exfalso; (try dsimp only at h0); exact absurd (Nat.zero_mod _) h0)
  | succ n => exact (dif_neg h0).trans ((dif_neg h1).trans rfl)

theorem stAt0_C (c : Dev nD) (t : Fin cfg0.N) (h0 : ¬t.val % 4 = 0) (h1 : t.val % 4 = 3) :
    stAt0 V c t.val t.isLt = (rdO6 (runC0 V c t h1 (prev0 V c t).2.1 (prev0 V c t).2.2).1, rdS0 (runC0 V c t h1 (prev0 V c t).2.1 (prev0 V c t).2.2).2.1, rdS1 (runC0 V c t h1 (prev0 V c t).2.1 (prev0 V c t).2.2).2.2.1) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that belong to the second kernel, each whole at some contents: they ride through the first. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region, with the accumulators as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-- Before position `n`: at the start what the launch hands over; afterwards the accumulators at what the point
    before left. -/
def PhiS0 (c : Dev nD) : (n : ℕ) → n ≤ cfg0.N → sProp 𝕄
  | 0, _ => Pipeline.ΦA spec0 c
  | n + 1, hn => iprop(iprop(owns (c : Thread nD τ) scM0_0 fullShare ((stAt0 V c n hn).2.1) ∗ owns (c : Thread nD τ) scM0_1 fullShare ((stAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((stAt0 V c n hn).2.1) ∗ owns (c : Thread nD τ) scM0_1 fullShare ((stAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((stAt0 V c (n - 1) (by omega)).2.1) ∗ owns (c : Thread nD τ) scM0_1 fullShare ((stAt0 V c (n - 1) (by omega)).2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (stAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (stAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

end

end Cert.Kernel.Hand

end
-- ==== Proof.KGateUpBody.lean ====
/-
  The first kernel's body obligation at every grid point: by the reduction step the point is at, one of the three
  runs applies; the invariant hands the body the accumulators at what the point before left (at anything before
  the first point) and takes them back at this point's contents.
-/
import proofs.«134952_j29721173688828_1_alg».proof.Proof.KGateUpDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 688 := lt_of_lt_of_eq t.isLt (show cfg0.N = 688 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · have h1 : ¬t.val % 4 = 3 := by omega
    rw [Dat.leavesExact_idle (dat0 V c) 6 t (idleAt0_6 t (fun h => h1 ((hcond0_1 t).mp h))) (noFlush0_6 t (fun h => h1 ((hcond0_1 t).mp h)))]
    rw [stAt0_A V c t h0]
    (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 V c t h0)
          isplitl [HS1]
          · unfold owns; iexists _; isplitr
            swap; · iexact HS1
            ipureintro; exact View.read_writes_of_cover _ _ _ _ _ (scover0_A_1 V c t h0)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 V c t h0)
          isplitl [HS1]
          · unfold owns; iexists _; isplitr
            swap; · iexact HS1
            ipureintro; exact View.read_writes_of_cover _ _ _ _ _ (scover0_A_1 V c t h0)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dat0 V c).leavesExact 6 t = owns (c : Thread nD τ) (ms0_6 t) fullShare ((dat0 V c).after 6 t) from by
        unfold Dat.leavesExact; rw [liveAt0_6 t ((hcond0_1 t).mpr h1)], after0_6]
      rw [stAt0_C V c t h0 h1]
      (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t h1 _ _)
          isplitl [HS1]
          · unfold owns; iexists _; isplitr
            swap; · iexact HS1
            ipureintro; exact View.read_writes_of_cover _ _ _ _ _ (scover0_C_1 V c t h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 V c t h1 _ _)
    · rw [Dat.leavesExact_idle (dat0 V c) 6 t (idleAt0_6 t (fun h => h1 ((hcond0_1 t).mp h))) (noFlush0_6 t (fun h => h1 ((hcond0_1 t).mp h)))]
      rw [stAt0_B V c t h0 h1]
      (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t h0 h1 _ _)
          isplitl [HS1]
          · unfold owns; iexists _; isplitr
            swap; · iexact HS1
            ipureintro; exact View.read_writes_of_cover _ _ _ _ _ (scover0_B_1 V c t h0 h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the launch handed over: the accumulators' contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 688 := N_0; omega)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end

end Cert.Kernel.Hand

end
-- ==== Proof.KDownBase.lean ====
/-
  The second kernel (down projection) at one grid point: which of its two guarded blocks run there, where its
  output window is idle, and the name of its accumulator buffer.

  The grid is (4, 4, 43), the last axis fastest: point `t` is reduction step `t % 43` of a (row block,
  column block) pair; the accumulator is cleared where `t % 43 = 0`, the output block is computed and written
  back where `t % 43 = 42`, and elsewhere the output's staging buffer is untouched.
-/
import proofs.«134952_j29721173688828_1_alg».proof.Proof.Gen.Kernel.Launch
import proofs.«134952_j29721173688828_1_alg».proof.Proof.Gen.Kernel.Skeleton
import proofs.«134952_j29721173688828_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view
abbrev VO1_4 : View sig .tc .vmem S1024x1024 .f32 := (Memref.whole cc1_stg4_0 : Memref sig .tc .vmem S1024x1024 .f32).view

end Cert.Kernel.Hand

end
-- ==== Proof.KDownRunA.lean ====
/-
  The second kernel's body where the reduction starts (`t % 43 = 0`): the accumulator is cleared and the first
  partial product added into it; the output's staging buffer is left as found.
-/
import proofs.«134952_j29721173688828_1_alg».proof.Proof.KDownBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1x1 .f32) (x1 : Vec F S1024x256 .f32) (x2 : Vec F S1024x256 .f32) (x3 : Vec F S1x1024 .f32) :
    { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.KDownRunB.lean ====
/-
  The second kernel's body at a middle reduction step: the partial product is added into the accumulator, which
  holds what the step before left; the output's staging buffer is left as found.
-/
import proofs.«134952_j29721173688828_1_alg».proof.Proof.KDownBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1x1 .f32) (x1 : Vec F S1024x256 .f32) (x2 : Vec F S1024x256 .f32) (x3 : Vec F S1x1024 .f32) (xs0 : Vec F S1024x1024 .f32) :
    { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.KDownRunC.lean ====
/-
  The second kernel's body at the last reduction step (`t % 43 = 42`): the last partial product is added into the
  accumulator and the rescaled sum is stored over the whole output staging buffer.
-/
import proofs.«134952_j29721173688828_1_alg».proof.Proof.KDownBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1x1 .f32) (x1 : Vec F S1024x256 .f32) (x2 : Vec F S1024x256 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.KDownDat.lean ====
/-
  The second kernel's proof data at the contents `V` it is entered with: what its accumulator holds after each
  grid point (cleared and first added to where `t % 43 = 0`, added to elsewhere), the output's staging buffer
  after a point with `t % 43 = 42`, and the invariant between points.
-/
import proofs.«134952_j29721173688828_1_alg».proof.Proof.KDownRunA
import proofs.«134952_j29721173688828_1_alg».proof.Proof.KDownRunB
import proofs.«134952_j29721173688828_1_alg».proof.Proof.KDownRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rdS1_0 (L : List (View.Piece (Elt F) S1024x1024 .f32)) : Vec F S1024x1024 .f32 := VS1_0.read (Elt F) (VS1_0.writes (Elt F) VS1_0.junk L)
abbrev rdO4 (L : List (View.Piece (Elt F) S1024x1024 .f32)) : Vec F S1024x1024 .f32 := VO1_4.read (Elt F) (VO1_4.writes (Elt F) VO1_4.junk L)

abbrev runA1 (c : Dev nD) (t : Fin cfg1.N) (h0 : t.val % 43 = 0) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    ((hcond1_0 t).mpr h0) (fun h => by have := (hcond1_1 t).mp h; omega) (iblk1 V c 0 t) (iblk1 V c 1 t) (iblk1 V c 2 t) (iblk1 V c 3 t)
abbrev runB1 (c : Dev nD) (t : Fin cfg1.N) (h0 : ¬t.val % 43 = 0) (h1 : ¬t.val % 43 = 42) (xs0 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    (fun h => h0 ((hcond1_0 t).mp h)) (fun h => h1 ((hcond1_1 t).mp h)) (iblk1 V c 0 t) (iblk1 V c 1 t) (iblk1 V c 2 t) (iblk1 V c 3 t) xs0
abbrev runC1 (c : Dev nD) (t : Fin cfg1.N) (h1 : t.val % 43 = 42) (xs0 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    (fun h => by have := (hcond1_0 t).mp h; omega) ((hcond1_1 t).mpr h1) (iblk1 V c 0 t) (iblk1 V c 1 t) (iblk1 V c 2 t) (iblk1 V c 3 t) xs0

theorem scover1_A_0 (c : Dev nD) (t : Fin cfg1.N) (h0 : t.val % 43 = 0) (y : S1024x1024.Idx) : ∃ pc ∈ (runA1 V c t h0).1, y ∈ pc.1.set :=
  View.cover_of_tiledL (runA1 V c t h0).1 S1024x1024.size (by sl_kernel_rfl) y
theorem scover1_B_0 (c : Dev nD) (t : Fin cfg1.N) (h0 : ¬t.val % 43 = 0) (h1 : ¬t.val % 43 = 42) (xs0 : Vec F S1024x1024 .f32) (y : S1024x1024.Idx) : ∃ pc ∈ (runB1 V c t h0 h1 xs0).1, y ∈ pc.1.set :=
  View.cover_of_tiledL (runB1 V c t h0 h1 xs0).1 S1024x1024.size (by sl_kernel_rfl) y
theorem cover1_C_4 (c : Dev nD) (t : Fin cfg1.N) (h1 : t.val % 43 = 42) (xs0 : Vec F S1024x1024 .f32) (y : S1024x1024.Idx) : ∃ pc ∈ (runC1 V c t h1 xs0).1, y ∈ pc.1.set :=
  View.cover_of_tiledL (runC1 V c t h1 xs0).1 S1024x1024.size (by sl_kernel_rfl) y
theorem scover1_C_0 (c : Dev nD) (t : Fin cfg1.N) (h1 : t.val % 43 = 42) (xs0 : Vec F S1024x1024 .f32) (y : S1024x1024.Idx) : ∃ pc ∈ (runC1 V c t h1 xs0).2.1, y ∈ pc.1.set :=
  View.cover_of_tiledL (runC1 V c t h1 xs0).2.1 S1024x1024.size (by sl_kernel_rfl) y

/-- After the body at position `n`: (the output's staging buffer, the accumulator). The first component is consulted
    only after a last reduction step. -/
def stAt1 (c : Dev nD) : (n : ℕ) → n < cfg1.N → Vec F S1024x1024 .f32 × Vec F S1024x1024 .f32
  | 0, hn => (rdO4 [], rdS1_0 (runA1 V c ⟨0, hn⟩ (Nat.zero_mod 43)).1)
  | n + 1, hn =>
    if h0 : (n + 1) % 43 = 0 then
      (rdO4 [], rdS1_0 (runA1 V c ⟨n + 1, hn⟩ h0).1)
    else
      if h1 : (n + 1) % 43 = 42 then
        (rdO4 (runC1 V c ⟨n + 1, hn⟩ h1 (stAt1 c n (Nat.lt_of_succ_lt hn)).2).1,
         rdS1_0 (runC1 V c ⟨n + 1, hn⟩ h1 (stAt1 c n (Nat.lt_of_succ_lt hn)).2).2.1)
      else
        (rdO4 [], rdS1_0 (runB1 V c ⟨n + 1, hn⟩ h0 h1 (stAt1 c n (Nat.lt_of_succ_lt hn)).2).1)

abbrev prev1 (c : Dev nD) (t : Fin cfg1.N) := stAt1 V c (t.val - 1) (Nat.lt_of_le_of_lt (Nat.sub_le _ _) t.isLt)

theorem stAt1_A (c : Dev nD) (t : Fin cfg1.N) (h0 : t.val % 43 = 0) :
    stAt1 V c t.val t.isLt = (rdO4 [], rdS1_0 (runA1 V c t h0).1) := by
  obtain ⟨n, hn⟩ := t
  cases n with
  | zero => exact rfl
  | succ n => exact (dif_pos h0).trans rfl

theorem stAt1_B (c : Dev nD) (t : Fin cfg1.N) (h0 : ¬t.val % 43 = 0) (h1 : ¬t.val % 43 = 42) :
    stAt1 V c t.val t.isLt = (rdO4 [], rdS1_0 (runB1 V c t h0 h1 (prev1 V c t).2).1) := by
  obtain ⟨n, hn⟩ := t
  cases n with
  | zero => exact (by exfalso; (try dsimp only at h0); exact absurd (Nat.zero_mod _) h0)
  | succ n => exact (dif_neg h0).trans ((dif_neg h1).trans rfl)

theorem stAt1_C (c : Dev nD) (t : Fin cfg1.N) (h0 : ¬t.val % 43 = 0) (h1 : t.val % 43 = 42) :
    stAt1 V c t.val t.isLt = (rdO4 (runC1 V c t h1 (prev1 V c t).2).1, rdS1_0 (runC1 V c t h1 (prev1 V c t).2).2.1) := by
  obtain ⟨n, hn⟩ := t
  cases n with
  | zero => exact (by exfalso; (try dsimp only at h0); exact absurd (Nat.zero_mod _) h0)
  | succ n => exact (dif_neg h0).trans ((dif_pos h1).trans rfl)

/-- The scoped buffers that belong to the first kernel, each whole at some contents: they ride through the second. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]
  iintro ⟨⟨Hb0, Hb1, Hb2, Hb3, Hb4, Hb5, Hb6, Hb7, Hb8, Hb9, Hb10, Hb11, Hb12, Hb13, Hb14, ⟨%fs, HS⟩⟩, Hg⟩
  isplitl [HS]
  · iexists fs; rw [owns_whole]; iexact HS
  isplitr [Hg]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14
  iexact Hg

theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]
  iintro ⟨⟨%fs, HS⟩, ⟨Hb0, Hb1, Hb2, Hb3, Hb4, Hb5, Hb6, Hb7, Hb8, Hb9, Hb10, Hb11, Hb12, Hb13, Hb14⟩, Hg⟩
  isplitr [Hg]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hb14]; · iexact Hb14
    iexists fs; rw [← owns_whole]; iexact HS
  iexact Hg

def PhiS1 (c : Dev nD) : (n : ℕ) → n ≤ cfg1.N → sProp 𝕄
  | 0, _ => Pipeline.ΦA spec1 c
  | n + 1, hn => iprop(owns (c : Thread nD τ) scM1_0 fullShare ((stAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((stAt1 V c n hn).2) ∗ others1 c ∗ (∃ r, prngReg c r)) := rfl
theorem PhiS1_pos (c : Dev nD) (n : ℕ) (h : n ≤ cfg1.N) (hz : n ≠ 0) :
    PhiS1 V c n h = iprop(owns (c : Thread nD τ) scM1_0 fullShare ((stAt1 V c (n - 1) (by omega)).2) ∗ others1 c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

end

end Cert.Kernel.Hand

end
-- ==== Proof.KDownBody.lean ====
/-
  The second kernel's body obligation at every grid point: by the reduction step the point is at, one of the
  three runs applies; the invariant hands the body the accumulator at what the point before left (at anything
  before the first point) and takes it back at this point's contents.
-/
import proofs.«134952_j29721173688828_1_alg».proof.Proof.KDownDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 688 := lt_of_lt_of_eq t.isLt (show cfg1.N = 688 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 43 = 0
  · have h1 : ¬t.val % 43 = 42 := by omega
    rw [Dat.leavesExact_idle (dat1 V c) 4 t (idleAt1_4 t (fun h => h1 ((hcond1_1 t).mp h))) (noFlush1_4 t (fun h => h1 ((hcond1_1 t).mp h)))]
    rw [stAt1_A V c t h0]
    (try dsimp only)
    by_cases hz : t.val = 0
    · rw [PhiS1_castSucc V c t, PhiS1_zero V c _ _ hz]
      refine (sep_mono (PhiA1_split c) .rfl).trans ?_
      iintro ⟨⟨HS0, Hoth, Hg⟩, Ho, ⟨%d0, H0⟩, ⟨%d1, H1⟩, ⟨%d2, H2⟩, ⟨%d3, H3⟩, ⟨%d4, H4⟩⟩
      iapply ((runA1 V c t h0).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_A_0 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runA1 V c t h0).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_A_0 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 43 = 42
    · rw [show (dat1 V c).leavesExact 4 t = owns (c : Thread nD τ) (ms1_4 t) fullShare ((dat1 V c).after 4 t) from by
        unfold Dat.leavesExact; rw [liveAt1_4 t ((hcond1_1 t).mpr h1)], after1_4]
      rw [stAt1_C V c t h0 h1]
      (try dsimp only)
      rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runC1 V c t h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0]
        · unfold owns; iexists _; isplitr
          swap; · iexact HS0
          ipureintro; exact View.read_writes_of_cover _ _ _ _ _ (scover1_C_0 V c t h1 _)
        isplitl [Hoth]; · iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t h1 _)
    · rw [Dat.leavesExact_idle (dat1 V c) 4 t (idleAt1_4 t (fun h => h1 ((hcond1_1 t).mp h))) (noFlush1_4 t (fun h => h1 ((hcond1_1 t).mp h)))]
      rw [stAt1_B V c t h0 h1]
      (try dsimp only)
      rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runB1 V c t h0 h1 _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_B_0 V c t h0 h1 _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS0, Hoth, Hg⟩
  isplitl [HS0]; · iexists _; iexact HS0
  isplitl [Hoth]; · iexact Hoth
  iexact Hg

theorem hout1 (c : Dev nD) : (dat1 V c).Φ (Fin.last cfg1.N) ⊢ Pipeline.ΦA spec1 c :=
  Phi_out1 V c _ (by rw [Fin.val_last]; have : cfg1.N = 688 := N_1; omega)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end

end Cert.Kernel.Hand

end
-- ==== Proof.KRunAll.lean ====
/-
  The whole program as four segments — host operations, the first kernel, host operations, the second kernel —
  run from the launch memory: every weakly fair execution terminates and every unscoped buffer ends at the
  contents folded through the segments (`W4`).  The arguments are written by no segment, so they end as launched.
-/
import proofs.«134952_j29721173688828_1_alg».proof.Proof.KGateUpBody
import proofs.«134952_j29721173688828_1_alg».proof.Proof.KDownBody
import proofs.«134952_j29721173688828_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (V3 m) c).arrAt_in 2 rfl _).trans (A_eq1 (V3 m) c 2))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V1 m) c 0 (Nat.zero_le _) from rfl, PhiS0_zero (V1 m) c 0 _ rfl]
    unfold Pipeline.ΦA
    iintro ⟨Hp, -, Hr⟩
    isplitl [Hr]; · iexact Hr
    iexact Hp
  hout c := by
    rw [Pipeline.ownSems0_none]
    have hΦ := hout0 (V1 m) c
    unfold Pipeline.ΦA at hΦ
    have h2 : iprop(Pipeline.scopedRest (Ix := Unit) (Name := ℕ) (U := UR sig nD τ) (Lvl := ℕ) (Val := Elt F) spec0 c ∗ ∃ r, prngReg c r)
        ⊢ (iprop((∃ r, prngReg c r) ∗ BI.emp ∗ Pipeline.scopedRest (Ix := Unit) (Name := ℕ) (U := UR sig nD τ) (Lvl := ℕ) (Val := Elt F) spec0 c) : sProp 𝕄) := by
      iintro ⟨Hr, Hp⟩
      isplitl [Hp]; · iexact Hp
      isplitr; · iempintro
      iexact Hr
    exact hΦ.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V3 m) c 0 (Nat.zero_le _) from rfl, PhiS1_zero (V3 m) c 0 _ rfl]
    unfold Pipeline.ΦA
    iintro ⟨Hp, -, Hr⟩
    isplitl [Hr]; · iexact Hr
    iexact Hp
  hout c := by
    rw [Pipeline.ownSems0_none]
    have hΦ := hout1 (V3 m) c
    unfold Pipeline.ΦA at hΦ
    have h2 : iprop(Pipeline.scopedRest (Ix := Unit) (Name := ℕ) (U := UR sig nD τ) (Lvl := ℕ) (Val := Elt F) spec1 c ∗ ∃ r, prngReg c r)
        ⊢ (iprop((∃ r, prngReg c r) ∗ BI.emp ∗ Pipeline.scopedRest (Ix := Unit) (Name := ℕ) (U := UR sig nD τ) (Lvl := ℕ) (Val := Elt F) spec1 c) : sProp 𝕄) := by
      iintro ⟨Hr, Hp⟩
      isplitl [Hp]; · iexact Hp
      isplitr; · iempintro
      iexact Hr
    exact hΦ.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution from `m` terminates, nothing faulting, with every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.GateUpBase.lean ====
/-
  The first kernel (gate and up projections) at one grid point: which of its two guarded blocks run there,
  where its output window is idle, and the names of its accumulator buffers.

  The grid is (4, 43, 4), walked with the last axis fastest, so point `t` is reduction step `t % 4` of a
  (row block, column block) pair: the accumulators are cleared where `t % 4 = 0`, and the output block is
  computed and written back where `t % 4 = 3`; at the other points the output's staging buffer is untouched.
-/
import proofs.«134952_j29721173688828_1_alg».proof.Proof.Gen.KernelIdeal.Launch
import proofs.«134952_j29721173688828_1_alg».proof.Proof.Gen.KernelIdeal.Skeleton
import proofs.«134952_j29721173688828_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The accumulators are cleared: the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is computed: the reduction coordinate is the last one, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last reduction step the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last reduction step it is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view
/-- One staging buffer of the output window, through which its contents are stated. -/
abbrev VO0_6 : View sig .tc .vmem S1024x256 .f32 := (Memref.whole cc0_stg6_0 : Memref sig .tc .vmem S1024x256 .f32).view

end Cert.KernelIdeal.Hand

end
-- ==== Proof.GateUpRunA.lean ====
/-
  The first kernel's body at a point where the reduction starts (`t % 4 = 0`): both accumulators are
  cleared, the first partial products are added into them, and the output's staging buffer is left as found.
  What each accumulator ends with is stated as a list of written pieces.
-/
import proofs.«134952_j29721173688828_1_alg».proof.Proof.GateUpBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) :
    Σ' (LS0 : List (View.Piece (Elt F) S1024x256 .f32)), { LS1 : List (View.Piece (Elt F) S1024x256 .f32) //
      ∀ (xi6 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, fun xi6 E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.GateUpRunB.lean ====
/-
  The first kernel's body at a middle reduction step (`t % 4` is 1 or 2): the partial products are added into
  the accumulators, which hold what the step before left; the output's staging buffer is left as found.
-/
import proofs.«134952_j29721173688828_1_alg».proof.Proof.GateUpBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 : Vec F S1024x256 .f32) (xs1 : Vec F S1024x256 .f32) :
    Σ' (LS0 : List (View.Piece (Elt F) S1024x256 .f32)), { LS1 : List (View.Piece (Elt F) S1024x256 .f32) //
      ∀ (xi6 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, fun xi6 E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.GateUpRunC.lean ====
/-
  The first kernel's body at the last reduction step (`t % 4 = 3`): the last partial products are added into
  the accumulators, and the output block — silu of the rescaled gate sum times the rescaled up sum — is stored
  over the whole staging buffer.
-/
import proofs.«134952_j29721173688828_1_alg».proof.Proof.GateUpBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 : Vec F S1024x256 .f32) (xs1 : Vec F S1024x256 .f32) :
    Σ' (L6 : List (View.Piece (Elt F) S1024x256 .f32)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__gateup_kernel_eq_skeleton]; unfold cc0__gateup_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    iexists _; iexact HS1

end Cert.KernelIdeal.Hand

end
-- ==== Proof.GateUpDat.lean ====
/-
  The first kernel's proof data at the contents `V` it is entered with.

  What the two accumulators hold after each grid point is defined by recursion on the point: cleared and
  first added to where `t % 4 = 0`, added to elsewhere; the output's staging buffer holds the computed block
  after a point with `t % 4 = 3`.  The invariant between points keeps the accumulators at those contents,
  every other scoped buffer at anything, and the generator register at some state.
-/
import proofs.«134952_j29721173688828_1_alg».proof.Proof.GateUpRunA
import proofs.«134952_j29721173688828_1_alg».proof.Proof.GateUpRunB
import proofs.«134952_j29721173688828_1_alg».proof.Proof.GateUpRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, read back from the pieces the run wrote -/

abbrev rdS0 (L : List (View.Piece (Elt F) S1024x256 .f32)) : Vec F S1024x256 .f32 := VS0_0.read (Elt F) (VS0_0.writes (Elt F) VS0_0.junk L)
abbrev rdS1 (L : List (View.Piece (Elt F) S1024x256 .f32)) : Vec F S1024x256 .f32 := VS0_1.read (Elt F) (VS0_1.writes (Elt F) VS0_1.junk L)
abbrev rdO6 (L : List (View.Piece (Elt F) S1024x256 .f32)) : Vec F S1024x256 .f32 := VO0_6.read (Elt F) (VO0_6.writes (Elt F) VO0_6.junk L)

/-- The run at a point where the reduction starts. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t)
/-- The run at a middle step, over what the step before left in the accumulators. -/
abbrev runB0 (c : Dev nD) (t : Fin cfg0.N) (h0 : ¬t.val % 4 = 0) (h1 : ¬t.val % 4 = 3) (xs0 xs1 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1
/-- The run at the last step. -/
abbrev runC0 (c : Dev nD) (t : Fin cfg0.N) (h1 : t.val % 4 = 3) (xs0 xs1 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => by have := (hcond0_0 t).mp h; omega) ((hcond0_1 t).mpr h1) (iblk0 V c 0 t) (iblk0 V c 1 t) (iblk0 V c 2 t) (iblk0 V c 3 t) (iblk0 V c 4 t) (iblk0 V c 5 t) xs0 xs1

theorem scover0_A_0 (c : Dev nD) (t : Fin cfg0.N) (h0 : t.val % 4 = 0) (y : S1024x256.Idx) : ∃ pc ∈ (runA0 V c t h0).1, y ∈ pc.1.set :=
  View.cover_of_tiledL (runA0 V c t h0).1 S1024x256.size (by sl_kernel_rfl) y
theorem scover0_A_1 (c : Dev nD) (t : Fin cfg0.N) (h0 : t.val % 4 = 0) (y : S1024x256.Idx) : ∃ pc ∈ (runA0 V c t h0).2.1, y ∈ pc.1.set :=
  View.cover_of_tiledL (runA0 V c t h0).2.1 S1024x256.size (by sl_kernel_rfl) y
theorem scover0_B_0 (c : Dev nD) (t : Fin cfg0.N) (h0 : ¬t.val % 4 = 0) (h1 : ¬t.val % 4 = 3) (xs0 xs1 : Vec F S1024x256 .f32) (y : S1024x256.Idx) : ∃ pc ∈ (runB0 V c t h0 h1 xs0 xs1).1, y ∈ pc.1.set :=
  View.cover_of_tiledL (runB0 V c t h0 h1 xs0 xs1).1 S1024x256.size (by sl_kernel_rfl) y
theorem scover0_B_1 (c : Dev nD) (t : Fin cfg0.N) (h0 : ¬t.val % 4 = 0) (h1 : ¬t.val % 4 = 3) (xs0 xs1 : Vec F S1024x256 .f32) (y : S1024x256.Idx) : ∃ pc ∈ (runB0 V c t h0 h1 xs0 xs1).2.1, y ∈ pc.1.set :=
  View.cover_of_tiledL (runB0 V c t h0 h1 xs0 xs1).2.1 S1024x256.size (by sl_kernel_rfl) y
theorem cover0_C_6 (c : Dev nD) (t : Fin cfg0.N) (h1 : t.val % 4 = 3) (xs0 xs1 : Vec F S1024x256 .f32) (y : S1024x256.Idx) : ∃ pc ∈ (runC0 V c t h1 xs0 xs1).1, y ∈ pc.1.set :=
  View.cover_of_tiledL (runC0 V c t h1 xs0 xs1).1 S1024x256.size (by sl_kernel_rfl) y
theorem scover0_C_0 (c : Dev nD) (t : Fin cfg0.N) (h1 : t.val % 4 = 3) (xs0 xs1 : Vec F S1024x256 .f32) (y : S1024x256.Idx) : ∃ pc ∈ (runC0 V c t h1 xs0 xs1).2.1, y ∈ pc.1.set :=
  View.cover_of_tiledL (runC0 V c t h1 xs0 xs1).2.1 S1024x256.size (by sl_kernel_rfl) y
theorem scover0_C_1 (c : Dev nD) (t : Fin cfg0.N) (h1 : t.val % 4 = 3) (xs0 xs1 : Vec F S1024x256 .f32) (y : S1024x256.Idx) : ∃ pc ∈ (runC0 V c t h1 xs0 xs1).2.2.1, y ∈ pc.1.set :=
  View.cover_of_tiledL (runC0 V c t h1 xs0 xs1).2.2.1 S1024x256.size (by sl_kernel_rfl) y

/-! ## What the output's staging buffer and the accumulators hold after each point -/

/-- After the body at position `n`: (the output's staging buffer, the gate accumulator, the up accumulator).
    The first component is consulted only after a last reduction step. -/
def stAt0 (c : Dev nD) : (n : ℕ) → n < cfg0.N → Vec F S1024x256 .f32 × Vec F S1024x256 .f32 × Vec F S1024x256 .f32
  | 0, hn => (rdO6 [], rdS0 (runA0 V c ⟨0, hn⟩ (Nat.zero_mod 4)).1, rdS1 (runA0 V c ⟨0, hn⟩ (Nat.zero_mod 4)).2.1)
  | n + 1, hn =>
    if h0 : (n + 1) % 4 = 0 then
      (rdO6 [], rdS0 (runA0 V c ⟨n + 1, hn⟩ h0).1, rdS1 (runA0 V c ⟨n + 1, hn⟩ h0).2.1)
    else
      if h1 : (n + 1) % 4 = 3 then
        (rdO6 (runC0 V c ⟨n + 1, hn⟩ h1 (stAt0 c n (Nat.lt_of_succ_lt hn)).2.1 (stAt0 c n (Nat.lt_of_succ_lt hn)).2.2).1,
         rdS0 (runC0 V c ⟨n + 1, hn⟩ h1 (stAt0 c n (Nat.lt_of_succ_lt hn)).2.1 (stAt0 c n (Nat.lt_of_succ_lt hn)).2.2).2.1,
         rdS1 (runC0 V c ⟨n + 1, hn⟩ h1 (stAt0 c n (Nat.lt_of_succ_lt hn)).2.1 (stAt0 c n (Nat.lt_of_succ_lt hn)).2.2).2.2.1)
      else
        (rdO6 [],
         rdS0 (runB0 V c ⟨n + 1, hn⟩ h0 h1 (stAt0 c n (Nat.lt_of_succ_lt hn)).2.1 (stAt0 c n (Nat.lt_of_succ_lt hn)).2.2).1,
         rdS1 (runB0 V c ⟨n + 1, hn⟩ h0 h1 (stAt0 c n (Nat.lt_of_succ_lt hn)).2.1 (stAt0 c n (Nat.lt_of_succ_lt hn)).2.2).2.1)

/-- The contents at the point before `t`, for a point that is not the first. -/
abbrev prev0 (c : Dev nD) (t : Fin cfg0.N) := stAt0 V c (t.val - 1) (Nat.lt_of_le_of_lt (Nat.sub_le _ _) t.isLt)

theorem stAt0_A (c : Dev nD) (t : Fin cfg0.N) (h0 : t.val % 4 = 0) :
    stAt0 V c t.val t.isLt = (rdO6 [], rdS0 (runA0 V c t h0).1, rdS1 (runA0 V c t h0).2.1) := by
  obtain ⟨n, hn⟩ := t
  cases n with
  | zero => exact rfl
  | succ n => exact (dif_pos h0).trans rfl

theorem stAt0_B (c : Dev nD) (t : Fin cfg0.N) (h0 : ¬t.val % 4 = 0) (h1 : ¬t.val % 4 = 3) :
    stAt0 V c t.val t.isLt = (rdO6 [], rdS0 (runB0 V c t h0 h1 (prev0 V c t).2.1 (prev0 V c t).2.2).1, rdS1 (runB0 V c t h0 h1 (prev0 V c t).2.1 (prev0 V c t).2.2).2.1) := by
  obtain ⟨n, hn⟩ := t
  cases n with
  | zero => exact (by exfalso; (try dsimp only at h0); exact absurd (Nat.zero_mod _) h0)
  | succ n => exact (dif_neg h0).trans ((dif_neg h1).trans rfl)

theorem stAt0_C (c : Dev nD) (t : Fin cfg0.N) (h0 : ¬t.val % 4 = 0) (h1 : t.val % 4 = 3) :
    stAt0 V c t.val t.isLt = (rdO6 (runC0 V c t h1 (prev0 V c t).2.1 (prev0 V c t).2.2).1, rdS0 (runC0 V c t h1 (prev0 V c t).2.1 (prev0 V c t).2.2).2.1, rdS1 (runC0 V c t h1 (prev0 V c t).2.1 (prev0 V c t).2.2).2.2.1) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that belong to the second kernel, each whole at some contents: they ride through the first. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region, with the accumulators as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-- Before position `n`: at the start what the launch hands over; afterwards the accumulators at what the point
    before left. -/
def PhiS0 (c : Dev nD) : (n : ℕ) → n ≤ cfg0.N → sProp 𝕄
  | 0, _ => Pipeline.ΦA spec0 c
  | n + 1, hn => iprop(iprop(owns (c : Thread nD τ) scM0_0 fullShare ((stAt0 V c n hn).2.1) ∗ owns (c : Thread nD τ) scM0_1 fullShare ((stAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((stAt0 V c n hn).2.1) ∗ owns (c : Thread nD τ) scM0_1 fullShare ((stAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((stAt0 V c (n - 1) (by omega)).2.1) ∗ owns (c : Thread nD τ) scM0_1 fullShare ((stAt0 V c (n - 1) (by omega)).2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (stAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (stAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

end

end Cert.KernelIdeal.Hand

end
-- ==== Proof.GateUpBody.lean ====
/-
  The first kernel's body obligation at every grid point: by the reduction step the point is at, one of the three
  runs applies; the invariant hands the body the accumulators at what the point before left (at anything before
  the first point) and takes them back at this point's contents.
-/
import proofs.«134952_j29721173688828_1_alg».proof.Proof.GateUpDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 688 := lt_of_lt_of_eq t.isLt (show cfg0.N = 688 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · have h1 : ¬t.val % 4 = 3 := by omega
    rw [Dat.leavesExact_idle (dat0 V c) 6 t (idleAt0_6 t (fun h => h1 ((hcond0_1 t).mp h))) (noFlush0_6 t (fun h => h1 ((hcond0_1 t).mp h)))]
    rw [stAt0_A V c t h0]
    (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 V c t h0)
          isplitl [HS1]
          · unfold owns; iexists _; isplitr
            swap; · iexact HS1
            ipureintro; exact View.read_writes_of_cover _ _ _ _ _ (scover0_A_1 V c t h0)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 V c t h0)
          isplitl [HS1]
          · unfold owns; iexists _; isplitr
            swap; · iexact HS1
            ipureintro; exact View.read_writes_of_cover _ _ _ _ _ (scover0_A_1 V c t h0)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dat0 V c).leavesExact 6 t = owns (c : Thread nD τ) (ms0_6 t) fullShare ((dat0 V c).after 6 t) from by
        unfold Dat.leavesExact; rw [liveAt0_6 t ((hcond0_1 t).mpr h1)], after0_6]
      rw [stAt0_C V c t h0 h1]
      (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t h1 _ _)
          isplitl [HS1]
          · unfold owns; iexists _; isplitr
            swap; · iexact HS1
            ipureintro; exact View.read_writes_of_cover _ _ _ _ _ (scover0_C_1 V c t h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 V c t h1 _ _)
    · rw [Dat.leavesExact_idle (dat0 V c) 6 t (idleAt0_6 t (fun h => h1 ((hcond0_1 t).mp h))) (noFlush0_6 t (fun h => h1 ((hcond0_1 t).mp h)))]
      rw [stAt0_B V c t h0 h1]
      (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t h0 h1 _ _)
          isplitl [HS1]
          · unfold owns; iexists _; isplitr
            swap; · iexact HS1
            ipureintro; exact View.read_writes_of_cover _ _ _ _ _ (scover0_B_1 V c t h0 h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the launch handed over: the accumulators' contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 688 := N_0; omega)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end

end Cert.KernelIdeal.Hand

end
-- ==== Proof.DownBase.lean ====
/-
  The second kernel (down projection) at one grid point: which of its two guarded blocks run there, where its
  output window is idle, and the name of its accumulator buffer.

  The grid is (4, 4, 43), the last axis fastest: point `t` is reduction step `t % 43` of a (row block,
  column block) pair; the accumulator is cleared where `t % 43 = 0`, the output block is computed and written
  back where `t % 43 = 42`, and elsewhere the output's staging buffer is untouched.
-/
import proofs.«134952_j29721173688828_1_alg».proof.Proof.Gen.KernelIdeal.Launch
import proofs.«134952_j29721173688828_1_alg».proof.Proof.Gen.KernelIdeal.Skeleton
import proofs.«134952_j29721173688828_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view
abbrev VO1_4 : View sig .tc .vmem S1024x1024 .f32 := (Memref.whole cc1_stg4_0 : Memref sig .tc .vmem S1024x1024 .f32).view

end Cert.KernelIdeal.Hand

end
-- ==== Proof.DownRunA.lean ====
/-
  The second kernel's body where the reduction starts (`t % 43 = 0`): the accumulator is cleared and the first
  partial product added into it; the output's staging buffer is left as found.
-/
import proofs.«134952_j29721173688828_1_alg».proof.Proof.DownBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1x1 .f32) (x1 : Vec F S1024x256 .f32) (x2 : Vec F S1024x256 .f32) (x3 : Vec F S1x1024 .f32) :
    { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.DownRunB.lean ====
/-
  The second kernel's body at a middle reduction step: the partial product is added into the accumulator, which
  holds what the step before left; the output's staging buffer is left as found.
-/
import proofs.«134952_j29721173688828_1_alg».proof.Proof.DownBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1x1 .f32) (x1 : Vec F S1024x256 .f32) (x2 : Vec F S1024x256 .f32) (x3 : Vec F S1x1024 .f32) (xs0 : Vec F S1024x1024 .f32) :
    { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.DownRunC.lean ====
/-
  The second kernel's body at the last reduction step (`t % 43 = 42`): the last partial product is added into the
  accumulator and the rescaled sum is stored over the whole output staging buffer.
-/
import proofs.«134952_j29721173688828_1_alg».proof.Proof.DownBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1x1 .f32) (x1 : Vec F S1024x256 .f32) (x2 : Vec F S1024x256 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.DownDat.lean ====
/-
  The second kernel's proof data at the contents `V` it is entered with: what its accumulator holds after each
  grid point (cleared and first added to where `t % 43 = 0`, added to elsewhere), the output's staging buffer
  after a point with `t % 43 = 42`, and the invariant between points.
-/
import proofs.«134952_j29721173688828_1_alg».proof.Proof.DownRunA
import proofs.«134952_j29721173688828_1_alg».proof.Proof.DownRunB
import proofs.«134952_j29721173688828_1_alg».proof.Proof.DownRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rdS1_0 (L : List (View.Piece (Elt F) S1024x1024 .f32)) : Vec F S1024x1024 .f32 := VS1_0.read (Elt F) (VS1_0.writes (Elt F) VS1_0.junk L)
abbrev rdO4 (L : List (View.Piece (Elt F) S1024x1024 .f32)) : Vec F S1024x1024 .f32 := VO1_4.read (Elt F) (VO1_4.writes (Elt F) VO1_4.junk L)

abbrev runA1 (c : Dev nD) (t : Fin cfg1.N) (h0 : t.val % 43 = 0) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    ((hcond1_0 t).mpr h0) (fun h => by have := (hcond1_1 t).mp h; omega) (iblk1 V c 0 t) (iblk1 V c 1 t) (iblk1 V c 2 t) (iblk1 V c 3 t)
abbrev runB1 (c : Dev nD) (t : Fin cfg1.N) (h0 : ¬t.val % 43 = 0) (h1 : ¬t.val % 43 = 42) (xs0 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    (fun h => h0 ((hcond1_0 t).mp h)) (fun h => h1 ((hcond1_1 t).mp h)) (iblk1 V c 0 t) (iblk1 V c 1 t) (iblk1 V c 2 t) (iblk1 V c 3 t) xs0
abbrev runC1 (c : Dev nD) (t : Fin cfg1.N) (h1 : t.val % 43 = 42) (xs0 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _)
    (fun h => by have := (hcond1_0 t).mp h; omega) ((hcond1_1 t).mpr h1) (iblk1 V c 0 t) (iblk1 V c 1 t) (iblk1 V c 2 t) (iblk1 V c 3 t) xs0

theorem scover1_A_0 (c : Dev nD) (t : Fin cfg1.N) (h0 : t.val % 43 = 0) (y : S1024x1024.Idx) : ∃ pc ∈ (runA1 V c t h0).1, y ∈ pc.1.set :=
  View.cover_of_tiledL (runA1 V c t h0).1 S1024x1024.size (by sl_kernel_rfl) y
theorem scover1_B_0 (c : Dev nD) (t : Fin cfg1.N) (h0 : ¬t.val % 43 = 0) (h1 : ¬t.val % 43 = 42) (xs0 : Vec F S1024x1024 .f32) (y : S1024x1024.Idx) : ∃ pc ∈ (runB1 V c t h0 h1 xs0).1, y ∈ pc.1.set :=
  View.cover_of_tiledL (runB1 V c t h0 h1 xs0).1 S1024x1024.size (by sl_kernel_rfl) y
theorem cover1_C_4 (c : Dev nD) (t : Fin cfg1.N) (h1 : t.val % 43 = 42) (xs0 : Vec F S1024x1024 .f32) (y : S1024x1024.Idx) : ∃ pc ∈ (runC1 V c t h1 xs0).1, y ∈ pc.1.set :=
  View.cover_of_tiledL (runC1 V c t h1 xs0).1 S1024x1024.size (by sl_kernel_rfl) y
theorem scover1_C_0 (c : Dev nD) (t : Fin cfg1.N) (h1 : t.val % 43 = 42) (xs0 : Vec F S1024x1024 .f32) (y : S1024x1024.Idx) : ∃ pc ∈ (runC1 V c t h1 xs0).2.1, y ∈ pc.1.set :=
  View.cover_of_tiledL (runC1 V c t h1 xs0).2.1 S1024x1024.size (by sl_kernel_rfl) y

/-- After the body at position `n`: (the output's staging buffer, the accumulator). The first component is consulted
    only after a last reduction step. -/
def stAt1 (c : Dev nD) : (n : ℕ) → n < cfg1.N → Vec F S1024x1024 .f32 × Vec F S1024x1024 .f32
  | 0, hn => (rdO4 [], rdS1_0 (runA1 V c ⟨0, hn⟩ (Nat.zero_mod 43)).1)
  | n + 1, hn =>
    if h0 : (n + 1) % 43 = 0 then
      (rdO4 [], rdS1_0 (runA1 V c ⟨n + 1, hn⟩ h0).1)
    else
      if h1 : (n + 1) % 43 = 42 then
        (rdO4 (runC1 V c ⟨n + 1, hn⟩ h1 (stAt1 c n (Nat.lt_of_succ_lt hn)).2).1,
         rdS1_0 (runC1 V c ⟨n + 1, hn⟩ h1 (stAt1 c n (Nat.lt_of_succ_lt hn)).2).2.1)
      else
        (rdO4 [], rdS1_0 (runB1 V c ⟨n + 1, hn⟩ h0 h1 (stAt1 c n (Nat.lt_of_succ_lt hn)).2).1)

abbrev prev1 (c : Dev nD) (t : Fin cfg1.N) := stAt1 V c (t.val - 1) (Nat.lt_of_le_of_lt (Nat.sub_le _ _) t.isLt)

theorem stAt1_A (c : Dev nD) (t : Fin cfg1.N) (h0 : t.val % 43 = 0) :
    stAt1 V c t.val t.isLt = (rdO4 [], rdS1_0 (runA1 V c t h0).1) := by
  obtain ⟨n, hn⟩ := t
  cases n with
  | zero => exact rfl
  | succ n => exact (dif_pos h0).trans rfl

theorem stAt1_B (c : Dev nD) (t : Fin cfg1.N) (h0 : ¬t.val % 43 = 0) (h1 : ¬t.val % 43 = 42) :
    stAt1 V c t.val t.isLt = (rdO4 [], rdS1_0 (runB1 V c t h0 h1 (prev1 V c t).2).1) := by
  obtain ⟨n, hn⟩ := t
  cases n with
  | zero => exact (by exfalso; (try dsimp only at h0); exact absurd (Nat.zero_mod _) h0)
  | succ n => exact (dif_neg h0).trans ((dif_neg h1).trans rfl)

theorem stAt1_C (c : Dev nD) (t : Fin cfg1.N) (h0 : ¬t.val % 43 = 0) (h1 : t.val % 43 = 42) :
    stAt1 V c t.val t.isLt = (rdO4 (runC1 V c t h1 (prev1 V c t).2).1, rdS1_0 (runC1 V c t h1 (prev1 V c t).2).2.1) := by
  obtain ⟨n, hn⟩ := t
  cases n with
  | zero => exact (by exfalso; (try dsimp only at h0); exact absurd (Nat.zero_mod _) h0)
  | succ n => exact (dif_neg h0).trans ((dif_pos h1).trans rfl)

/-- The scoped buffers that belong to the first kernel, each whole at some contents: they ride through the second. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]
  iintro ⟨⟨Hb0, Hb1, Hb2, Hb3, Hb4, Hb5, Hb6, Hb7, Hb8, Hb9, Hb10, Hb11, Hb12, Hb13, Hb14, ⟨%fs, HS⟩⟩, Hg⟩
  isplitl [HS]
  · iexists fs; rw [owns_whole]; iexact HS
  isplitr [Hg]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14
  iexact Hg

theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]
  iintro ⟨⟨%fs, HS⟩, ⟨Hb0, Hb1, Hb2, Hb3, Hb4, Hb5, Hb6, Hb7, Hb8, Hb9, Hb10, Hb11, Hb12, Hb13, Hb14⟩, Hg⟩
  isplitr [Hg]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hb14]; · iexact Hb14
    iexists fs; rw [← owns_whole]; iexact HS
  iexact Hg

def PhiS1 (c : Dev nD) : (n : ℕ) → n ≤ cfg1.N → sProp 𝕄
  | 0, _ => Pipeline.ΦA spec1 c
  | n + 1, hn => iprop(owns (c : Thread nD τ) scM1_0 fullShare ((stAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((stAt1 V c n hn).2) ∗ others1 c ∗ (∃ r, prngReg c r)) := rfl
theorem PhiS1_pos (c : Dev nD) (n : ℕ) (h : n ≤ cfg1.N) (hz : n ≠ 0) :
    PhiS1 V c n h = iprop(owns (c : Thread nD τ) scM1_0 fullShare ((stAt1 V c (n - 1) (by omega)).2) ∗ others1 c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

end

end Cert.KernelIdeal.Hand

end
-- ==== Proof.DownBody.lean ====
/-
  The second kernel's body obligation at every grid point: by the reduction step the point is at, one of the
  three runs applies; the invariant hands the body the accumulator at what the point before left (at anything
  before the first point) and takes it back at this point's contents.
-/
import proofs.«134952_j29721173688828_1_alg».proof.Proof.DownDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 688 := lt_of_lt_of_eq t.isLt (show cfg1.N = 688 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 43 = 0
  · have h1 : ¬t.val % 43 = 42 := by omega
    rw [Dat.leavesExact_idle (dat1 V c) 4 t (idleAt1_4 t (fun h => h1 ((hcond1_1 t).mp h))) (noFlush1_4 t (fun h => h1 ((hcond1_1 t).mp h)))]
    rw [stAt1_A V c t h0]
    (try dsimp only)
    by_cases hz : t.val = 0
    · rw [PhiS1_castSucc V c t, PhiS1_zero V c _ _ hz]
      refine (sep_mono (PhiA1_split c) .rfl).trans ?_
      iintro ⟨⟨HS0, Hoth, Hg⟩, Ho, ⟨%d0, H0⟩, ⟨%d1, H1⟩, ⟨%d2, H2⟩, ⟨%d3, H3⟩, ⟨%d4, H4⟩⟩
      iapply ((runA1 V c t h0).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_A_0 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runA1 V c t h0).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_A_0 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 43 = 42
    · rw [show (dat1 V c).leavesExact 4 t = owns (c : Thread nD τ) (ms1_4 t) fullShare ((dat1 V c).after 4 t) from by
        unfold Dat.leavesExact; rw [liveAt1_4 t ((hcond1_1 t).mpr h1)], after1_4]
      rw [stAt1_C V c t h0 h1]
      (try dsimp only)
      rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runC1 V c t h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0]
        · unfold owns; iexists _; isplitr
          swap; · iexact HS0
          ipureintro; exact View.read_writes_of_cover _ _ _ _ _ (scover1_C_0 V c t h1 _)
        isplitl [Hoth]; · iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t h1 _)
    · rw [Dat.leavesExact_idle (dat1 V c) 4 t (idleAt1_4 t (fun h => h1 ((hcond1_1 t).mp h))) (noFlush1_4 t (fun h => h1 ((hcond1_1 t).mp h)))]
      rw [stAt1_B V c t h0 h1]
      (try dsimp only)
      rw [PhiS1_castSucc V c t, PhiS1_pos V c _ _ hz]
      iintro ⟨⟨HS0, Hoth, Hg⟩, Ho, ⟨%d0, H0⟩, ⟨%d1, H1⟩, ⟨%d2, H2⟩, ⟨%d3, H3⟩, ⟨%d4, H4⟩⟩
      iapply ((runB1 V c t h0 h1 _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0]
        · unfold owns; iexists _; isplitr
          swap; · iexact HS0
          ipureintro; exact View.read_writes_of_cover _ _ _ _ _ (scover1_B_0 V c t h0 h1 _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS0, Hoth, Hg⟩
  isplitl [HS0]; · iexists _; iexact HS0
  isplitl [Hoth]; · iexact Hoth
  iexact Hg

theorem hout1 (c : Dev nD) : (dat1 V c).Φ (Fin.last cfg1.N) ⊢ Pipeline.ΦA spec1 c :=
  Phi_out1 V c _ (by rw [Fin.val_last]; have : cfg1.N = 688 := N_1; omega)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end

end Cert.KernelIdeal.Hand

end
-- ==== Proof.RunAll.lean ====
/-
  The whole program as four segments — host operations, the first kernel, host operations, the second kernel —
  run from the launch memory: every weakly fair execution terminates and every unscoped buffer ends at the
  contents folded through the segments (`W4`).  The arguments are written by no segment, so they end as launched.
-/
import proofs.«134952_j29721173688828_1_alg».proof.Proof.GateUpBody
import proofs.«134952_j29721173688828_1_alg».proof.Proof.DownBody
import proofs.«134952_j29721173688828_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (V3 m) c).arrAt_in 2 rfl _).trans (A_eq1 (V3 m) c 2))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V1 m) c 0 (Nat.zero_le _) from rfl, PhiS0_zero (V1 m) c 0 _ rfl]
    unfold Pipeline.ΦA
    iintro ⟨Hp, -, Hr⟩
    isplitl [Hr]; · iexact Hr
    iexact Hp
  hout c := by
    rw [Pipeline.ownSems0_none]
    have hΦ := hout0 (V1 m) c
    unfold Pipeline.ΦA at hΦ
    have h2 : iprop(Pipeline.scopedRest (Ix := Unit) (Name := ℕ) (U := UR sig nD τ) (Lvl := ℕ) (Val := Elt F) spec0 c ∗ ∃ r, prngReg c r)
        ⊢ (iprop((∃ r, prngReg c r) ∗ BI.emp ∗ Pipeline.scopedRest (Ix := Unit) (Name := ℕ) (U := UR sig nD τ) (Lvl := ℕ) (Val := Elt F) spec0 c) : sProp 𝕄) := by
      iintro ⟨Hr, Hp⟩
      isplitl [Hp]; · iexact Hp
      isplitr; · iempintro
      iexact Hr
    exact hΦ.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V3 m) c 0 (Nat.zero_le _) from rfl, PhiS1_zero (V3 m) c 0 _ rfl]
    unfold Pipeline.ΦA
    iintro ⟨Hp, -, Hr⟩
    isplitl [Hr]; · iexact Hr
    iexact Hp
  hout c := by
    rw [Pipeline.ownSems0_none]
    have hΦ := hout1 (V3 m) c
    unfold Pipeline.ΦA at hΦ
    have h2 : iprop(Pipeline.scopedRest (Ix := Unit) (Name := ℕ) (U := UR sig nD τ) (Lvl := ℕ) (Val := Elt F) spec1 c ∗ ∃ r, prngReg c r)
        ⊢ (iprop((∃ r, prngReg c r) ∗ BI.emp ∗ Pipeline.scopedRest (Ix := Unit) (Name := ℕ) (U := UR sig nD τ) (Lvl := ℕ) (Val := Elt F) spec1 c) : sProp 𝕄) := by
      iintro ⟨Hr, Hp⟩
      isplitl [Hp]; · iexact Hp
      isplitr; · iempintro
      iexact Hr
    exact hΦ.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution from `m` terminates, nothing faulting, with every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.Spec.lean ====
/-
  The function both programs compute, written once over plain coordinates.

  A token row `t` of the activations `x` is quantized entry by entry against one scale `sx`
  (divide, round half to even, clamp to [-127, 127]); its product with row `j` of the weights is the sum over
  the hidden axis; the sum is rescaled by `sx * s1 j`.  Column `j < 11008` is the gate, column `j + 11008`
  the matching up-projection, and the hidden activation is `silu gate * up` with `silu g = g * logistic g`.
  The second projection quantizes the hidden activation against its own scale `sh` and contracts it with the
  down weights in the same way.  A scale is the largest absolute entry of its array divided by 127; it is kept
  as the host operations' own term (`scale`), which both programs spell identically.
-/
import Idealize.ShloMosaic.PureOps
import Idealize.ShloMosaic.PureOps.Ideal
import Idealize.ShloMosaic.PureOps.Ideal.Laws
import Idealize.ShloMosaic.Lib.ValueIdx

noncomputable section

namespace Cert.QuantMlp

open Idealize.ShloMosaic Idealize.ShloMosaic.ValueIdx

/-- One entry quantized against the scale `s`: `clamp (roundHalfEven (v / s)) (-127) 127` on the extended reals. -/
def quant (v s : EReal) : EReal :=
  min (Ideal.ofBits .f32 0x42FE0000#32) (max (Ideal.ofBits .f32 0xC2FE0000#32) (Ideal.liftRound Ideal.roundHalfEven (Ideal.div v s)))

/-- `silu g = g * logistic g`. -/
def silu (g : EReal) : EReal := g * Ideal.logistic g

/-- The largest absolute entry of a matrix divided by 127, as the host operations compute it (a rank-0 array). -/
def scale {a b : Nat} (X : FVec Ideal (⟨2, ![a, b]⟩ : Shape) .f32)
    (hr : (⟨2, ![a, b]⟩ : Shape).ReducesTo [0, 1] (⟨0, ![]⟩ : Shape)) (h0 : 0 < (⟨0, ![]⟩ : Shape).numel) :
    FVec Ideal (⟨0, ![]⟩ : Shape) .f32 :=
  Host.divf (Host.reduce FloatOps.maximumf (Host.absf X) (constant (⟨0, ![]⟩ : Shape) .f32 0xFF800000#32) hr h0)
    (constant (⟨0, ![]⟩ : Shape) .f32 0x42FE0000#32)

/-- Row `t` of the quantized activations against row `j` of the weights, summed over the contracted axis `K`
    and rescaled by `sx * s j`. -/
def proj {T J K : Nat} (x : Fin T → Fin K → EReal) (w : Fin J → Fin K → EReal) (s : Fin J → EReal) (sx : EReal)
    (t : Fin T) (j : Fin J) : EReal :=
  (∑ k : Fin K, quant (x t k) sx * w j k) * (sx * s j)

/-- The hidden activation: `silu` of the gate column times the up column `11008` further on. -/
def hidden (x : Fin 4096 → Fin 4096 → EReal) (w1 : Fin 22016 → Fin 4096 → EReal) (s1 : Fin 22016 → EReal) (sx : EReal)
    (t : Fin 4096) (j : Fin 11008) : EReal :=
  silu (proj x w1 s1 sx t ⟨j.val, by omega⟩) * proj x w1 s1 sx t ⟨j.val + 11008, by omega⟩

end Cert.QuantMlp

end
-- ==== Proof.HostStretch.lean ====
/-
  The host operations of the kernel program, read back.

  Before the first kernel the host computes the activation scale `max |x| / 127` (the same host term the specification
  calls `scale`) and reshapes it to one row and one column; cuts the first weights into their first 11008 rows (the gate) and
  their last 11008 rows (the up-projection); and cuts the column scales the same way, each half reshaped to one row.  Between
  the two kernels it computes the scale of the hidden array the first kernel wrote, reshapes it, and reshapes the down scales
  to one row.  Each statement below says what one of those buffers holds, at an index, in terms of the buffers the stretch
  started from, whatever those held; a buffer the stretch does not write keeps its contents.
-/
import proofs.«134952_j29721173688828_1_alg».proof.Proof.Gen.KernelIdeal.Launch
import proofs.«134952_j29721173688828_1_alg».proof.Proof.Gen.KernelIdeal.Regions
import proofs.«134952_j29721173688828_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-! ## The first stretch: the activation scale, the two halves of the first weights and of their scales -/

/-- The activation scale is the specification's `scale` of the activations the stretch starts from. -/
theorem v2_after (Wb : Valuation τ sig (Elt Ideal)) :
    (StableHlo.after (hostOps0 (F := Ideal)) Wb (Proc.devRef .tc main_v2) : FVec Ideal S_ .f32)
      = Cert.QuantMlp.scale (Wb (Proc.devRef .tc main_arg0) : FVec Ideal S4096x4096 .f32) reducesTo_S4096x4096_S_d0_1 h_S_ := by
  after_results
  rfl

theorem v3_after (Wb : Valuation τ sig (Elt Ideal)) :
    (StableHlo.after (hostOps0 (F := Ideal)) Wb (Proc.devRef .tc main_v3) : FVec Ideal S1x1 .f32)
      = shapeCast S1x1 (Cert.QuantMlp.scale (Wb (Proc.devRef .tc main_arg0) : FVec Ideal S4096x4096 .f32) reducesTo_S4096x4096_S_d0_1 h_S_) shapeCasts_S_S1x1 := by
  after_results
  rfl

/-- The rank-0 scale reshaped to one row and one column is read at its one entry. -/
theorem v3_apply (Wb : Valuation τ sig (Elt Ideal)) :
    (StableHlo.after (hostOps0 (F := Ideal)) Wb (Proc.devRef .tc main_v3) : FVec Ideal S1x1 .f32) (ix2 0 0)
      = Cert.QuantMlp.scale (Wb (Proc.devRef .tc main_arg0) : FVec Ideal S4096x4096 .f32) reducesTo_S4096x4096_S_d0_1 h_S_ ix0 := by
  rw [v3_after]
  refine shapeCast_apply _ _ _ ix0 ?_
  rw [Shape.rowMajor_val_two]
  exact Nat.lt_one_iff.mp (Shape.rowMajor _ ix0).isLt

theorem v4_after (Wb : Valuation τ sig (Elt Ideal)) :
    (StableHlo.after (hostOps0 (F := Ideal)) Wb (Proc.devRef .tc main_v4) : FVec Ideal S11008x4096 .f32)
      = extractStridedSlice S11008x4096 ![0, 0] (Wb (Proc.devRef .tc main_arg1) : FVec Ideal S22016x4096 .f32) slices_S22016x4096_S11008x4096_0_0 := by
  after_results
  first | done | rfl

/-- The gate rows of the first weights are its first 11008 rows. -/
theorem v4_apply (Wb : Valuation τ sig (Elt Ideal)) (a : Fin 11008) (b : Fin 4096) :
    (StableHlo.after (hostOps0 (F := Ideal)) Wb (Proc.devRef .tc main_v4) : FVec Ideal S11008x4096 .f32) (ix2 a b)
      = (Wb (Proc.devRef .tc main_arg1) : FVec Ideal S22016x4096 .f32) (ix2 (⟨a.val, by omega⟩ : Fin 22016) b) := by
  rw [v4_after]
  exact extractStridedSlice_apply ![0, 0] _ slices_S22016x4096_S11008x4096_0_0 (ix2 a b) (ix2 (⟨a.val, by omega⟩ : Fin 22016) b)
    (fun d => match d with
      | ⟨0, _⟩ => by show a.val = 0 + a.val; omega
      | ⟨1, _⟩ => by show b.val = 0 + b.val; omega)

theorem v5_after (Wb : Valuation τ sig (Elt Ideal)) :
    (StableHlo.after (hostOps0 (F := Ideal)) Wb (Proc.devRef .tc main_v5) : FVec Ideal S11008x4096 .f32)
      = extractStridedSlice S11008x4096 ![11008, 0] (Wb (Proc.devRef .tc main_arg1) : FVec Ideal S22016x4096 .f32) slices_S22016x4096_S11008x4096_11008_0 := by
  after_results
  first | done | rfl

/-- The up rows of the first weights are its last 11008 rows. -/
theorem v5_apply (Wb : Valuation τ sig (Elt Ideal)) (a : Fin 11008) (b : Fin 4096) :
    (StableHlo.after (hostOps0 (F := Ideal)) Wb (Proc.devRef .tc main_v5) : FVec Ideal S11008x4096 .f32) (ix2 a b)
      = (Wb (Proc.devRef .tc main_arg1) : FVec Ideal S22016x4096 .f32) (ix2 (⟨a.val + 11008, by omega⟩ : Fin 22016) b) := by
  rw [v5_after]
  exact extractStridedSlice_apply ![11008, 0] _ slices_S22016x4096_S11008x4096_11008_0 (ix2 a b) (ix2 (⟨a.val + 11008, by omega⟩ : Fin 22016) b)
    (fun d => match d with
      | ⟨0, _⟩ => by show a.val + 11008 = 11008 + a.val; omega
      | ⟨1, _⟩ => by show b.val = 0 + b.val; omega)

theorem v7_after (Wb : Valuation τ sig (Elt Ideal)) :
    (StableHlo.after (hostOps0 (F := Ideal)) Wb (Proc.devRef .tc main_v7) : FVec Ideal S1x11008 .f32)
      = shapeCast S1x11008 (extractStridedSlice S11008 ![0] (Wb (Proc.devRef .tc main_arg2) : FVec Ideal S22016 .f32) slices_S22016_S11008_0)
          shapeCasts_S11008_S1x11008 := by
  after_results
  first | done | rfl

/-- The gate scales, as one row, are the first 11008 column scales. -/
theorem v7_apply (Wb : Valuation τ sig (Elt Ideal)) (a : Fin 11008) :
    (StableHlo.after (hostOps0 (F := Ideal)) Wb (Proc.devRef .tc main_v7) : FVec Ideal S1x11008 .f32) (ix2 0 a)
      = (Wb (Proc.devRef .tc main_arg2) : FVec Ideal S22016 .f32) (ix1 (⟨a.val, by omega⟩ : Fin 22016)) := by
  rw [v7_after]
  refine (shapeCast_a_1a_apply _ shapeCasts_S11008_S1x11008 0 a).trans ?_
  exact extractStridedSlice_apply ![0] _ slices_S22016_S11008_0 (ix1 a) (ix1 (⟨a.val, by omega⟩ : Fin 22016))
    (fun d => match d with
      | ⟨0, _⟩ => by show a.val = 0 + a.val; omega)

theorem v9_after (Wb : Valuation τ sig (Elt Ideal)) :
    (StableHlo.after (hostOps0 (F := Ideal)) Wb (Proc.devRef .tc main_v9) : FVec Ideal S1x11008 .f32)
      = shapeCast S1x11008 (extractStridedSlice S11008 ![11008] (Wb (Proc.devRef .tc main_arg2) : FVec Ideal S22016 .f32) slices_S22016_S11008_11008)
          shapeCasts_S11008_S1x11008 := by
  after_results
  first | done | rfl

/-- The up scales, as one row, are the last 11008 column scales. -/
theorem v9_apply (Wb : Valuation τ sig (Elt Ideal)) (a : Fin 11008) :
    (StableHlo.after (hostOps0 (F := Ideal)) Wb (Proc.devRef .tc main_v9) : FVec Ideal S1x11008 .f32) (ix2 0 a)
      = (Wb (Proc.devRef .tc main_arg2) : FVec Ideal S22016 .f32) (ix1 (⟨a.val + 11008, by omega⟩ : Fin 22016)) := by
  rw [v9_after]
  refine (shapeCast_a_1a_apply _ shapeCasts_S11008_S1x11008 0 a).trans ?_
  exact extractStridedSlice_apply ![11008] _ slices_S22016_S11008_11008 (ix1 a) (ix1 (⟨a.val + 11008, by omega⟩ : Fin 22016))
    (fun d => match d with
      | ⟨0, _⟩ => by show a.val + 11008 = 11008 + a.val; omega)

/-- The first stretch does not write the activations. -/
theorem arg0_after (Wb : Valuation τ sig (Elt Ideal)) :
    StableHlo.after (hostOps0 (F := Ideal)) Wb (Proc.devRef .tc main_arg0) = Wb (Proc.devRef .tc main_arg0) :=
  StableHlo.after_of_writes_sub _ Wb hostOps0_writes (by decide)

/-! ## The second stretch: the hidden scale and the down scales as one row -/

/-- The hidden scale is the specification's `scale` of the hidden array the second stretch starts from. -/
theorem v13_after (W2 : Valuation τ sig (Elt Ideal)) :
    (StableHlo.after (hostOps1 (F := Ideal)) W2 (Proc.devRef .tc main_v13) : FVec Ideal S_ .f32)
      = Cert.QuantMlp.scale (W2 (Proc.devRef .tc main_v10) : FVec Ideal S4096x11008 .f32) reducesTo_S4096x11008_S_d0_1 h_S_ := by
  after_results
  first | done | rfl

theorem v14_after (W2 : Valuation τ sig (Elt Ideal)) :
    (StableHlo.after (hostOps1 (F := Ideal)) W2 (Proc.devRef .tc main_v14) : FVec Ideal S1x1 .f32)
      = shapeCast S1x1 (Cert.QuantMlp.scale (W2 (Proc.devRef .tc main_v10) : FVec Ideal S4096x11008 .f32) reducesTo_S4096x11008_S_d0_1 h_S_)
          shapeCasts_S_S1x1 := by
  after_results
  first | done | rfl

/-- The hidden scale reshaped to one row and one column is read at its one entry. -/
theorem v14_apply (W2 : Valuation τ sig (Elt Ideal)) :
    (StableHlo.after (hostOps1 (F := Ideal)) W2 (Proc.devRef .tc main_v14) : FVec Ideal S1x1 .f32) (ix2 0 0)
      = Cert.QuantMlp.scale (W2 (Proc.devRef .tc main_v10) : FVec Ideal S4096x11008 .f32) reducesTo_S4096x11008_S_d0_1 h_S_ ix0 := by
  rw [v14_after]
  refine shapeCast_apply _ _ _ ix0 ?_
  rw [Shape.rowMajor_val_two]
  exact Nat.lt_one_iff.mp (Shape.rowMajor _ ix0).isLt

theorem v15_after (W2 : Valuation τ sig (Elt Ideal)) :
    (StableHlo.after (hostOps1 (F := Ideal)) W2 (Proc.devRef .tc main_v15) : FVec Ideal S1x4096 .f32)
      = shapeCast S1x4096 (W2 (Proc.devRef .tc main_arg4) : FVec Ideal S4096 .f32) shapeCasts_S4096_S1x4096 := by
  after_results
  first | done | rfl

/-- The down scales as one row. -/
theorem v15_apply (W2 : Valuation τ sig (Elt Ideal)) (n : Fin 4096) :
    (StableHlo.after (hostOps1 (F := Ideal)) W2 (Proc.devRef .tc main_v15) : FVec Ideal S1x4096 .f32) (ix2 0 n)
      = (W2 (Proc.devRef .tc main_arg4) : FVec Ideal S4096 .f32) (ix1 n) := by
  rw [v15_after]
  exact shapeCast_a_1a_apply _ shapeCasts_S4096_S1x4096 0 n

/-- The second stretch writes neither the hidden array nor the down weights. -/
theorem v10_after (W2 : Valuation τ sig (Elt Ideal)) :
    StableHlo.after (hostOps1 (F := Ideal)) W2 (Proc.devRef .tc main_v10) = W2 (Proc.devRef .tc main_v10) :=
  StableHlo.after_of_writes_sub _ W2 hostOps1_writes (by decide)

theorem arg3_after (W2 : Valuation τ sig (Elt Ideal)) :
    StableHlo.after (hostOps1 (F := Ideal)) W2 (Proc.devRef .tc main_arg3) = W2 (Proc.devRef .tc main_arg3) :=
  StableHlo.after_of_writes_sub _ W2 hostOps1_writes (by decide)

end Cert.KernelIdeal.Hand

end
-- ==== Proof.GateUpPieces.lean ====
/-
  What each run of the first kernel's body leaves in the accumulators and in the output's staging buffer, as the payloads:
  the pieces a run writes are whole-buffer stores, the last one decides the contents, and its payload's loads read the
  whole buffers the run was entered with (or, for an accumulator read back after it was cleared or added to in the same
  run, the payload just stored).

  Where the reduction starts the gate accumulator ends with the first partial products added to the zero splat, and the up
  accumulator likewise; at a later step they end with the partial products added to what the step before left; at the last
  step the output's staging buffer ends with `silu` of the rescaled gate accumulator times the rescaled up accumulator.
-/
import proofs.«134952_j29721173688828_1_alg».proof.Proof.GateUpDat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets, however they are spelt. -/
theorem hz00 : (![0, 0] : Fin 2 → Nat) = fun _ => 0 := funext fun a => by fin_cases a <;> rfl

/-! ## The written pieces, over any buffers and blocks -/

/-- Where the reduction starts: the gate accumulator. -/
theorem canonA_0 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) :
    View.canon (kernelRun0_A (F := F) c i arg3 harg3 arg4 harg4 arg5 harg5 arg6 harg6 arg7 harg7 arg8 harg8 arg9 harg9 arg10 harg10 arg11 harg11 hc0 hc1 x0 x1 x2 x3 x4 x5).1 = Gen.k0_pay7 x0 x1 x2 Gen.k0_pay3 := by
  unfold kernelRun0_A
  dsimp only
  sl_unfold_words
  rw [View.canon_cons_unit_zero (S := S1024x256) hz00, View.readCov_unit_zero (S := S1024x256) _ hz00]
  simp only [View.readAt_eq_ld, harg3.read_unread, harg4.read_unread, harg5.read_unread, View.ld_unit_zero (S := S1x1) hz00, View.ld_unit_zero (S := S1024x1024) hz00, View.ld_unit_zero (S := S256x1024) hz00, View.ld_unit_zero (S := S1x256) hz00, View.ld_unit_zero (S := S1024x256) hz00]

/-- Where the reduction starts: the up accumulator. -/
theorem canonA_1 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) :
    View.canon (kernelRun0_A (F := F) c i arg3 harg3 arg4 harg4 arg5 harg5 arg6 harg6 arg7 harg7 arg8 harg8 arg9 harg9 arg10 harg10 arg11 harg11 hc0 hc1 x0 x1 x2 x3 x4 x5).2.1 = Gen.k0_pay1 (Gen.k0_pay8 x0 x1 x3 Gen.k0_pay4) := by
  unfold kernelRun0_A
  dsimp only
  sl_unfold_words
  rw [View.canon_cons_unit_zero (S := S1024x256) hz00, View.readCov_unit_zero (S := S1024x256) _ hz00]
  simp only [View.readAt_eq_ld, harg3.read_unread, harg4.read_unread, harg6.read_unread, View.ld_unit_zero (S := S1x1) hz00, View.ld_unit_zero (S := S1024x1024) hz00, View.ld_unit_zero (S := S256x1024) hz00, View.ld_unit_zero (S := S1x256) hz00, View.ld_unit_zero (S := S1024x256) hz00]

/-- A middle step: the gate accumulator. -/
theorem canonB_0 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 xs1 : Vec F S1024x256 .f32) :
    View.canon (kernelRun0_B (F := F) c i arg3 harg3 arg4 harg4 arg5 harg5 arg6 harg6 arg7 harg7 arg8 harg8 arg9 harg9 arg10 harg10 arg11 harg11 hc0 hc1 x0 x1 x2 x3 x4 x5 xs0 xs1).1 = Gen.k0_pay7 x0 x1 x2 xs0 := by
  unfold kernelRun0_B
  dsimp only
  sl_unfold_words
  rw [View.canon_unit_zero (S := S1024x256) hz00]
  simp only [View.readAt_eq_ld, harg3.read_unread, harg4.read_unread, harg5.read_unread, harg10.read_unread, View.ld_unit_zero (S := S1x1) hz00, View.ld_unit_zero (S := S1024x1024) hz00, View.ld_unit_zero (S := S256x1024) hz00, View.ld_unit_zero (S := S1x256) hz00, View.ld_unit_zero (S := S1024x256) hz00]

/-- A middle step: the up accumulator. -/
theorem canonB_1 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 xs1 : Vec F S1024x256 .f32) :
    View.canon (kernelRun0_B (F := F) c i arg3 harg3 arg4 harg4 arg5 harg5 arg6 harg6 arg7 harg7 arg8 harg8 arg9 harg9 arg10 harg10 arg11 harg11 hc0 hc1 x0 x1 x2 x3 x4 x5 xs0 xs1).2.1 = Gen.k0_pay1 (Gen.k0_pay8 x0 x1 x3 xs1) := by
  unfold kernelRun0_B
  dsimp only
  sl_unfold_words
  rw [View.canon_unit_zero (S := S1024x256) hz00]
  simp only [View.readAt_eq_ld, harg3.read_unread, harg4.read_unread, harg6.read_unread, harg11.read_unread, View.ld_unit_zero (S := S1x1) hz00, View.ld_unit_zero (S := S1024x1024) hz00, View.ld_unit_zero (S := S256x1024) hz00, View.ld_unit_zero (S := S1x256) hz00, View.ld_unit_zero (S := S1024x256) hz00]

/-- The last step: the gate accumulator. -/
theorem canonC_0 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 xs1 : Vec F S1024x256 .f32) :
    View.canon (kernelRun0_C (F := F) c i arg3 harg3 arg4 harg4 arg5 harg5 arg6 harg6 arg7 harg7 arg8 harg8 arg9 harg9 arg10 harg10 arg11 harg11 hc0 hc1 x0 x1 x2 x3 x4 x5 xs0 xs1).2.1 = Gen.k0_pay7 x0 x1 x2 xs0 := by
  unfold kernelRun0_C
  dsimp only
  sl_unfold_words
  rw [View.canon_unit_zero (S := S1024x256) hz00]
  simp only [View.readAt_eq_ld, harg3.read_unread, harg4.read_unread, harg5.read_unread, harg10.read_unread, View.ld_unit_zero (S := S1x1) hz00, View.ld_unit_zero (S := S1024x1024) hz00, View.ld_unit_zero (S := S256x1024) hz00, View.ld_unit_zero (S := S1x256) hz00, View.ld_unit_zero (S := S1024x256) hz00]

/-- The last step: the up accumulator. -/
theorem canonC_1 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 xs1 : Vec F S1024x256 .f32) :
    View.canon (kernelRun0_C (F := F) c i arg3 harg3 arg4 harg4 arg5 harg5 arg6 harg6 arg7 harg7 arg8 harg8 arg9 harg9 arg10 harg10 arg11 harg11 hc0 hc1 x0 x1 x2 x3 x4 x5 xs0 xs1).2.2.1 = Gen.k0_pay1 (Gen.k0_pay8 x0 x1 x3 xs1) := by
  unfold kernelRun0_C
  dsimp only
  sl_unfold_words
  rw [View.canon_unit_zero (S := S1024x256) hz00]
  simp only [View.readAt_eq_ld, harg3.read_unread, harg4.read_unread, harg6.read_unread, harg11.read_unread, View.ld_unit_zero (S := S1x1) hz00, View.ld_unit_zero (S := S1024x1024) hz00, View.ld_unit_zero (S := S256x1024) hz00, View.ld_unit_zero (S := S1x256) hz00, View.ld_unit_zero (S := S1024x256) hz00]

/-- The last step: the output's staging buffer. -/
theorem canonC_6 (c : Dev nD) (i : grid0.Coords) (arg3 : Memref sig .tc .vmem S1x1 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1x1 .f32) (x1 : Vec F S1024x1024 .f32) (x2 : Vec F S256x1024 .f32) (x3 : Vec F S256x1024 .f32) (x4 : Vec F S1x256 .f32) (x5 : Vec F S1x256 .f32) (xs0 xs1 : Vec F S1024x256 .f32) :
    View.canon (kernelRun0_C (F := F) c i arg3 harg3 arg4 harg4 arg5 harg5 arg6 harg6 arg7 harg7 arg8 harg8 arg9 harg9 arg10 harg10 arg11 harg11 hc0 hc1 x0 x1 x2 x3 x4 x5 xs0 xs1).1
      = Gen.k0_pay2 (Gen.k0_pay5 x0) (Gen.k0_pay7 x0 x1 x2 xs0) x4 (Gen.k0_pay1 (Gen.k0_pay8 x0 x1 x3 xs1)) x5 := by
  unfold kernelRun0_C
  dsimp only
  sl_unfold_words
  rw [View.canon_unit_zero (S := S1024x256) hz00, View.readCov_unit_zero (S := S1024x256) _ hz00,
    View.readCov_unit_zero (S := S1024x256) _ hz00]
  simp only [View.readAt_eq_ld, harg3.read_unread, harg4.read_unread, harg5.read_unread, harg6.read_unread, harg7.read_unread, harg8.read_unread, harg10.read_unread, harg11.read_unread, View.ld_unit_zero (S := S1x1) hz00, View.ld_unit_zero (S := S1024x1024) hz00, View.ld_unit_zero (S := S256x1024) hz00, View.ld_unit_zero (S := S1x256) hz00, View.ld_unit_zero (S := S1024x256) hz00]

/-! ## The same at a grid point, over the window blocks, read back over anything -/

section
variable (V : (c : Dev nD) → (b : Ref sig .tc) → Buf (Elt F) ((c : Thread nD τ).loc b))

/-- Where the reduction starts the gate accumulator ends with the first partial products added to the zero splat. -/
theorem rdS0_runA0 (c : Dev nD) (t : Fin cfg0.N) (h0 : t.val % 4 = 0) :
    rdS0 (runA0 V c t h0).1 = Gen.k0_pay7 (iblk0 V c 0 t) (iblk0 V c 1 t) (iblk0 V c 2 t) Gen.k0_pay3 :=
  (View.read_writes_junk_eq_canon VS0_0 (runA0 V c t h0).1).trans
    (canonA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t))

/-- … and the up accumulator likewise. -/
theorem rdS1_runA0 (c : Dev nD) (t : Fin cfg0.N) (h0 : t.val % 4 = 0) :
    rdS1 (runA0 V c t h0).2.1 = Gen.k0_pay1 (Gen.k0_pay8 (iblk0 V c 0 t) (iblk0 V c 1 t) (iblk0 V c 3 t) Gen.k0_pay4) :=
  (View.read_writes_junk_eq_canon VS0_1 (runA0 V c t h0).2.1).trans
    (canonA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t))

/-- At a middle step the gate accumulator ends with the partial products added to what it held. -/
theorem rdS0_runB0 (c : Dev nD) (t : Fin cfg0.N) (h0 : ¬t.val % 4 = 0) (h1 : ¬t.val % 4 = 3) (xs0 xs1 : Vec F S1024x256 .f32) :
    rdS0 (runB0 V c t h0 h1 xs0 xs1).1 = Gen.k0_pay7 (iblk0 V c 0 t) (iblk0 V c 1 t) (iblk0 V c 2 t) xs0 :=
  (View.read_writes_junk_eq_canon VS0_0 (runB0 V c t h0 h1 xs0 xs1).1).trans
    (canonB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1)

/-- … and the up accumulator likewise. -/
theorem rdS1_runB0 (c : Dev nD) (t : Fin cfg0.N) (h0 : ¬t.val % 4 = 0) (h1 : ¬t.val % 4 = 3) (xs0 xs1 : Vec F S1024x256 .f32) :
    rdS1 (runB0 V c t h0 h1 xs0 xs1).2.1 = Gen.k0_pay1 (Gen.k0_pay8 (iblk0 V c 0 t) (iblk0 V c 1 t) (iblk0 V c 3 t) xs1) :=
  (View.read_writes_junk_eq_canon VS0_1 (runB0 V c t h0 h1 xs0 xs1).2.1).trans
    (canonB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1)

/-- At the last step the gate accumulator ends with the last partial products added to what it held, -/
theorem rdS0_runC0 (c : Dev nD) (t : Fin cfg0.N) (h1 : t.val % 4 = 3) (xs0 xs1 : Vec F S1024x256 .f32) :
    rdS0 (runC0 V c t h1 xs0 xs1).2.1 = Gen.k0_pay7 (iblk0 V c 0 t) (iblk0 V c 1 t) (iblk0 V c 2 t) xs0 :=
  (View.read_writes_junk_eq_canon VS0_0 (runC0 V c t h1 xs0 xs1).2.1).trans
    (canonC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h => by have := (hcond0_0 t).mp h; omega) ((hcond0_1 t).mpr h1) (iblk0 V c 0 t) (iblk0 V c 1 t) (iblk0 V c 2 t) (iblk0 V c 3 t) (iblk0 V c 4 t) (iblk0 V c 5 t) xs0 xs1)

/-- the up accumulator likewise, -/
theorem rdS1_runC0 (c : Dev nD) (t : Fin cfg0.N) (h1 : t.val % 4 = 3) (xs0 xs1 : Vec F S1024x256 .f32) :
    rdS1 (runC0 V c t h1 xs0 xs1).2.2.1 = Gen.k0_pay1 (Gen.k0_pay8 (iblk0 V c 0 t) (iblk0 V c 1 t) (iblk0 V c 3 t) xs1) :=
  (View.read_writes_junk_eq_canon VS0_1 (runC0 V c t h1 xs0 xs1).2.2.1).trans
    (canonC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h => by have := (hcond0_0 t).mp h; omega) ((hcond0_1 t).mpr h1) (iblk0 V c 0 t) (iblk0 V c 1 t) (iblk0 V c 2 t) (iblk0 V c 3 t) (iblk0 V c 4 t) (iblk0 V c 5 t) xs0 xs1)

/-- and the output's staging buffer with `silu` of the rescaled gate accumulator times the rescaled up accumulator. -/
theorem rdO6_runC0 (c : Dev nD) (t : Fin cfg0.N) (h1 : t.val % 4 = 3) (xs0 xs1 : Vec F S1024x256 .f32) :
    rdO6 (runC0 V c t h1 xs0 xs1).1
      = Gen.k0_pay2 (Gen.k0_pay5 (iblk0 V c 0 t)) (Gen.k0_pay7 (iblk0 V c 0 t) (iblk0 V c 1 t) (iblk0 V c 2 t) xs0) (iblk0 V c 4 t)
          (Gen.k0_pay1 (Gen.k0_pay8 (iblk0 V c 0 t) (iblk0 V c 1 t) (iblk0 V c 3 t) xs1)) (iblk0 V c 5 t) :=
  (View.read_writes_junk_eq_canon VO0_6 (runC0 V c t h1 xs0 xs1).1).trans
    (canonC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h => by have := (hcond0_0 t).mp h; omega) ((hcond0_1 t).mpr h1) (iblk0 V c 0 t) (iblk0 V c 1 t) (iblk0 V c 2 t) (iblk0 V c 3 t) (iblk0 V c 4 t) (iblk0 V c 5 t) xs0 xs1)

end

end Cert.KernelIdeal.Hand

end
-- ==== Proof.PayZero.lean ====
/-
  The accumulators' first values and the pass-through store, read at an index: the zero splats the first step along the
  contracted axis writes into the accumulators are `0` everywhere, and a shape cast to the same shape changes
  nothing.
-/
import proofs.«134952_j29721173688828_1_alg».proof.Proof.Gen.KernelIdeal.Skeleton
import proofs.«134952_j29721173688828_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx Idealize.SL.Sem

/-- The gate accumulator's first value is `0` at every index. -/
theorem k0_pay3_apply (i : S1024x256.Idx) : Gen.k0_pay3 (F := Ideal) i = 0 := by
  unfold Gen.k0_pay3
  rw [shapeCast_self]
  exact Ideal.ofBits_zero_f32

/-- The up accumulator's first value is `0` at every index. -/
theorem k0_pay4_apply (i : S1024x256.Idx) : Gen.k0_pay4 (F := Ideal) i = 0 := by
  unfold Gen.k0_pay4
  rw [shapeCast_self]
  exact Ideal.ofBits_zero_f32

/-- The down accumulator's first value is `0` at every index. -/
theorem k1_pay1_apply (i : S1024x1024.Idx) : Gen.k1_pay1 (F := Ideal) i = 0 := by
  unfold Gen.k1_pay1
  rw [shapeCast_self]
  exact Ideal.ofBits_zero_f32

/-- The up accumulator is stored back as it is. -/
theorem k0_pay1_eq (v30 : FVec Ideal S1024x256 .f32) : Gen.k0_pay1 (F := Ideal) v30 = v30 := by
  unfold Gen.k0_pay1
  exact shapeCast_self _ _

end Cert.KernelIdeal.Pay

end
-- ==== Proof.PayGateUp.lean ====
/-
  The first kernel's payloads read at an index. One step along the contracted axis adds to the gate (or up) accumulator, at
  row `p` and column `q`, the sum over the block's 1024 columns `r` of the quantized activation at `(p, r)` times the gate
  (or up) weight at `(q, r)` (the weight block is transposed before the product); the last step rescales both accumulators
  by the activation scale times the column's weight scale and writes `silu gate * up`.
-/
import proofs.«134952_j29721173688828_1_alg».proof.Proof.Gen.KernelIdeal.Skeleton
import proofs.«134952_j29721173688828_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx Idealize.SL.Sem

/-- The activation scale read out of its 1×1 block. -/
theorem k0_pay5_eq (v3 : Vec Ideal S1x1 .f32) : Gen.k0_pay5 (F := Ideal) v3 = v3 (ix2 (0 : Fin 1) (0 : Fin 1)) := by
  unfold Gen.k0_pay5 extractAt
  exact congrArg v3 (funext fun a => match a with | ⟨0, _⟩ => rfl | ⟨1, _⟩ => rfl)

/-- The quantized activation block, entry by entry. -/
theorem k0_pay6_apply (v3 : Vec Ideal S1x1 .f32) (v5 : Vec Ideal S1024x1024 .f32) (i : S1024x1024.Idx) :
    Gen.k0_pay6 (F := Ideal) v3 v5 i = Cert.QuantMlp.quant (v5 i) (v3 (ix2 (0 : Fin 1) (0 : Fin 1))) := by
  unfold Gen.k0_pay6
  rw [k0_pay5_eq]
  rfl

/-! The product's operand indices at output index `i` and contraction index `q`, coordinate by coordinate. -/

theorem lhs_gateup_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_gateup_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_gateup_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_gateup_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- One step of the gate projection's accumulation. -/
theorem k0_pay7_apply (v3 : Vec Ideal S1x1 .f32) (v5 : Vec Ideal S1024x1024 .f32) (v14 : Vec Ideal S256x1024 .f32)
    (v20 : Vec Ideal S1024x256 .f32) (p : Fin 1024) (q : Fin 256) :
    Gen.k0_pay7 (F := Ideal) v3 v5 v14 v20 (ix2 p q)
      = v20 (ix2 p q) + ∑ r : Fin 1024, Cert.QuantMlp.quant (v5 (ix2 p r)) (v3 (ix2 (0 : Fin 1) (0 : Fin 1))) * v14 (ix2 q r) := by
  unfold Gen.k0_pay7
  simp only [matmul]
  rw [shapeCast_self, addf_apply, Ideal.matmul_constant_zero_apply,
    ← Equiv.sum_comp (contrEquiv1 dot_S1024x1024_S1024x256_S1024x256_1_0_0_1_n_n 1024 rfl rfl).symm]
  refine congrArg (v20 (ix2 p q) + ·) (Finset.sum_congr rfl fun r _ => ?_)
  have hk := contrEquiv1_symm_val dot_S1024x1024_S1024x256_S1024x256_1_0_0_1_n_n 1024 rfl rfl r
  have el : dot_S1024x1024_S1024x256_S1024x256_1_0_0_1_n_n.lhsIdx (ix2 p q) ((contrEquiv1 dot_S1024x1024_S1024x256_S1024x256_1_0_0_1_n_n 1024 rfl rfl).symm r) = ix2 p r :=
    funext fun a => Fin.ext (by
      match a with
      | ⟨0, _⟩ => exact lhs_gateup_0 _ _
      | ⟨1, _⟩ => exact (lhs_gateup_1 _ _).trans hk)
  have er : dot_S1024x1024_S1024x256_S1024x256_1_0_0_1_n_n.rhsIdx (ix2 p q) ((contrEquiv1 dot_S1024x1024_S1024x256_S1024x256_1_0_0_1_n_n 1024 rfl rfl).symm r) = ix2 r q :=
    funext fun a => Fin.ext (by
      match a with
      | ⟨0, _⟩ => exact (rhs_gateup_0 _ _).trans hk
      | ⟨1, _⟩ => exact rhs_gateup_1 _ _)
  rw [el, er, transpose_ix2_apply, shapeCast_self, k0_pay6_apply]
  rfl

/-- One step of the up projection's accumulation. -/
theorem k0_pay8_apply (v3 : Vec Ideal S1x1 .f32) (v5 : Vec Ideal S1024x1024 .f32) (v17 : Vec Ideal S256x1024 .f32)
    (v27 : Vec Ideal S1024x256 .f32) (p : Fin 1024) (q : Fin 256) :
    Gen.k0_pay8 (F := Ideal) v3 v5 v17 v27 (ix2 p q)
      = v27 (ix2 p q) + ∑ r : Fin 1024, Cert.QuantMlp.quant (v5 (ix2 p r)) (v3 (ix2 (0 : Fin 1) (0 : Fin 1))) * v17 (ix2 q r) := by
  unfold Gen.k0_pay8
  simp only [matmul]
  rw [addf_apply, Ideal.matmul_constant_zero_apply,
    ← Equiv.sum_comp (contrEquiv1 dot_S1024x1024_S1024x256_S1024x256_1_0_0_1_n_n 1024 rfl rfl).symm]
  refine congrArg (v27 (ix2 p q) + ·) (Finset.sum_congr rfl fun r _ => ?_)
  have hk := contrEquiv1_symm_val dot_S1024x1024_S1024x256_S1024x256_1_0_0_1_n_n 1024 rfl rfl r
  have el : dot_S1024x1024_S1024x256_S1024x256_1_0_0_1_n_n.lhsIdx (ix2 p q) ((contrEquiv1 dot_S1024x1024_S1024x256_S1024x256_1_0_0_1_n_n 1024 rfl rfl).symm r) = ix2 p r :=
    funext fun a => Fin.ext (by
      match a with
      | ⟨0, _⟩ => exact lhs_gateup_0 _ _
      | ⟨1, _⟩ => exact (lhs_gateup_1 _ _).trans hk)
  have er : dot_S1024x1024_S1024x256_S1024x256_1_0_0_1_n_n.rhsIdx (ix2 p q) ((contrEquiv1 dot_S1024x1024_S1024x256_S1024x256_1_0_0_1_n_n 1024 rfl rfl).symm r) = ix2 r q :=
    funext fun a => Fin.ext (by
      match a with
      | ⟨0, _⟩ => exact (rhs_gateup_0 _ _).trans hk
      | ⟨1, _⟩ => exact rhs_gateup_1 _ _)
  rw [el, er, transpose_ix2_apply, shapeCast_self, k0_pay6_apply]
  rfl

/-- The logistic function of a vector, at an index, is the logistic function of the entry. -/
theorem logistic_apply {s : Shape} {φ : FTy} (x : FVec Ideal s φ) (i : s.Idx) : logistic x i = Ideal.logistic (x i) := rfl

/-- The last step: both accumulators rescaled, then `silu gate * up`. -/
theorem k0_pay2_apply (v4 : Ideal .f32) (v37 v44 : Vec Ideal S1024x256 .f32) (v38 v45 : Vec Ideal S1x256 .f32)
    (p : Fin 1024) (q : Fin 256) :
    Gen.k0_pay2 (F := Ideal) v4 v37 v38 v44 v45 (ix2 p q)
      = Cert.QuantMlp.silu (v37 (ix2 p q) * (v4 * v38 (ix2 (0 : Fin 1) q))) * (v44 (ix2 p q) * (v4 * v45 (ix2 (0 : Fin 1) q))) := by
  unfold Gen.k0_pay2
  simp only [mulf_apply, logistic_apply, broadcastTo_1b_ab_apply, shapeCast_self, broadcast_apply]
  rfl

end Cert.KernelIdeal.Pay

end
-- ==== Proof.GateUpAcc.lean ====
/-
  The first kernel's accumulators in closed form.

  The grid is walked with the contracted axis fastest, so the four points `t0, t0 + 1, t0 + 2, t0 + 3` with `t0 % 4 = 0`
  are the four steps of one (row block, column block) pair.  The first step leaves in each accumulator its own partial
  products (added to the zero splat), each later step adds its own to what the step before left; so after step `k` the
  gate accumulator holds, at row `p` and column `q` of the block, the sum over the first `k + 1` steps of the step's sum
  over its 1024 columns of the quantized activation times the gate weight, and the up accumulator the same against the
  up weights.  The last step writes `silu` of the rescaled four-step gate sum times the rescaled four-step up sum.
-/
import proofs.«134952_j29721173688828_1_alg».proof.Proof.GateUpPieces
import proofs.«134952_j29721173688828_1_alg».proof.Proof.PayZero
import proofs.«134952_j29721173688828_1_alg».proof.Proof.PayGateUp
import proofs.«134952_j29721173688828_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## One step of the accumulators, at any instance -/

section Step
variable (V : (c : Dev nD) → (b : Ref sig .tc) → Buf (Elt F) ((c : Thread nD τ).loc b))

/-- Where the reduction starts the accumulators hold the first partial products added to the zero splats. -/
theorem acc_start (c : Dev nD) (t : Fin cfg0.N) (h0 : t.val % 4 = 0) :
    (stAt0 V c t.val t.isLt).2.1 = Gen.k0_pay7 (iblk0 V c 0 t) (iblk0 V c 1 t) (iblk0 V c 2 t) Gen.k0_pay3
      ∧ (stAt0 V c t.val t.isLt).2.2 = Gen.k0_pay1 (Gen.k0_pay8 (iblk0 V c 0 t) (iblk0 V c 1 t) (iblk0 V c 3 t) Gen.k0_pay4) := by
  have e1 : (stAt0 V c t.val t.isLt).2.1 = rdS0 (runA0 V c t h0).1 := by rw [stAt0_A V c t h0]
  have e2 : (stAt0 V c t.val t.isLt).2.2 = rdS1 (runA0 V c t h0).2.1 := by rw [stAt0_A V c t h0]
  exact ⟨e1.trans (rdS0_runA0 V c t h0), e2.trans (rdS1_runA0 V c t h0)⟩

/-- At every later step they hold the step's partial products added to what the step before left. -/
theorem acc_step (c : Dev nD) (t : Fin cfg0.N) (h0 : ¬t.val % 4 = 0) :
    (stAt0 V c t.val t.isLt).2.1 = Gen.k0_pay7 (iblk0 V c 0 t) (iblk0 V c 1 t) (iblk0 V c 2 t) (prev0 V c t).2.1
      ∧ (stAt0 V c t.val t.isLt).2.2 = Gen.k0_pay1 (Gen.k0_pay8 (iblk0 V c 0 t) (iblk0 V c 1 t) (iblk0 V c 3 t) (prev0 V c t).2.2) := by
  by_cases h1 : t.val % 4 = 3
  · have e1 : (stAt0 V c t.val t.isLt).2.1 = rdS0 (runC0 V c t h1 (prev0 V c t).2.1 (prev0 V c t).2.2).2.1 := by rw [stAt0_C V c t h0 h1]
    have e2 : (stAt0 V c t.val t.isLt).2.2 = rdS1 (runC0 V c t h1 (prev0 V c t).2.1 (prev0 V c t).2.2).2.2.1 := by rw [stAt0_C V c t h0 h1]
    exact ⟨e1.trans (rdS0_runC0 V c t h1 (prev0 V c t).2.1 (prev0 V c t).2.2), e2.trans (rdS1_runC0 V c t h1 (prev0 V c t).2.1 (prev0 V c t).2.2)⟩
  · have e1 : (stAt0 V c t.val t.isLt).2.1 = rdS0 (runB0 V c t h0 h1 (prev0 V c t).2.1 (prev0 V c t).2.2).1 := by rw [stAt0_B V c t h0 h1]
    have e2 : (stAt0 V c t.val t.isLt).2.2 = rdS1 (runB0 V c t h0 h1 (prev0 V c t).2.1 (prev0 V c t).2.2).2.1 := by rw [stAt0_B V c t h0 h1]
    exact ⟨e1.trans (rdS0_runB0 V c t h0 h1 (prev0 V c t).2.1 (prev0 V c t).2.2), e2.trans (rdS1_runB0 V c t h0 h1 (prev0 V c t).2.1 (prev0 V c t).2.2)⟩

/-- At the last step the output's staging buffer holds `silu` of the rescaled gate accumulator times the rescaled up
    accumulator, both as that step leaves them. -/
theorem out_last (c : Dev nD) (t : Fin cfg0.N) (h1 : t.val % 4 = 3) :
    (stAt0 V c t.val t.isLt).1 = Gen.k0_pay2 (Gen.k0_pay5 (iblk0 V c 0 t)) (stAt0 V c t.val t.isLt).2.1 (iblk0 V c 4 t) (stAt0 V c t.val t.isLt).2.2 (iblk0 V c 5 t) := by
  have h0 : ¬t.val % 4 = 0 := by omega
  have e : (stAt0 V c t.val t.isLt).1 = rdO6 (runC0 V c t h1 (prev0 V c t).2.1 (prev0 V c t).2.2).1 := by rw [stAt0_C V c t h0 h1]
  rw [(acc_step V c t h0).1, (acc_step V c t h0).2]
  exact e.trans (rdO6_runC0 V c t h1 (prev0 V c t).2.1 (prev0 V c t).2.2)

end Step

/-! ## The accumulators in closed form, at the ideal values -/

section AtIdeal
variable (V : (c : Dev nD) → (b : Ref sig .tc) → Buf (Elt Ideal) ((c : Thread nD τ).loc b))

/-- The activation scale a point reads. -/
def scale0 (c : Dev nD) (t : Fin cfg0.N) : EReal := (iblk0 V c 0 t : Vec Ideal S1x1 .f32) (ix2 (0 : Fin 1) (0 : Fin 1))

/-- One step's contribution to the gate sum at row `p`, column `q` of the point's block: the quantized activations of
    the step's 1024 columns against the gate weights. -/
def gateTerm (c : Dev nD) (t : Fin cfg0.N) (p : Fin 1024) (q : Fin 256) : EReal :=
  ∑ r : Fin 1024, Cert.QuantMlp.quant ((iblk0 V c 1 t : Vec Ideal S1024x1024 .f32) (ix2 p r)) ((iblk0 V c 0 t : Vec Ideal S1x1 .f32) (ix2 (0 : Fin 1) (0 : Fin 1)))
    * (iblk0 V c 2 t : Vec Ideal S256x1024 .f32) (ix2 q r)

/-- One step's contribution to the up sum, likewise against the up weights. -/
def upTerm (c : Dev nD) (t : Fin cfg0.N) (p : Fin 1024) (q : Fin 256) : EReal :=
  ∑ r : Fin 1024, Cert.QuantMlp.quant ((iblk0 V c 1 t : Vec Ideal S1024x1024 .f32) (ix2 p r)) ((iblk0 V c 0 t : Vec Ideal S1x1 .f32) (ix2 (0 : Fin 1) (0 : Fin 1)))
    * (iblk0 V c 3 t : Vec Ideal S256x1024 .f32) (ix2 q r)

theorem gate_start (c : Dev nD) (t : Fin cfg0.N) (h0 : t.val % 4 = 0) (p : Fin 1024) (q : Fin 256) :
    (stAt0 V c t.val t.isLt).2.1 (ix2 p q) = gateTerm V c t p q := by
  rw [(acc_start V c t h0).1]
  refine (Pay.k0_pay7_apply (iblk0 V c 0 t) (iblk0 V c 1 t) (iblk0 V c 2 t) (Gen.k0_pay3 (F := Ideal)) p q).trans ?_
  rw [Pay.k0_pay3_apply, zero_add]
  rfl

theorem up_start (c : Dev nD) (t : Fin cfg0.N) (h0 : t.val % 4 = 0) (p : Fin 1024) (q : Fin 256) :
    (stAt0 V c t.val t.isLt).2.2 (ix2 p q) = upTerm V c t p q := by
  rw [(acc_start V c t h0).2, Pay.k0_pay1_eq]
  refine (Pay.k0_pay8_apply (iblk0 V c 0 t) (iblk0 V c 1 t) (iblk0 V c 3 t) (Gen.k0_pay4 (F := Ideal)) p q).trans ?_
  rw [Pay.k0_pay4_apply, zero_add]
  rfl

theorem gate_step (c : Dev nD) (t : Fin cfg0.N) (h0 : ¬t.val % 4 = 0) (p : Fin 1024) (q : Fin 256) :
    (stAt0 V c t.val t.isLt).2.1 (ix2 p q) = (prev0 V c t).2.1 (ix2 p q) + gateTerm V c t p q := by
  rw [(acc_step V c t h0).1]
  exact Pay.k0_pay7_apply (iblk0 V c 0 t) (iblk0 V c 1 t) (iblk0 V c 2 t) (prev0 V c t).2.1 p q

theorem up_step (c : Dev nD) (t : Fin cfg0.N) (h0 : ¬t.val % 4 = 0) (p : Fin 1024) (q : Fin 256) :
    (stAt0 V c t.val t.isLt).2.2 (ix2 p q) = (prev0 V c t).2.2 (ix2 p q) + upTerm V c t p q := by
  rw [(acc_step V c t h0).2, Pay.k0_pay1_eq]
  exact Pay.k0_pay8_apply (iblk0 V c 0 t) (iblk0 V c 1 t) (iblk0 V c 3 t) (prev0 V c t).2.2 p q

/-- After step `k` of a (row block, column block) pair that starts at point `t0`, the gate accumulator holds the sum of the
    first `k + 1` steps' contributions. -/
theorem gate_closed (c : Dev nD) (t0 : ℕ) (ht0 : t0 % 4 = 0) :
    ∀ (k : ℕ) (hk : k ≤ 3) (h : t0 + k < cfg0.N) (p : Fin 1024) (q : Fin 256),
      (stAt0 V c (t0 + k) h).2.1 (ix2 p q)
        = ∑ j : Fin (k + 1), gateTerm V c ⟨t0 + j.val, by have := j.isLt; omega⟩ p q
  | 0, _, h, p, q => by
    rw [Fin.sum_univ_castSucc, Fin.sum_univ_zero, zero_add]
    exact gate_start V c ⟨t0, h⟩ ht0 p q
  | k + 1, hk, h, p, q => by
    have ih := gate_closed c t0 ht0 k (by omega) (Nat.lt_of_succ_lt h) p q
    have hs : (stAt0 V c (t0 + (k + 1)) h).2.1 (ix2 p q)
        = (stAt0 V c (t0 + k) (Nat.lt_of_succ_lt h)).2.1 (ix2 p q) + gateTerm V c ⟨t0 + (k + 1), h⟩ p q :=
      gate_step V c ⟨t0 + (k + 1), h⟩ (by show ¬(t0 + (k + 1)) % 4 = 0; omega) p q
    rw [hs, ih, Fin.sum_univ_castSucc (n := k + 1)]
    rfl

/-- … and the up accumulator likewise. -/
theorem up_closed (c : Dev nD) (t0 : ℕ) (ht0 : t0 % 4 = 0) :
    ∀ (k : ℕ) (hk : k ≤ 3) (h : t0 + k < cfg0.N) (p : Fin 1024) (q : Fin 256),
      (stAt0 V c (t0 + k) h).2.2 (ix2 p q)
        = ∑ j : Fin (k + 1), upTerm V c ⟨t0 + j.val, by have := j.isLt; omega⟩ p q
  | 0, _, h, p, q => by
    rw [Fin.sum_univ_castSucc, Fin.sum_univ_zero, zero_add]
    exact up_start V c ⟨t0, h⟩ ht0 p q
  | k + 1, hk, h, p, q => by
    have ih := up_closed c t0 ht0 k (by omega) (Nat.lt_of_succ_lt h) p q
    have hs : (stAt0 V c (t0 + (k + 1)) h).2.2 (ix2 p q)
        = (stAt0 V c (t0 + k) (Nat.lt_of_succ_lt h)).2.2 (ix2 p q) + upTerm V c ⟨t0 + (k + 1), h⟩ p q :=
      up_step V c ⟨t0 + (k + 1), h⟩ (by show ¬(t0 + (k + 1)) % 4 = 0; omega) p q
    rw [hs, ih, Fin.sum_univ_castSucc (n := k + 1)]
    rfl

/-- At the last step of a pair that starts at point `t0` the output's staging buffer holds `silu` of the rescaled four-step
    gate sum times the rescaled four-step up sum. -/
theorem out_closed (c : Dev nD) (t0 : ℕ) (ht0 : t0 % 4 = 0) (h : t0 + 3 < cfg0.N) (p : Fin 1024) (q : Fin 256) :
    (stAt0 V c (t0 + 3) h).1 (ix2 p q)
      = Cert.QuantMlp.silu ((∑ j : Fin 4, gateTerm V c ⟨t0 + j.val, by have := j.isLt; omega⟩ p q)
            * (scale0 V c ⟨t0 + 3, h⟩ * (iblk0 V c 4 ⟨t0 + 3, h⟩ : Vec Ideal S1x256 .f32) (ix2 (0 : Fin 1) q)))
        * ((∑ j : Fin 4, upTerm V c ⟨t0 + j.val, by have := j.isLt; omega⟩ p q)
            * (scale0 V c ⟨t0 + 3, h⟩ * (iblk0 V c 5 ⟨t0 + 3, h⟩ : Vec Ideal S1x256 .f32) (ix2 (0 : Fin 1) q))) := by
  have e := out_last V c ⟨t0 + 3, h⟩ (by show (t0 + 3) % 4 = 3; omega)
  have e' := congrFun e (ix2 p q)
  refine e'.trans ?_
  refine (Pay.k0_pay2_apply _ _ _ _ _ p q).trans ?_
  rw [Pay.k0_pay5_eq]
  have eg := gate_closed V c t0 ht0 3 (le_refl 3) h p q
  have eu := up_closed V c t0 ht0 3 (le_refl 3) h p q
  rw [show (stAt0 V c (⟨t0 + 3, h⟩ : Fin cfg0.N).val (⟨t0 + 3, h⟩ : Fin cfg0.N).isLt).2.1 (ix2 p q) = _ from eg,
    show (stAt0 V c (⟨t0 + 3, h⟩ : Fin cfg0.N).val (⟨t0 + 3, h⟩ : Fin cfg0.N).isLt).2.2 (ix2 p q) = _ from eu]
  rfl

end AtIdeal

end Cert.KernelIdeal.Hand

end
-- ==== Proof.BlockIdx.lean ====
/-
  Where the two kernels' blocks sit in their arrays.

  The first kernel runs over a 4 x 43 x 4 grid with the last axis fastest, so point `t` of its 688 has row block `t / 172`,
  column block `t / 4 % 43` and contraction step `t % 4`.  Its activation block is 1024 x 1024 at (row block, step); its two
  weight blocks are 256 x 1024 at (column block, step); its two scale blocks are 1 x 256 at (0, column block); its hidden-array
  block is 1024 x 256 at (row block, column block), written back at the last step of each (row block, column block).  The second
  kernel runs over 4 x 4 x 43: row block `t / 172`, column block `t / 43 % 4`, step `t % 43`; it reads the hidden array in
  1024 x 256 blocks at (row block, step), the down weights in 1024 x 256 blocks at (column block, step), the down scales in
  1 x 1024 blocks at (0, column block), and writes the result in 1024 x 1024 blocks at (row block, column block) at the last
  step.  An element of a block sits in the array, on each axis, at the block's index times the block's size plus its own
  coordinate; each statement below is that equation for one window, with the block's index replaced by its closed form in `t`,
  which is decided once over the grid.  The blocks written back tile their arrays, so every entry of an output array lies
  under exactly the point at the last step of its row block and column block.
-/
import proofs.«134952_j29721173688828_1_alg».proof.Proof.Gen.KernelIdeal.Launch
import proofs.«134952_j29721173688828_1_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-! ## The first kernel: grid 4 x 43 x 4, the last axis (the contraction step) fastest -/

theorem lt688_0 (t : Fin cfg0.N) : t.val < 688 := by
  have h : t.val < grid0.N := t.isLt
  rw [N_0] at h
  exact h

/-- The first kernel's block indices at point `t` of its 4 x 43 x 4 grid, the last axis fastest. -/
theorem idx_facts0 : ∀ t : Fin cfg0.N,
    win0_0.index t (0 : Fin 2) = 0 ∧ win0_0.index t (1 : Fin 2) = 0
    ∧ win0_1.index t (0 : Fin 2) = t.val / 172 ∧ win0_1.index t (1 : Fin 2) = t.val % 4
    ∧ win0_2.index t (0 : Fin 2) = t.val / 4 % 43 ∧ win0_2.index t (1 : Fin 2) = t.val % 4
    ∧ win0_3.index t (0 : Fin 2) = t.val / 4 % 43 ∧ win0_3.index t (1 : Fin 2) = t.val % 4
    ∧ win0_4.index t (0 : Fin 2) = 0 ∧ win0_4.index t (1 : Fin 2) = t.val / 4 % 43
    ∧ win0_5.index t (0 : Fin 2) = 0 ∧ win0_5.index t (1 : Fin 2) = t.val / 4 % 43
    ∧ win0_6.index t (0 : Fin 2) = t.val / 172 ∧ win0_6.index t (1 : Fin 2) = t.val / 4 % 43 :=
  (by decide +kernel : ∀ t : Fin grid0.N, _)

/-- A block of the activations: 1024 rows from row block `t / 172`, 1024 columns from step `t % 4`. -/
theorem blk0_1_read (A : S4096x4096.Idx → Elt F .f32) (t : Fin cfg0.N) (p r : Fin 1024) :
    ((cfg0.win 1).blk t).view.read (Elt F) A (ix2 p r)
      = A (ix2 (⟨t.val / 172 * 1024 + p.val, by have := lt688_0 t; omega⟩ : Fin 4096)
            (⟨t.val % 4 * 1024 + r.val, by omega⟩ : Fin 4096)) := by
  obtain ⟨-, -, e0, e1, -⟩ := idx_facts0 t
  show A (((cfg0.win 1).blk t).view.emb (ix2 p r)) = _
  refine congrArg A (funext fun a => Fin.ext ?_)
  match a with
  | ⟨0, _⟩ => show win0_1.index t (0 : Fin 2) * 1024 + 1 * p.val = t.val / 172 * 1024 + p.val; rw [e0]; omega
  | ⟨1, _⟩ => show win0_1.index t (1 : Fin 2) * 1024 + 1 * r.val = t.val % 4 * 1024 + r.val; rw [e1]; omega

/-- The one-entry block of the reshaped scale is that entry. -/
theorem blk0_0_read (A : S1x1.Idx → Elt F .f32) (t : Fin cfg0.N) (u v : Fin 1) :
    ((cfg0.win 0).blk t).view.read (Elt F) A (ix2 u v) = A (ix2 (0 : Fin 1) (0 : Fin 1)) := by
  obtain ⟨e0, e1, -⟩ := idx_facts0 t
  show A (((cfg0.win 0).blk t).view.emb (ix2 u v)) = _
  refine congrArg A (funext fun a => Fin.ext ?_)
  match a with
  | ⟨0, _⟩ => show win0_0.index t (0 : Fin 2) * 1 + 1 * u.val = 0; rw [e0]; omega
  | ⟨1, _⟩ => show win0_0.index t (1 : Fin 2) * 1 + 1 * v.val = 0; rw [e1]; omega

/-- A block of the gate weights: 256 rows from column block `t / 4 % 43`, 1024 columns from step `t % 4`. -/
theorem blk0_2_read (A : S11008x4096.Idx → Elt F .f32) (t : Fin cfg0.N) (q : Fin 256) (r : Fin 1024) :
    ((cfg0.win 2).blk t).view.read (Elt F) A (ix2 q r)
      = A (ix2 (⟨t.val / 4 % 43 * 256 + q.val, by omega⟩ : Fin 11008) (⟨t.val % 4 * 1024 + r.val, by omega⟩ : Fin 4096)) := by
  obtain ⟨-, -, -, -, e0, e1, -⟩ := idx_facts0 t
  show A (((cfg0.win 2).blk t).view.emb (ix2 q r)) = _
  refine congrArg A (funext fun a => Fin.ext ?_)
  match a with
  | ⟨0, _⟩ => show win0_2.index t (0 : Fin 2) * 256 + 1 * q.val = t.val / 4 % 43 * 256 + q.val; rw [e0]; omega
  | ⟨1, _⟩ => show win0_2.index t (1 : Fin 2) * 1024 + 1 * r.val = t.val % 4 * 1024 + r.val; rw [e1]; omega

/-- A block of the up weights, at the same place as the gate's. -/
theorem blk0_3_read (A : S11008x4096.Idx → Elt F .f32) (t : Fin cfg0.N) (q : Fin 256) (r : Fin 1024) :
    ((cfg0.win 3).blk t).view.read (Elt F) A (ix2 q r)
      = A (ix2 (⟨t.val / 4 % 43 * 256 + q.val, by omega⟩ : Fin 11008) (⟨t.val % 4 * 1024 + r.val, by omega⟩ : Fin 4096)) := by
  obtain ⟨-, -, -, -, -, -, e0, e1, -⟩ := idx_facts0 t
  show A (((cfg0.win 3).blk t).view.emb (ix2 q r)) = _
  refine congrArg A (funext fun a => Fin.ext ?_)
  match a with
  | ⟨0, _⟩ => show win0_3.index t (0 : Fin 2) * 256 + 1 * q.val = t.val / 4 % 43 * 256 + q.val; rw [e0]; omega
  | ⟨1, _⟩ => show win0_3.index t (1 : Fin 2) * 1024 + 1 * r.val = t.val % 4 * 1024 + r.val; rw [e1]; omega

/-- A block of the gate scales, one row: 256 columns from column block `t / 4 % 43`. -/
theorem blk0_4_read (A : S1x11008.Idx → Elt F .f32) (t : Fin cfg0.N) (u : Fin 1) (q : Fin 256) :
    ((cfg0.win 4).blk t).view.read (Elt F) A (ix2 u q)
      = A (ix2 (0 : Fin 1) (⟨t.val / 4 % 43 * 256 + q.val, by omega⟩ : Fin 11008)) := by
  obtain ⟨-, -, -, -, -, -, -, -, e0, e1, -⟩ := idx_facts0 t
  show A (((cfg0.win 4).blk t).view.emb (ix2 u q)) = _
  refine congrArg A (funext fun a => Fin.ext ?_)
  match a with
  | ⟨0, _⟩ => show win0_4.index t (0 : Fin 2) * 1 + 1 * u.val = 0; rw [e0]; omega
  | ⟨1, _⟩ => show win0_4.index t (1 : Fin 2) * 256 + 1 * q.val = t.val / 4 % 43 * 256 + q.val; rw [e1]; omega

/-- A block of the up scales, at the same place as the gate's. -/
theorem blk0_5_read (A : S1x11008.Idx → Elt F .f32) (t : Fin cfg0.N) (u : Fin 1) (q : Fin 256) :
    ((cfg0.win 5).blk t).view.read (Elt F) A (ix2 u q)
      = A (ix2 (0 : Fin 1) (⟨t.val / 4 % 43 * 256 + q.val, by omega⟩ : Fin 11008)) := by
  obtain ⟨-, -, -, -, -, -, -, -, -, -, e0, e1, -⟩ := idx_facts0 t
  show A (((cfg0.win 5).blk t).view.emb (ix2 u q)) = _
  refine congrArg A (funext fun a => Fin.ext ?_)
  match a with
  | ⟨0, _⟩ => show win0_5.index t (0 : Fin 2) * 1 + 1 * u.val = 0; rw [e0]; omega
  | ⟨1, _⟩ => show win0_5.index t (1 : Fin 2) * 256 + 1 * q.val = t.val / 4 % 43 * 256 + q.val; rw [e1]; omega

/-- A block of the hidden array: 1024 rows from row block `t / 172`, 256 columns from column block `t / 4 % 43`. -/
theorem blk0_6_read (A : S4096x11008.Idx → Elt F .f32) (t : Fin cfg0.N) (p : Fin 1024) (q : Fin 256) :
    ((cfg0.win 6).blk t).view.read (Elt F) A (ix2 p q)
      = A (ix2 (⟨t.val / 172 * 1024 + p.val, by have := lt688_0 t; omega⟩ : Fin 4096)
            (⟨t.val / 4 % 43 * 256 + q.val, by omega⟩ : Fin 11008)) := by
  obtain ⟨-, -, -, -, -, -, -, -, -, -, -, -, e0, e1⟩ := idx_facts0 t
  show A (((cfg0.win 6).blk t).view.emb (ix2 p q)) = _
  refine congrArg A (funext fun a => Fin.ext ?_)
  match a with
  | ⟨0, _⟩ => show win0_6.index t (0 : Fin 2) * 1024 + 1 * p.val = t.val / 172 * 1024 + p.val; rw [e0]; omega
  | ⟨1, _⟩ => show win0_6.index t (1 : Fin 2) * 256 + 1 * q.val = t.val / 4 % 43 * 256 + q.val; rw [e1]; omega

/-- An index of the hidden array is in point `t`'s block iff each coordinate is in the block's range on its axis. -/
theorem mem_blk0_6 (t : Fin cfg0.N) (i : S4096x11008.Idx) :
    i ∈ ((cfg0.win 6).blk t).view.set
      ↔ (t.val / 172 * 1024 ≤ (i 0).val ∧ (i 0).val < t.val / 172 * 1024 + 1024)
        ∧ (t.val / 4 % 43 * 256 ≤ (i 1).val ∧ (i 1).val < t.val / 4 % 43 * 256 + 256) := by
  obtain ⟨-, -, -, -, -, -, -, -, -, -, -, -, e0, e1⟩ := idx_facts0 t
  show i ∈ ((View.whole main_v10).slice (win0_6.rect t)).set ↔ _
  rw [View.set_slice_whole, Rect.mem_set_unit]
  constructor
  · intro h
    have h0 : win0_6.index t (0 : Fin 2) * 1024 ≤ (i 0).val ∧ (i 0).val < win0_6.index t (0 : Fin 2) * 1024 + 1024 := h 0
    have h1 : win0_6.index t (1 : Fin 2) * 256 ≤ (i 1).val ∧ (i 1).val < win0_6.index t (1 : Fin 2) * 256 + 256 := h 1
    rw [e0] at h0; rw [e1] at h1
    exact ⟨h0, h1⟩
  · rintro ⟨h0, h1⟩ a
    match a with
    | ⟨0, _⟩ => show win0_6.index t (0 : Fin 2) * 1024 ≤ (i 0).val ∧ (i 0).val < win0_6.index t (0 : Fin 2) * 1024 + 1024; rw [e0]; exact h0
    | ⟨1, _⟩ => show win0_6.index t (1 : Fin 2) * 256 ≤ (i 1).val ∧ (i 1).val < win0_6.index t (1 : Fin 2) * 256 + 256; rw [e1]; exact h1

/-- Every entry of the hidden array lies under a point that writes its block back: the last step of the entry's row block and
    column block. -/
theorem cover0_6 (i : S4096x11008.Idx) :
    ∃ t : Fin cfg0.N, (cfg0.win 6).flush t = true ∧ i ∈ ((cfg0.win 6).blk t).view.set := by
  have hi0 : (i 0).val < 4096 := (i 0).isLt
  have hi1 : (i 1).val < 11008 := (i 1).isLt
  have hN : grid0.N = 688 := N_0
  refine ⟨⟨(i 0).val / 1024 * 172 + (i 1).val / 256 * 4 + 3, by show _ < grid0.N; omega⟩, ?_, ?_⟩
  · rw [flush0_6]; show ((i 0).val / 1024 * 172 + (i 1).val / 256 * 4 + 3) % 4 = 3; omega
  · rw [mem_blk0_6]
    show (((i 0).val / 1024 * 172 + (i 1).val / 256 * 4 + 3) / 172 * 1024 ≤ (i 0).val
        ∧ (i 0).val < ((i 0).val / 1024 * 172 + (i 1).val / 256 * 4 + 3) / 172 * 1024 + 1024)
      ∧ (((i 0).val / 1024 * 172 + (i 1).val / 256 * 4 + 3) / 4 % 43 * 256 ≤ (i 1).val
        ∧ (i 1).val < ((i 0).val / 1024 * 172 + (i 1).val / 256 * 4 + 3) / 4 % 43 * 256 + 256)
    omega

/-! ## The second kernel: grid 4 x 4 x 43, the last axis (the contraction step) fastest -/

theorem lt688_1 (t : Fin cfg1.N) : t.val < 688 := by
  have h : t.val < grid1.N := t.isLt
  rw [N_1] at h
  exact h

/-- The second kernel's block indices at point `t`. -/
theorem idx_facts1 : ∀ t : Fin cfg1.N,
    win1_0.index t (0 : Fin 2) = 0 ∧ win1_0.index t (1 : Fin 2) = 0
    ∧ win1_1.index t (0 : Fin 2) = t.val / 172 ∧ win1_1.index t (1 : Fin 2) = t.val % 43
    ∧ win1_2.index t (0 : Fin 2) = t.val / 43 % 4 ∧ win1_2.index t (1 : Fin 2) = t.val % 43
    ∧ win1_3.index t (0 : Fin 2) = 0 ∧ win1_3.index t (1 : Fin 2) = t.val / 43 % 4
    ∧ win1_4.index t (0 : Fin 2) = t.val / 172 ∧ win1_4.index t (1 : Fin 2) = t.val / 43 % 4 :=
  (by decide +kernel : ∀ t : Fin grid1.N, _)

/-- The one-entry block of the reshaped hidden scale is that entry. -/
theorem blk1_0_read (A : S1x1.Idx → Elt F .f32) (t : Fin cfg1.N) (u v : Fin 1) :
    ((cfg1.win 0).blk t).view.read (Elt F) A (ix2 u v) = A (ix2 (0 : Fin 1) (0 : Fin 1)) := by
  obtain ⟨e0, e1, -⟩ := idx_facts1 t
  show A (((cfg1.win 0).blk t).view.emb (ix2 u v)) = _
  refine congrArg A (funext fun a => Fin.ext ?_)
  match a with
  | ⟨0, _⟩ => show win1_0.index t (0 : Fin 2) * 1 + 1 * u.val = 0; rw [e0]; omega
  | ⟨1, _⟩ => show win1_0.index t (1 : Fin 2) * 1 + 1 * v.val = 0; rw [e1]; omega

/-- A block of the hidden array as the second kernel reads it: 1024 rows from row block `t / 172`, 256 columns from step `t % 43`. -/
theorem blk1_1_read (A : S4096x11008.Idx → Elt F .f32) (t : Fin cfg1.N) (p : Fin 1024) (r : Fin 256) :
    ((cfg1.win 1).blk t).view.read (Elt F) A (ix2 p r)
      = A (ix2 (⟨t.val / 172 * 1024 + p.val, by have := lt688_1 t; omega⟩ : Fin 4096)
            (⟨t.val % 43 * 256 + r.val, by omega⟩ : Fin 11008)) := by
  obtain ⟨-, -, e0, e1, -⟩ := idx_facts1 t
  show A (((cfg1.win 1).blk t).view.emb (ix2 p r)) = _
  refine congrArg A (funext fun a => Fin.ext ?_)
  match a with
  | ⟨0, _⟩ => show win1_1.index t (0 : Fin 2) * 1024 + 1 * p.val = t.val / 172 * 1024 + p.val; rw [e0]; omega
  | ⟨1, _⟩ => show win1_1.index t (1 : Fin 2) * 256 + 1 * r.val = t.val % 43 * 256 + r.val; rw [e1]; omega

/-- A block of the down weights: 1024 rows from column block `t / 43 % 4`, 256 columns from step `t % 43`. -/
theorem blk1_2_read (A : S4096x11008.Idx → Elt F .f32) (t : Fin cfg1.N) (n : Fin 1024) (r : Fin 256) :
    ((cfg1.win 2).blk t).view.read (Elt F) A (ix2 n r)
      = A (ix2 (⟨t.val / 43 % 4 * 1024 + n.val, by omega⟩ : Fin 4096) (⟨t.val % 43 * 256 + r.val, by omega⟩ : Fin 11008)) := by
  obtain ⟨-, -, -, -, e0, e1, -⟩ := idx_facts1 t
  show A (((cfg1.win 2).blk t).view.emb (ix2 n r)) = _
  refine congrArg A (funext fun a => Fin.ext ?_)
  match a with
  | ⟨0, _⟩ => show win1_2.index t (0 : Fin 2) * 1024 + 1 * n.val = t.val / 43 % 4 * 1024 + n.val; rw [e0]; omega
  | ⟨1, _⟩ => show win1_2.index t (1 : Fin 2) * 256 + 1 * r.val = t.val % 43 * 256 + r.val; rw [e1]; omega

/-- A block of the down scales, one row: 1024 columns from column block `t / 43 % 4`. -/
theorem blk1_3_read (A : S1x4096.Idx → Elt F .f32) (t : Fin cfg1.N) (u : Fin 1) (n : Fin 1024) :
    ((cfg1.win 3).blk t).view.read (Elt F) A (ix2 u n)
      = A (ix2 (0 : Fin 1) (⟨t.val / 43 % 4 * 1024 + n.val, by omega⟩ : Fin 4096)) := by
  obtain ⟨-, -, -, -, -, -, e0, e1, -⟩ := idx_facts1 t
  show A (((cfg1.win 3).blk t).view.emb (ix2 u n)) = _
  refine congrArg A (funext fun a => Fin.ext ?_)
  match a with
  | ⟨0, _⟩ => show win1_3.index t (0 : Fin 2) * 1 + 1 * u.val = 0; rw [e0]; omega
  | ⟨1, _⟩ => show win1_3.index t (1 : Fin 2) * 1024 + 1 * n.val = t.val / 43 % 4 * 1024 + n.val; rw [e1]; omega

/-- A block of the result: 1024 rows from row block `t / 172`, 1024 columns from column block `t / 43 % 4`. -/
theorem blk1_4_read (A : S4096x4096.Idx → Elt F .f32) (t : Fin cfg1.N) (p n : Fin 1024) :
    ((cfg1.win 4).blk t).view.read (Elt F) A (ix2 p n)
      = A (ix2 (⟨t.val / 172 * 1024 + p.val, by have := lt688_1 t; omega⟩ : Fin 4096)
            (⟨t.val / 43 % 4 * 1024 + n.val, by omega⟩ : Fin 4096)) := by
  obtain ⟨-, -, -, -, -, -, -, -, e0, e1⟩ := idx_facts1 t
  show A (((cfg1.win 4).blk t).view.emb (ix2 p n)) = _
  refine congrArg A (funext fun a => Fin.ext ?_)
  match a with
  | ⟨0, _⟩ => show win1_4.index t (0 : Fin 2) * 1024 + 1 * p.val = t.val / 172 * 1024 + p.val; rw [e0]; omega
  | ⟨1, _⟩ => show win1_4.index t (1 : Fin 2) * 1024 + 1 * n.val = t.val / 43 % 4 * 1024 + n.val; rw [e1]; omega

/-- An index of the result is in point `t`'s block iff each coordinate is in the block's range on its axis. -/
theorem mem_blk1_4 (t : Fin cfg1.N) (i : S4096x4096.Idx) :
    i ∈ ((cfg1.win 4).blk t).view.set
      ↔ (t.val / 172 * 1024 ≤ (i 0).val ∧ (i 0).val < t.val / 172 * 1024 + 1024)
        ∧ (t.val / 43 % 4 * 1024 ≤ (i 1).val ∧ (i 1).val < t.val / 43 % 4 * 1024 + 1024) := by
  obtain ⟨-, -, -, -, -, -, -, -, e0, e1⟩ := idx_facts1 t
  show i ∈ ((View.whole main_v16).slice (win1_4.rect t)).set ↔ _
  rw [View.set_slice_whole, Rect.mem_set_unit]
  constructor
  · intro h
    have h0 : win1_4.index t (0 : Fin 2) * 1024 ≤ (i 0).val ∧ (i 0).val < win1_4.index t (0 : Fin 2) * 1024 + 1024 := h 0
    have h1 : win1_4.index t (1 : Fin 2) * 1024 ≤ (i 1).val ∧ (i 1).val < win1_4.index t (1 : Fin 2) * 1024 + 1024 := h 1
    rw [e0] at h0; rw [e1] at h1
    exact ⟨h0, h1⟩
  · rintro ⟨h0, h1⟩ a
    match a with
    | ⟨0, _⟩ => show win1_4.index t (0 : Fin 2) * 1024 ≤ (i 0).val ∧ (i 0).val < win1_4.index t (0 : Fin 2) * 1024 + 1024; rw [e0]; exact h0
    | ⟨1, _⟩ => show win1_4.index t (1 : Fin 2) * 1024 ≤ (i 1).val ∧ (i 1).val < win1_4.index t (1 : Fin 2) * 1024 + 1024; rw [e1]; exact h1

/-- Every entry of the result lies under a point that writes its block back: the last contraction step of the entry's row
    block and column block. -/
theorem cover1_4 (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hN : grid1.N = 688 := N_1
  refine ⟨⟨(i 0).val / 1024 * 172 + (i 1).val / 1024 * 43 + 42, by show _ < grid1.N; omega⟩, ?_, ?_⟩
  · rw [flush1_4]; show ((i 0).val / 1024 * 172 + (i 1).val / 1024 * 43 + 42) % 43 = 42; omega
  · rw [mem_blk1_4]
    show (((i 0).val / 1024 * 172 + (i 1).val / 1024 * 43 + 42) / 172 * 1024 ≤ (i 0).val
        ∧ (i 0).val < ((i 0).val / 1024 * 172 + (i 1).val / 1024 * 43 + 42) / 172 * 1024 + 1024)
      ∧ (((i 0).val / 1024 * 172 + (i 1).val / 1024 * 43 + 42) / 43 % 4 * 1024 ≤ (i 1).val
        ∧ (i 1).val < ((i 0).val / 1024 * 172 + (i 1).val / 1024 * 43 + 42) / 43 % 4 * 1024 + 1024)
    omega

end Cert.KernelIdeal.Hand

end
-- ==== Proof.BlockSum.lean ====
/-
  A sum over `B * K` consecutive columns is the sum, over the `B` blocks of `K` columns, of each block's own sum;
  and an accumulator that starts from `z` plus the first block's sum and adds one block's sum at each later step
  holds, after step `n`, `z` plus the sum of the first `n + 1` blocks' sums — so after the last step, with `z = 0`,
  the whole sum.
-/
import Mathlib.Algebra.BigOperators.Fin
import Mathlib.Logic.Equiv.Fin.Basic

namespace Cert.KernelIdeal.Pay

open scoped BigOperators

/-- Column `r` of block `b` is column `b * K + r` of the whole. -/
theorem block_col_lt {B K : ℕ} (b : Fin B) (r : Fin K) : b.val * K + r.val < B * K :=
  calc b.val * K + r.val < b.val * K + K := Nat.add_lt_add_left r.isLt _
    _ = (b.val + 1) * K := (Nat.succ_mul _ _).symm
    _ ≤ B * K := Nat.mul_le_mul_right _ b.isLt

/-- A sum over `B * K` columns, block by block. -/
theorem sum_blocks {M : Type*} [AddCommMonoid M] (B K : ℕ) (f : Fin (B * K) → M) :
    ∑ c : Fin (B * K), f c = ∑ b : Fin B, ∑ r : Fin K, f ⟨b.val * K + r.val, block_col_lt b r⟩ := by
  rw [← Equiv.sum_comp (finProdFinEquiv (m := B) (n := K)) f, Fintype.sum_prod_type]
  refine Finset.sum_congr rfl fun b _ => Finset.sum_congr rfl fun r _ => congrArg f (Fin.ext ?_)
  show r.val + K * b.val = b.val * K + r.val
  rw [Nat.mul_comm, Nat.add_comm]

/-- The running accumulator: `z` plus the first block at step `0`, one more block at each later step below `B`. After
    step `n` it holds `z` plus the first `n + 1` blocks. -/
theorem fold_range {M : Type*} [AddCommMonoid M] (B : ℕ) (z : M) (g acc : ℕ → M) (h0 : acc 0 = z + g 0)
    (hs : ∀ n, n + 1 < B → acc (n + 1) = acc n + g (n + 1)) :
    ∀ n, n < B → acc n = z + ∑ i ∈ Finset.range (n + 1), g i := by
  intro n
  induction n with
  | zero => intro _; rw [h0, Finset.sum_range_one]
  | succ n ih =>
    intro hn
    rw [hs n hn, ih (Nat.lt_of_succ_lt hn), Finset.sum_range_succ _ (n + 1), add_assoc]

/-- After the last step the accumulator holds `z` plus every block. -/
theorem fold_total {M : Type*} [AddCommMonoid M] (B : ℕ) (hB : 0 < B) (z : M) (g acc : ℕ → M) (h0 : acc 0 = z + g 0)
    (hs : ∀ n, n + 1 < B → acc (n + 1) = acc n + g (n + 1)) :
    acc (B - 1) = z + ∑ b : Fin B, g b.val := by
  rw [fold_range B z g acc h0 hs (B - 1) (Nat.sub_lt hB Nat.one_pos), Nat.sub_add_cancel hB, Finset.sum_range]

/-- The two together: an accumulator fed, at step `b`, the sum of block `b`'s `K` terms of `f`, starting from `0`,
    holds after the last of the `B` steps the sum of `f` over all `B * K` columns. (`g` is the block sums as a function
    of the step number; `hg` says so at each step below `B`.) -/
theorem fold_blocks_total {M : Type*} [AddCommMonoid M] (B K : ℕ) (hB : 0 < B) (f : Fin (B * K) → M) (g acc : ℕ → M)
    (hg : ∀ b : Fin B, g b.val = ∑ r : Fin K, f ⟨b.val * K + r.val, block_col_lt b r⟩)
    (h0 : acc 0 = 0 + g 0) (hs : ∀ n, n + 1 < B → acc (n + 1) = acc n + g (n + 1)) :
    acc (B - 1) = ∑ c : Fin (B * K), f c := by
  rw [fold_total B hB 0 g acc h0 hs, zero_add, sum_blocks B K f]
  exact Finset.sum_congr rfl fun b _ => hg b

end Cert.KernelIdeal.Pay
-- ==== Proof.DownSum.lean ====
/-
  Forty-three steps of 256 columns make the whole contraction.

  An accumulator that starts, at step 0, from zero plus the first 256 columns' products, and at each later step adds the next
  256 columns' products, holds after step 42 the sum of the products over all 11008 = 43 * 256 columns.  The arrays are read
  at natural-number coordinates (zero outside the array), so that a column written `k * 256 + r` needs no proof that it is
  in range; at coordinates in range the reading is the array's entry.
-/
import proofs.«134952_j29721173688828_1_alg».proof.Proof.BlockSum
import proofs.«134952_j29721173688828_1_alg».proof.Proof.Spec

noncomputable section

namespace Cert.KernelIdeal.Hand

open Idealize.ShloMosaic Idealize.ShloMosaic.ValueIdx Cert.KernelIdeal.Pay

/-- A matrix read at natural-number coordinates: its entry where both are in range, `0` elsewhere. -/
def rdN {a b : ℕ} (A : (⟨2, ![a, b]⟩ : Shape).Idx → EReal) (i j : ℕ) : EReal :=
  if h : i < a ∧ j < b then A (ix2 ⟨i, h.1⟩ ⟨j, h.2⟩) else 0

theorem rdN_eq {a b : ℕ} (A : (⟨2, ![a, b]⟩ : Shape).Idx → EReal) (i : Fin a) (j : Fin b) :
    rdN A i.val j.val = A (ix2 i j) := by
  unfold rdN
  rw [dif_pos ⟨i.isLt, j.isLt⟩]

theorem rdN_mk {a b : ℕ} (A : (⟨2, ![a, b]⟩ : Shape).Idx → EReal) (i j : ℕ) (hi : i < a) (hj : j < b) :
    A (ix2 ⟨i, hi⟩ ⟨j, hj⟩) = rdN A i j := by
  unfold rdN
  rw [dif_pos ⟨hi, hj⟩]

/-- The accumulator after the last of the 43 steps holds the contraction over all 11008 columns. -/
theorem steps_total (H W : (⟨2, ![4096, 11008]⟩ : Shape).Idx → EReal) (sh : EReal) (row col : Fin 4096) (acc : ℕ → EReal)
    (h0 : acc 0 = 0 + ∑ r : Fin 256, Cert.QuantMlp.quant (rdN H row.val (0 * 256 + r.val)) sh * rdN W col.val (0 * 256 + r.val))
    (hs : ∀ k, k + 1 < 43 → acc (k + 1)
      = acc k + ∑ r : Fin 256, Cert.QuantMlp.quant (rdN H row.val ((k + 1) * 256 + r.val)) sh * rdN W col.val ((k + 1) * 256 + r.val)) :
    acc 42 = ∑ j : Fin 11008, Cert.QuantMlp.quant (H (ix2 row j)) sh * W (ix2 col j) := by
  have key := fold_blocks_total 43 256 (by decide)
    (fun c : Fin (43 * 256) => Cert.QuantMlp.quant (rdN H row.val c.val) sh * rdN W col.val c.val)
    (fun k => ∑ r : Fin 256, Cert.QuantMlp.quant (rdN H row.val (k * 256 + r.val)) sh * rdN W col.val (k * 256 + r.val))
    acc (fun b => rfl) h0 hs
  refine key.trans ?_
  show ∑ j : Fin 11008, Cert.QuantMlp.quant (rdN H row.val j.val) sh * rdN W col.val j.val = _
  exact Finset.sum_congr rfl fun j _ => by rw [rdN_eq H row j, rdN_eq W col j]

end Cert.KernelIdeal.Hand

end
-- ==== Proof.GateUpArr.lean ====
/-
  What the first kernel leaves in the hidden array.

  The grid is 4 x 43 x 4 with the last axis fastest: point `t` is contraction step `t % 4` of the pair (row block
  `t / 172`, column block `t / 4 % 43`), and the four points of one pair are consecutive.  A step's partial products, read
  off the arrays, are the 1024 columns `(t % 4) * 1024 + r` of a row of the quantized activations against a row of the gate
  (or up) weights; the four steps together make the whole sum over the 4096 columns.  At the last step the staging buffer
  receives `silu` of the gate sum rescaled by the activation scale times the row's gate scale, times the up sum rescaled
  likewise, and is written back as the pair's 1024 x 256 block of the hidden array.  The blocks written back tile the
  hidden array, so it ends holding, entry by entry, `silu gate * up` of the first projection.  (The arrays are read at
  natural-number coordinates where a column is written `k * 1024 + r`, so that it needs no proof of being in range.)
-/
import proofs.«134952_j29721173688828_1_alg».proof.Proof.GateUpAcc
import proofs.«134952_j29721173688828_1_alg».proof.Proof.BlockIdx
import proofs.«134952_j29721173688828_1_alg».proof.Proof.BlockSum
import proofs.«134952_j29721173688828_1_alg».proof.Proof.DownSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## From blocks to arrays -/

section Array
variable (V : (c : Dev nD) → (b : Ref sig .tc) → Buf (Elt Ideal) ((c : Thread nD τ).loc b))

/-- The activations, the gate and up weights, their scales as one row each, and the activation scale, as the first kernel
    finds them. -/
abbrev Xv (c : Dev nD) : FVec Ideal S4096x4096 .f32 := V c main_arg0
abbrev Wgv (c : Dev nD) : FVec Ideal S11008x4096 .f32 := V c main_v4
abbrev Wuv (c : Dev nD) : FVec Ideal S11008x4096 .f32 := V c main_v5
abbrev Sgv (c : Dev nD) : FVec Ideal S1x11008 .f32 := V c main_v7
abbrev Suv (c : Dev nD) : FVec Ideal S1x11008 .f32 := V c main_v9
abbrev sxv (c : Dev nD) : EReal := (V c main_v3 : FVec Ideal S1x1 .f32) (ix2 (0 : Fin 1) (0 : Fin 1))

/-- The array the first kernel computes: each row of the activations, quantized against the activation scale, contracted
    with a row of the gate weights and with the same row of the up weights, both rescaled by the activation scale times the
    row's weight scale, and `silu` of the first times the second. -/
def Hs (c : Dev nD) : FVec Ideal S4096x11008 .f32 := fun i =>
  Cert.QuantMlp.silu ((∑ k : Fin 4096, Cert.QuantMlp.quant (Xv V c (ix2 (i 0) k)) (sxv V c) * Wgv V c (ix2 (i 1) k))
      * (sxv V c * Sgv V c (ix2 (0 : Fin 1) (i 1))))
    * ((∑ k : Fin 4096, Cert.QuantMlp.quant (Xv V c (ix2 (i 0) k)) (sxv V c) * Wuv V c (ix2 (i 1) k))
      * (sxv V c * Suv V c (ix2 (0 : Fin 1) (i 1))))

/-! ### The blocks at a point, read off the arrays -/

theorem scale0_eq (c : Dev nD) (t : Fin cfg0.N) : scale0 V c t = sxv V c := by
  unfold scale0 iblk0
  exact blk0_0_read (F := Ideal) (V c main_v3) t 0 0

theorem A1_apply (c : Dev nD) (t : Fin cfg0.N) (p r : Fin 1024) :
    (iblk0 V c 1 t : Vec Ideal S1024x1024 .f32) (ix2 p r)
      = rdN (Xv V c) (t.val / 172 * 1024 + p.val) (t.val % 4 * 1024 + r.val) := by
  unfold iblk0
  exact (blk0_1_read (F := Ideal) (V c main_arg0) t p r).trans (rdN_mk (Xv V c) _ _ _ _)

theorem A0_apply (c : Dev nD) (t : Fin cfg0.N) (u v : Fin 1) :
    (iblk0 V c 0 t : Vec Ideal S1x1 .f32) (ix2 u v) = sxv V c := by
  unfold iblk0
  exact blk0_0_read (F := Ideal) (V c main_v3) t u v

theorem A2_apply (c : Dev nD) (t : Fin cfg0.N) (q : Fin 256) (r : Fin 1024) :
    (iblk0 V c 2 t : Vec Ideal S256x1024 .f32) (ix2 q r)
      = rdN (Wgv V c) (t.val / 4 % 43 * 256 + q.val) (t.val % 4 * 1024 + r.val) := by
  unfold iblk0
  exact (blk0_2_read (F := Ideal) (V c main_v4) t q r).trans (rdN_mk (Wgv V c) _ _ _ _)

theorem A3_apply (c : Dev nD) (t : Fin cfg0.N) (q : Fin 256) (r : Fin 1024) :
    (iblk0 V c 3 t : Vec Ideal S256x1024 .f32) (ix2 q r)
      = rdN (Wuv V c) (t.val / 4 % 43 * 256 + q.val) (t.val % 4 * 1024 + r.val) := by
  unfold iblk0
  exact (blk0_3_read (F := Ideal) (V c main_v5) t q r).trans (rdN_mk (Wuv V c) _ _ _ _)

theorem A4_apply (c : Dev nD) (t : Fin cfg0.N) (u : Fin 1) (q : Fin 256) :
    (iblk0 V c 4 t : Vec Ideal S1x256 .f32) (ix2 u q)
      = Sgv V c (ix2 (0 : Fin 1) (⟨t.val / 4 % 43 * 256 + q.val, by omega⟩ : Fin 11008)) := by
  unfold iblk0
  exact blk0_4_read (F := Ideal) (V c main_v7) t u q

theorem A5_apply (c : Dev nD) (t : Fin cfg0.N) (u : Fin 1) (q : Fin 256) :
    (iblk0 V c 5 t : Vec Ideal S1x256 .f32) (ix2 u q)
      = Suv V c (ix2 (0 : Fin 1) (⟨t.val / 4 % 43 * 256 + q.val, by omega⟩ : Fin 11008)) := by
  unfold iblk0
  exact blk0_5_read (F := Ideal) (V c main_v9) t u q

/-! ### The four steps of one block pair -/

/-- A step's contribution to a row sum against the weights `W`, with its point's row block, column block and step number
    named: the 1024 columns `k * 1024 + r` of row `a` of the activations against row `b` of the weights. -/
def stepRow (c : Dev nD) (W : FVec Ideal S11008x4096 .f32) (a b k : ℕ) : EReal :=
  ∑ r : Fin 1024, Cert.QuantMlp.quant (rdN (Xv V c) a (k * 1024 + r.val)) (sxv V c) * rdN W b (k * 1024 + r.val)

theorem gateTerm_eq (c : Dev nD) (t : Fin cfg0.N) (p : Fin 1024) (q : Fin 256) :
    gateTerm V c t p q
      = stepRow V c (Wgv V c) (t.val / 172 * 1024 + p.val) (t.val / 4 % 43 * 256 + q.val) (t.val % 4) := by
  unfold gateTerm stepRow
  refine Finset.sum_congr rfl fun r _ => ?_
  rw [A0_apply, A1_apply, A2_apply]

theorem upTerm_eq (c : Dev nD) (t : Fin cfg0.N) (p : Fin 1024) (q : Fin 256) :
    upTerm V c t p q
      = stepRow V c (Wuv V c) (t.val / 172 * 1024 + p.val) (t.val / 4 % 43 * 256 + q.val) (t.val % 4) := by
  unfold upTerm stepRow
  refine Finset.sum_congr rfl fun r _ => ?_
  rw [A0_apply, A1_apply, A3_apply]

/-- The four steps' contributions make the whole row sum over the 4096 columns. -/
theorem steps_sum (c : Dev nD) (W : FVec Ideal S11008x4096 .f32) (a : Fin 4096) (b : Fin 11008) :
    ∑ j : Fin 4, stepRow V c W a.val b.val j.val
      = ∑ k : Fin 4096, Cert.QuantMlp.quant (Xv V c (ix2 a k)) (sxv V c) * W (ix2 b k) := by
  have key := Pay.sum_blocks 4 1024
    (fun k : Fin (4 * 1024) => Cert.QuantMlp.quant (rdN (Xv V c) a.val k.val) (sxv V c) * rdN W b.val k.val)
  refine Eq.trans ?_ (Eq.trans key.symm ?_)
  · rfl
  · show ∑ k : Fin 4096, Cert.QuantMlp.quant (rdN (Xv V c) a.val k.val) (sxv V c) * rdN W b.val k.val = _
    exact Finset.sum_congr rfl fun k _ => by rw [rdN_eq (Xv V c) a k, rdN_eq W b k]

/-- The four steps' gate contributions of a block pair make the whole gate row sum … -/
theorem gate_total (c : Dev nD) (t0 : ℕ) (ht0 : t0 % 4 = 0) (h : t0 + 3 < cfg0.N) (p : Fin 1024) (q : Fin 256)
    (a : Fin 4096) (b : Fin 11008) (ha : a.val = (t0 + 3) / 172 * 1024 + p.val) (hb : b.val = (t0 + 3) / 4 % 43 * 256 + q.val) :
    ∑ j : Fin 4, gateTerm V c ⟨t0 + j.val, by have := j.isLt; omega⟩ p q
      = ∑ k : Fin 4096, Cert.QuantMlp.quant (Xv V c (ix2 a k)) (sxv V c) * Wgv V c (ix2 b k) := by
  refine Eq.trans (Finset.sum_congr rfl fun j _ => ?_) (steps_sum V c (Wgv V c) a b)
  have hj := j.isLt
  have hN : grid0.N = 688 := N_0
  have hlt : t0 + 3 < grid0.N := h
  rw [gateTerm_eq]
  show stepRow V c (Wgv V c) ((t0 + j.val) / 172 * 1024 + p.val) ((t0 + j.val) / 4 % 43 * 256 + q.val) ((t0 + j.val) % 4) = _
  rw [show (t0 + j.val) / 172 * 1024 + p.val = a.val from by omega,
    show (t0 + j.val) / 4 % 43 * 256 + q.val = b.val from by omega, show (t0 + j.val) % 4 = j.val from by omega]

/-- … and the up contributions the whole up row sum. -/
theorem up_total (c : Dev nD) (t0 : ℕ) (ht0 : t0 % 4 = 0) (h : t0 + 3 < cfg0.N) (p : Fin 1024) (q : Fin 256)
    (a : Fin 4096) (b : Fin 11008) (ha : a.val = (t0 + 3) / 172 * 1024 + p.val) (hb : b.val = (t0 + 3) / 4 % 43 * 256 + q.val) :
    ∑ j : Fin 4, upTerm V c ⟨t0 + j.val, by have := j.isLt; omega⟩ p q
      = ∑ k : Fin 4096, Cert.QuantMlp.quant (Xv V c (ix2 a k)) (sxv V c) * Wuv V c (ix2 b k) := by
  refine Eq.trans (Finset.sum_congr rfl fun j _ => ?_) (steps_sum V c (Wuv V c) a b)
  have hj := j.isLt
  have hN : grid0.N = 688 := N_0
  have hlt : t0 + 3 < grid0.N := h
  rw [upTerm_eq]
  show stepRow V c (Wuv V c) ((t0 + j.val) / 172 * 1024 + p.val) ((t0 + j.val) / 4 % 43 * 256 + q.val) ((t0 + j.val) % 4) = _
  rw [show (t0 + j.val) / 172 * 1024 + p.val = a.val from by omega,
    show (t0 + j.val) / 4 % 43 * 256 + q.val = b.val from by omega, show (t0 + j.val) % 4 = j.val from by omega]

/-! ### The block written back, and the array -/

/-- At the last step of a block pair the output's staging buffer holds the pair's block of `Hs`. -/
theorem out_at (c : Dev nD) (t : Fin cfg0.N) (h3 : t.val % 4 = 3) (p : Fin 1024) (q : Fin 256) :
    (stAt0 V c t.val t.isLt).1 (ix2 p q)
      = Hs V c (ix2 (⟨t.val / 172 * 1024 + p.val, by have := lt688_0 t; omega⟩ : Fin 4096)
          (⟨t.val / 4 % 43 * 256 + q.val, by omega⟩ : Fin 11008)) := by
  obtain ⟨n, hn⟩ := t
  have h3' : n % 4 = 3 := h3
  obtain ⟨t0, rfl⟩ : ∃ t0, n = t0 + 3 := ⟨n - 3, by omega⟩
  have hlt : t0 + 3 < 688 := lt688_0 ⟨t0 + 3, hn⟩
  refine (out_closed V c t0 (by omega) hn p q).trans ?_
  rw [gate_total V c t0 (by omega) hn p q ⟨(t0 + 3) / 172 * 1024 + p.val, by omega⟩ ⟨(t0 + 3) / 4 % 43 * 256 + q.val, by omega⟩ rfl rfl,
    up_total V c t0 (by omega) hn p q ⟨(t0 + 3) / 172 * 1024 + p.val, by omega⟩ ⟨(t0 + 3) / 4 % 43 * 256 + q.val, by omega⟩ rfl rfl,
    scale0_eq, A4_apply, A5_apply]
  rfl

/-- What a point that writes back writes is its block of `Hs`. -/
theorem flushed0_6 (c : Dev nD) (t : Fin cfg0.N) (hf : (cfg0.win 6).flush t = true) :
    (dat0 V c).flushed 6 t = ((cfg0.win 6).blk t).view.read (Elt Ideal) (Hs V c) := by
  have h3 : t.val % 4 = 3 := (flush0_6 t).mp hf
  funext y
  obtain ⟨p, q, rfl⟩ : ∃ (p : Fin 1024) (q : Fin 256), y = ix2 p q := ⟨y 0, y 1, eq_ix2 y⟩
  rw [blk0_6_read (F := Ideal) (Hs V c) t p q]
  show (dat0 V c).after 6 t (ix2 p q) = _
  rw [after0_6]
  exact out_at V c t h3 p q

/-- The hidden array after the first kernel. -/
theorem arrAt0_6 (c : Dev nD) : (dat0 V c).arrAt 6 cfg0.N = Hs V c :=
  (dat0 V c).arrAt_eq_of_cover 6 (Hs V c) (fun t hf => flushed0_6 V c t hf) (fun i => cover0_6 i)

end Array

end Cert.KernelIdeal.Hand

end
-- ==== Proof.DownPieces.lean ====
/-
  What each run of the second kernel's body leaves in its accumulator and in the output's staging buffer, as the payloads:
  the pieces a run writes are whole-buffer stores, the last one decides the contents, and its payload's loads read the whole
  buffers the run was entered with (or, for the accumulator read back after it was cleared or added to in the same run, the
  payload just stored).

  Where the reduction starts the accumulator ends with the first partial products added to the zero splat; at a later step it
  ends with the step's partial products added to what the step before left; at the last step the output's staging buffer ends
  with the accumulator rescaled by the hidden scale times the column's weight scale.
-/
import proofs.«134952_j29721173688828_1_alg».proof.Proof.DownDat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets, however they are spelt. -/
theorem hz00' : (![0, 0] : Fin 2 → Nat) = fun _ => 0 := funext fun a => by fin_cases a <;> rfl

/-! ## The written pieces, over any buffers and blocks -/

/-- Where the reduction starts: the accumulator. -/
theorem canon1A_0 (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1x1 .f32) (x1 : Vec F S1024x256 .f32) (x2 : Vec F S1024x256 .f32) (x3 : Vec F S1x1024 .f32) :
    View.canon (kernelRun1_A (F := F) c i arg3 harg3 arg4 harg4 arg5 harg5 arg6 harg6 arg7 harg7 arg8 harg8 hc0 hc1 x0 x1 x2 x3).1 = Gen.k1_pay3 x0 x1 x2 Gen.k1_pay1 := by
  unfold kernelRun1_A
  dsimp only
  sl_unfold_words
  rw [View.canon_cons_unit_zero (S := S1024x1024) hz00', View.readCov_unit_zero (S := S1024x1024) _ hz00']
  simp only [View.readAt_eq_ld, harg3.read_unread, harg4.read_unread, harg5.read_unread, harg6.read_unread, harg8.read_unread, View.ld_unit_zero (S := S1x1) hz00', View.ld_unit_zero (S := S1024x256) hz00', View.ld_unit_zero (S := S1x1024) hz00', View.ld_unit_zero (S := S1024x1024) hz00']

/-- A middle step: the accumulator. -/
theorem canon1B_0 (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1x1 .f32) (x1 : Vec F S1024x256 .f32) (x2 : Vec F S1024x256 .f32) (x3 : Vec F S1x1024 .f32) (xs0 : Vec F S1024x1024 .f32) :
    View.canon (kernelRun1_B (F := F) c i arg3 harg3 arg4 harg4 arg5 harg5 arg6 harg6 arg7 harg7 arg8 harg8 hc0 hc1 x0 x1 x2 x3 xs0).1 = Gen.k1_pay3 x0 x1 x2 xs0 := by
  unfold kernelRun1_B
  dsimp only
  sl_unfold_words
  rw [View.canon_unit_zero (S := S1024x1024) hz00']
  simp only [View.readAt_eq_ld, harg3.read_unread, harg4.read_unread, harg5.read_unread, harg6.read_unread, harg8.read_unread, View.ld_unit_zero (S := S1x1) hz00', View.ld_unit_zero (S := S1024x256) hz00', View.ld_unit_zero (S := S1x1024) hz00', View.ld_unit_zero (S := S1024x1024) hz00']

/-- The last step: the accumulator. -/
theorem canon1C_0 (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1x1 .f32) (x1 : Vec F S1024x256 .f32) (x2 : Vec F S1024x256 .f32) (x3 : Vec F S1x1024 .f32) (xs0 : Vec F S1024x1024 .f32) :
    View.canon (kernelRun1_C (F := F) c i arg3 harg3 arg4 harg4 arg5 harg5 arg6 harg6 arg7 harg7 arg8 harg8 hc0 hc1 x0 x1 x2 x3 xs0).2.1 = Gen.k1_pay3 x0 x1 x2 xs0 := by
  unfold kernelRun1_C
  dsimp only
  sl_unfold_words
  rw [View.canon_unit_zero (S := S1024x1024) hz00']
  simp only [View.readAt_eq_ld, harg3.read_unread, harg4.read_unread, harg5.read_unread, harg6.read_unread, harg8.read_unread, View.ld_unit_zero (S := S1x1) hz00', View.ld_unit_zero (S := S1024x256) hz00', View.ld_unit_zero (S := S1x1024) hz00', View.ld_unit_zero (S := S1024x1024) hz00']

/-- The last step: the output's staging buffer. -/
theorem canon1C_4 (c : Dev nD) (i : grid1.Coords) (arg3 : Memref sig .tc .vmem S1x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1x1 .f32) (x1 : Vec F S1024x256 .f32) (x2 : Vec F S1024x256 .f32) (x3 : Vec F S1x1024 .f32) (xs0 : Vec F S1024x1024 .f32) :
    View.canon (kernelRun1_C (F := F) c i arg3 harg3 arg4 harg4 arg5 harg5 arg6 harg6 arg7 harg7 arg8 harg8 hc0 hc1 x0 x1 x2 x3 xs0).1
      = Gen.k1_pay4 x0 (Gen.k1_pay3 x0 x1 x2 xs0) x3 := by
  unfold kernelRun1_C
  dsimp only
  sl_unfold_words
  rw [View.canon_unit_zero (S := S1024x1024) hz00', View.readCov_unit_zero (S := S1024x1024) _ hz00']
  simp only [View.readAt_eq_ld, harg3.read_unread, harg4.read_unread, harg5.read_unread, harg6.read_unread, harg8.read_unread, View.ld_unit_zero (S := S1x1) hz00', View.ld_unit_zero (S := S1024x256) hz00', View.ld_unit_zero (S := S1x1024) hz00', View.ld_unit_zero (S := S1024x1024) hz00']

/-! ## The same at a grid point, over the window blocks, read back over anything -/

section
variable (V : (c : Dev nD) → (b : Ref sig .tc) → Buf (Elt F) ((c : Thread nD τ).loc b))

/-- Where the reduction starts the accumulator ends with the first partial products added to the zero splat. -/
theorem rdS1_0_runA1 (c : Dev nD) (t : Fin cfg1.N) (h0 : t.val % 43 = 0) :
    rdS1_0 (runA1 V c t h0).1 = Gen.k1_pay3 (iblk1 V c 0 t) (iblk1 V c 1 t) (iblk1 V c 2 t) Gen.k1_pay1 :=
  (View.read_writes_junk_eq_canon VS1_0 (runA1 V c t h0).1).trans
    (canon1A_0 c (grid1.coords t) (ms1_0 t) (hs1_0 t) (ms1_1 t) (hs1_1 t) (ms1_2 t) (hs1_2 t) (ms1_3 t) (hs1_3 t) (ms1_4 t) (hs1_4 t) scM1_0 (Memref.isWhole_whole _)
      ((hcond1_0 t).mpr h0) (fun h => by have := (hcond1_1 t).mp h; omega) (iblk1 V c 0 t) (iblk1 V c 1 t) (iblk1 V c 2 t) (iblk1 V c 3 t))

/-- At a middle step the accumulator ends with the step's partial products added to what it held. -/
theorem rdS1_0_runB1 (c : Dev nD) (t : Fin cfg1.N) (h0 : ¬t.val % 43 = 0) (h1 : ¬t.val % 43 = 42) (xs0 : Vec F S1024x1024 .f32) :
    rdS1_0 (runB1 V c t h0 h1 xs0).1 = Gen.k1_pay3 (iblk1 V c 0 t) (iblk1 V c 1 t) (iblk1 V c 2 t) xs0 :=
  (View.read_writes_junk_eq_canon VS1_0 (runB1 V c t h0 h1 xs0).1).trans
    (canon1B_0 c (grid1.coords t) (ms1_0 t) (hs1_0 t) (ms1_1 t) (hs1_1 t) (ms1_2 t) (hs1_2 t) (ms1_3 t) (hs1_3 t) (ms1_4 t) (hs1_4 t) scM1_0 (Memref.isWhole_whole _)
      (fun h => h0 ((hcond1_0 t).mp h)) (fun h => h1 ((hcond1_1 t).mp h)) (iblk1 V c 0 t) (iblk1 V c 1 t) (iblk1 V c 2 t) (iblk1 V c 3 t) xs0)

/-- At the last step the accumulator ends with the last partial products added to what it held, -/
theorem rdS1_0_runC1 (c : Dev nD) (t : Fin cfg1.N) (h1 : t.val % 43 = 42) (xs0 : Vec F S1024x1024 .f32) :
    rdS1_0 (runC1 V c t h1 xs0).2.1 = Gen.k1_pay3 (iblk1 V c 0 t) (iblk1 V c 1 t) (iblk1 V c 2 t) xs0 :=
  (View.read_writes_junk_eq_canon VS1_0 (runC1 V c t h1 xs0).2.1).trans
    (canon1C_0 c (grid1.coords t) (ms1_0 t) (hs1_0 t) (ms1_1 t) (hs1_1 t) (ms1_2 t) (hs1_2 t) (ms1_3 t) (hs1_3 t) (ms1_4 t) (hs1_4 t) scM1_0 (Memref.isWhole_whole _)
      (fun h => by have := (hcond1_0 t).mp h; omega) ((hcond1_1 t).mpr h1) (iblk1 V c 0 t) (iblk1 V c 1 t) (iblk1 V c 2 t) (iblk1 V c 3 t) xs0)

/-- and the output's staging buffer with that accumulator rescaled by the hidden scale times the column scales. -/
theorem rdO4_runC1 (c : Dev nD) (t : Fin cfg1.N) (h1 : t.val % 43 = 42) (xs0 : Vec F S1024x1024 .f32) :
    rdO4 (runC1 V c t h1 xs0).1
      = Gen.k1_pay4 (iblk1 V c 0 t) (Gen.k1_pay3 (iblk1 V c 0 t) (iblk1 V c 1 t) (iblk1 V c 2 t) xs0) (iblk1 V c 3 t) :=
  (View.read_writes_junk_eq_canon VO1_4 (runC1 V c t h1 xs0).1).trans
    (canon1C_4 c (grid1.coords t) (ms1_0 t) (hs1_0 t) (ms1_1 t) (hs1_1 t) (ms1_2 t) (hs1_2 t) (ms1_3 t) (hs1_3 t) (ms1_4 t) (hs1_4 t) scM1_0 (Memref.isWhole_whole _)
      (fun h => by have := (hcond1_0 t).mp h; omega) ((hcond1_1 t).mpr h1) (iblk1 V c 0 t) (iblk1 V c 1 t) (iblk1 V c 2 t) (iblk1 V c 3 t) xs0)

end

end Cert.KernelIdeal.Hand

end
-- ==== Proof.PayDown.lean ====
/-
  The second kernel's payloads read at an index. One step along the contracted axis adds to the accumulator, at row `p`
  and column `n`, the sum over the block's 256 columns `r` of the quantized hidden activation at `(p, r)` times the down
  weight at `(n, r)` (the weight block is transposed before the product); the last step rescales the accumulator by the
  activation scale times the column's weight scale.
-/
import proofs.«134952_j29721173688828_1_alg».proof.Proof.Gen.KernelIdeal.Skeleton
import proofs.«134952_j29721173688828_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx Idealize.SL.Sem

/-- The activation scale read out of its 1×1 block. -/
theorem k1_pay2_eq (v3 : Vec Ideal S1x1 .f32) : Gen.k1_pay2 (F := Ideal) v3 = v3 (ix2 (0 : Fin 1) (0 : Fin 1)) := by
  unfold Gen.k1_pay2 extractAt
  exact congrArg v3 (funext fun a => match a with | ⟨0, _⟩ => rfl | ⟨1, _⟩ => rfl)

/-! The product's operand indices at output index `i` and contraction index `q`, coordinate by coordinate. -/

theorem lhs_down_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_down_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_down_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_down_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- One step of the down projection's accumulation. -/
theorem k1_pay3_apply (v3 : Vec Ideal S1x1 .f32) (v5 v15 : Vec Ideal S1024x256 .f32) (v17 : Vec Ideal S1024x1024 .f32)
    (p n : Fin 1024) :
    Gen.k1_pay3 (F := Ideal) v3 v5 v15 v17 (ix2 p n)
      = v17 (ix2 p n) + ∑ r : Fin 256, Cert.QuantMlp.quant (v5 (ix2 p r)) (v3 (ix2 (0 : Fin 1) (0 : Fin 1))) * v15 (ix2 n r) := by
  unfold Gen.k1_pay3
  simp only [matmul]
  rw [shapeCast_self, addf_apply, Ideal.matmul_constant_zero_apply,
    ← Equiv.sum_comp (contrEquiv1 dot_S1024x256_S256x1024_S1024x1024_1_0_0_1_n_n 256 rfl rfl).symm]
  refine congrArg (v17 (ix2 p n) + ·) (Finset.sum_congr rfl fun r _ => ?_)
  have hk := contrEquiv1_symm_val dot_S1024x256_S256x1024_S1024x1024_1_0_0_1_n_n 256 rfl rfl r
  have el : dot_S1024x256_S256x1024_S1024x1024_1_0_0_1_n_n.lhsIdx (ix2 p n) ((contrEquiv1 dot_S1024x256_S256x1024_S1024x1024_1_0_0_1_n_n 256 rfl rfl).symm r) = ix2 p r :=
    funext fun a => Fin.ext (by
      match a with
      | ⟨0, _⟩ => exact lhs_down_0 _ _
      | ⟨1, _⟩ => exact (lhs_down_1 _ _).trans hk)
  have er : dot_S1024x256_S256x1024_S1024x1024_1_0_0_1_n_n.rhsIdx (ix2 p n) ((contrEquiv1 dot_S1024x256_S256x1024_S1024x1024_1_0_0_1_n_n 256 rfl rfl).symm r) = ix2 r n :=
    funext fun a => Fin.ext (by
      match a with
      | ⟨0, _⟩ => exact (rhs_down_0 _ _).trans hk
      | ⟨1, _⟩ => exact rhs_down_1 _ _)
  rw [el, er, transpose_ix2_apply, shapeCast_self, k1_pay2_eq]
  rfl

/-- The last step's rescaling. -/
theorem k1_pay4_apply (v3 : Vec Ideal S1x1 .f32) (v27 : Vec Ideal S1024x1024 .f32) (v28 : Vec Ideal S1x1024 .f32)
    (p n : Fin 1024) :
    Gen.k1_pay4 (F := Ideal) v3 v27 v28 (ix2 p n)
      = v27 (ix2 p n) * (v3 (ix2 (0 : Fin 1) (0 : Fin 1)) * v28 (ix2 (0 : Fin 1) n)) := by
  unfold Gen.k1_pay4
  rw [mulf_apply, broadcastTo_1b_ab_apply, mulf_apply, shapeCast_self, broadcast_apply, k1_pay2_eq]

end Cert.KernelIdeal.Pay

end
-- ==== Proof.DownAcc.lean ====
/-
  What the second kernel leaves in its result array.

  The grid is 4 x 4 x 43 with the last axis fastest: point `t` is contraction step `t % 43` of the pair (row block
  `t / 172`, column block `t / 43 % 4`), and the 43 points of one pair are consecutive.  At step 0 the accumulator is
  cleared and the first 256 columns' products are added; at each later step the next 256 columns' products are added; so
  after step 42 the accumulator holds, at row `p` and column `n` of the pair's block, the sum over all 11008 = 43 * 256
  columns of the quantized hidden activation times the down weight.  At that last step the staging buffer receives the
  accumulator times the hidden scale times the column's weight scale, and is written back as the pair's 1024 x 1024 block of
  the result.  The blocks written back tile the result, so the result array ends holding, entry by entry, the second
  projection of the hidden array the kernel was entered with.
-/
import proofs.«134952_j29721173688828_1_alg».proof.Proof.DownPieces
import proofs.«134952_j29721173688828_1_alg».proof.Proof.DownSum
import proofs.«134952_j29721173688828_1_alg».proof.Proof.PayZero
import proofs.«134952_j29721173688828_1_alg».proof.Proof.PayDown
import proofs.«134952_j29721173688828_1_alg».proof.Proof.BlockIdx
import proofs.«134952_j29721173688828_1_alg».proof.Proof.Spec

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

section
variable (V : (c : Dev nD) → (b : Ref sig .tc) → Buf (Elt Ideal) ((c : Thread nD τ).loc b))

/-- The hidden array, the down weights, the down scales as one row, and the hidden scale, as the second kernel finds them. -/
abbrev Hv (c : Dev nD) : FVec Ideal S4096x11008 .f32 := V c main_v10
abbrev Wv (c : Dev nD) : FVec Ideal S4096x11008 .f32 := V c main_arg3
abbrev Sv (c : Dev nD) : FVec Ideal S1x4096 .f32 := V c main_v15
abbrev shv (c : Dev nD) : EReal := (V c main_v14 : FVec Ideal S1x1 .f32) (ix2 (0 : Fin 1) (0 : Fin 1))

/-- The array the second kernel computes: each row of the hidden array, quantized against the hidden scale, contracted with each
    row of the down weights, and rescaled by the hidden scale times the column's weight scale. -/
def Os (c : Dev nD) : FVec Ideal S4096x4096 .f32 := fun i =>
  (∑ k : Fin 11008, Cert.QuantMlp.quant (Hv V c (ix2 (i 0) k)) (shv V c) * Wv V c (ix2 (i 1) k))
    * (shv V c * Sv V c (ix2 (0 : Fin 1) (i 1)))

/-! ## The blocks at a point, read off the arrays -/

theorem B0_apply (c : Dev nD) (t : Fin cfg1.N) (u v : Fin 1) : iblk1 V c 0 t (ix2 u v) = shv V c := by
  unfold iblk1
  exact blk1_0_read (F := Ideal) (V c main_v14) t u v

theorem B1_apply (c : Dev nD) (t : Fin cfg1.N) (p : Fin 1024) (r : Fin 256) :
    iblk1 V c 1 t (ix2 p r) = rdN (Hv V c) (t.val / 172 * 1024 + p.val) (t.val % 43 * 256 + r.val) := by
  unfold iblk1
  exact (blk1_1_read (F := Ideal) (V c main_v10) t p r).trans (rdN_mk (Hv V c) _ _ _ _)

theorem B2_apply (c : Dev nD) (t : Fin cfg1.N) (n : Fin 1024) (r : Fin 256) :
    iblk1 V c 2 t (ix2 n r) = rdN (Wv V c) (t.val / 43 % 4 * 1024 + n.val) (t.val % 43 * 256 + r.val) := by
  unfold iblk1
  exact (blk1_2_read (F := Ideal) (V c main_arg3) t n r).trans (rdN_mk (Wv V c) _ _ _ _)

theorem B3_apply (c : Dev nD) (t : Fin cfg1.N) (u : Fin 1) (n : Fin 1024) :
    iblk1 V c 3 t (ix2 u n)
      = Sv V c (ix2 (0 : Fin 1) (⟨t.val / 43 % 4 * 1024 + n.val, by omega⟩ : Fin 4096)) := by
  unfold iblk1
  exact blk1_3_read (F := Ideal) (V c main_v15) t u n

/-! ## One step of the accumulator -/

/-- The components of a pair. -/
theorem down_pair_fst {α β : Type} (a : α) (b : β) : (a, b).1 = a := rfl
theorem down_pair_snd {α β : Type} (a : α) (b : β) : (a, b).2 = b := rfl

/-- The products one step adds at row `p`, column `n` of its block pair. -/
def stepSum (c : Dev nD) (t : ℕ) (p n : Fin 1024) : EReal :=
  ∑ r : Fin 256, Cert.QuantMlp.quant (rdN (Hv V c) (t / 172 * 1024 + p.val) (t % 43 * 256 + r.val)) (shv V c)
    * rdN (Wv V c) (t / 43 % 4 * 1024 + n.val) (t % 43 * 256 + r.val)

theorem pay3_at (c : Dev nD) (t : Fin cfg1.N) (xs0 : Vec Ideal S1024x1024 .f32) (p n : Fin 1024) :
    Gen.k1_pay3 (F := Ideal) (iblk1 V c 0 t) (iblk1 V c 1 t) (iblk1 V c 2 t) xs0 (ix2 p n)
      = xs0 (ix2 p n) + stepSum V c t.val p n := by
  rw [k1_pay3_apply]
  unfold stepSum
  refine congrArg (xs0 (ix2 p n) + ·) (Finset.sum_congr rfl fun r _ => ?_)
  rw [B0_apply, B1_apply, B2_apply]

/-- Where the reduction starts the accumulator is the first step's products. -/
theorem acc_first (c : Dev nD) (t : Fin cfg1.N) (h0 : t.val % 43 = 0) (p n : Fin 1024) :
    (stAt1 V c t.val t.isLt).2 (ix2 p n) = 0 + stepSum V c t.val p n := by
  rw [stAt1_A V c t h0, down_pair_snd, rdS1_0_runA1, pay3_at, k1_pay1_apply]

/-- At a later step it is what the step before left plus the step's products. -/
theorem acc_next (c : Dev nD) (t : Fin cfg1.N) (h0 : ¬t.val % 43 = 0) (p n : Fin 1024) :
    (stAt1 V c t.val t.isLt).2 (ix2 p n) = (prev1 V c t).2 (ix2 p n) + stepSum V c t.val p n := by
  by_cases h1 : t.val % 43 = 42
  · rw [stAt1_C V c t h0 h1, down_pair_snd, rdS1_0_runC1, pay3_at]
  · rw [stAt1_B V c t h0 h1, down_pair_snd, rdS1_0_runB1, pay3_at]

/-- At the last step the staging buffer holds the accumulator rescaled. -/
theorem down_out_last (c : Dev nD) (t : Fin cfg1.N) (h1 : t.val % 43 = 42) (p n : Fin 1024) :
    (stAt1 V c t.val t.isLt).1 (ix2 p n)
      = (stAt1 V c t.val t.isLt).2 (ix2 p n)
        * (shv V c * Sv V c (ix2 (0 : Fin 1) (⟨t.val / 43 % 4 * 1024 + n.val, by omega⟩ : Fin 4096))) := by
  have h0 : ¬t.val % 43 = 0 := by omega
  rw [stAt1_C V c t h0 h1, down_pair_fst, down_pair_snd, rdO4_runC1, rdS1_0_runC1, k1_pay4_apply, B0_apply, B3_apply]

/-! ## The 43 steps of one block pair -/

/-- A step's products with its point's row block, column block and step number named. -/
theorem stepSum_eq (c : Dev nD) (p n : Fin 1024) (s t k : ℕ) (hd : s / 172 = t / 172) (hc : s / 43 % 4 = t / 43 % 4)
    (hk : s % 43 = k) :
    stepSum V c s p n
      = ∑ r : Fin 256, Cert.QuantMlp.quant (rdN (Hv V c) (t / 172 * 1024 + p.val) (k * 256 + r.val)) (shv V c)
          * rdN (Wv V c) (t / 43 % 4 * 1024 + n.val) (k * 256 + r.val) := by
  unfold stepSum
  rw [hd, hc, hk]

/-- The accumulator along the points `t0, t0 + 1, …` as a function of the step number (zero past the grid's end). -/
def accN (c : Dev nD) (p n : Fin 1024) (t0 k : ℕ) : EReal :=
  if h : t0 + k < cfg1.N then (stAt1 V c (t0 + k) h).2 (ix2 p n) else 0

/-- After the last step of a block pair the accumulator holds the whole contraction. -/
theorem acc_last (c : Dev nD) (t : Fin cfg1.N) (h1 : t.val % 43 = 42) (p n : Fin 1024) :
    (stAt1 V c t.val t.isLt).2 (ix2 p n)
      = ∑ j : Fin 11008, Cert.QuantMlp.quant (Hv V c (ix2 (⟨t.val / 172 * 1024 + p.val, by have := lt688_1 t; omega⟩ : Fin 4096) j)) (shv V c)
          * Wv V c (ix2 (⟨t.val / 43 % 4 * 1024 + n.val, by omega⟩ : Fin 4096) j) := by
  have ht := lt688_1 t
  have hN : grid1.N = 688 := N_1
  obtain ⟨t0, ht0⟩ : ∃ t0, t.val = t0 + 42 := ⟨t.val - 42, by omega⟩
  have hlt : ∀ k, k < 43 → t0 + k < cfg1.N := fun k hk => by show t0 + k < grid1.N; omega
  have e42 : stAt1 V c (t0 + 42) (hlt 42 (by omega)) = stAt1 V c t.val t.isLt := by
    have gen : ∀ (m : ℕ) (hm : m < cfg1.N), m = t.val → stAt1 V c m hm = stAt1 V c t.val t.isLt := by
      intro m hm e; subst e; rfl
    exact gen _ _ ht0.symm
  have key := steps_total (Hv V c) (Wv V c) (shv V c)
    (⟨t.val / 172 * 1024 + p.val, by omega⟩ : Fin 4096) (⟨t.val / 43 % 4 * 1024 + n.val, by omega⟩ : Fin 4096)
    (accN V c p n t0) ?first ?next
  · have e : accN V c p n t0 42 = (stAt1 V c (t0 + 42) (hlt 42 (by omega))).2 (ix2 p n) := dif_pos (hlt 42 (by omega))
    rw [← key, e, e42]
  case first =>
    have e : accN V c p n t0 0 = (stAt1 V c (t0 + 0) (hlt 0 (by omega))).2 (ix2 p n) := dif_pos (hlt 0 (by omega))
    rw [e, acc_first V c ⟨t0 + 0, hlt 0 (by omega)⟩ (by show (t0 + 0) % 43 = 0; omega) p n]
    exact congrArg (0 + ·) (stepSum_eq V c p n (t0 + 0) t.val 0 (by omega) (by omega) (by omega))
  case next =>
    intro k hk
    have e1 : accN V c p n t0 (k + 1) = (stAt1 V c (t0 + (k + 1)) (hlt (k + 1) hk)).2 (ix2 p n) := dif_pos (hlt (k + 1) hk)
    have e0 : accN V c p n t0 k = (stAt1 V c (t0 + k) (hlt k (by omega))).2 (ix2 p n) := dif_pos (hlt k (by omega))
    rw [e1, e0, acc_next V c ⟨t0 + (k + 1), hlt (k + 1) hk⟩ (by show ¬(t0 + (k + 1)) % 43 = 0; omega) p n]
    exact congrArg₂ (· + ·) rfl (stepSum_eq V c p n (t0 + (k + 1)) t.val (k + 1) (by omega) (by omega) (by omega))

/-! ## The block written back, and the array -/

/-- What a flushing point writes back is its block of `Os`. -/
theorem flushed1_4 (c : Dev nD) (t : Fin cfg1.N) (hf : (cfg1.win 4).flush t = true) :
    (dat1 V c).flushed 4 t = ((cfg1.win 4).blk t).view.read (Elt Ideal) (Os V c) := by
  have h1 : t.val % 43 = 42 := (flush1_4 t).mp hf
  funext y
  obtain ⟨p, n, rfl⟩ : ∃ (p n : Fin 1024), y = ix2 p n := ⟨y 0, y 1, eq_ix2 y⟩
  rw [blk1_4_read (F := Ideal) (Os V c) t p n]
  show (dat1 V c).after 4 t (ix2 p n) = _
  rw [after1_4, down_out_last V c t h1 p n, acc_last V c t h1 p n]
  rfl

/-- The result array after the second kernel. -/
theorem arrAt1_4 (c : Dev nD) : (dat1 V c).arrAt 4 cfg1.N = Os V c :=
  (dat1 V c).arrAt_eq_of_cover 4 (Os V c) (fun t hf => flushed1_4 V c t hf) (fun i => cover1_4 i)

end

end Cert.KernelIdeal.Hand

end
-- ==== Proof.Bridge.lean ====
/-
  What the idealized kernel program leaves in its two results, as functions of the five argument arrays.

  The first kernel's output array is, entry by entry, silu of the rescaled gate sum times the rescaled up sum over
  the whole hidden axis (the four partial sums of a row block add up to the full contraction); the host operations
  between the kernels take its largest absolute entry over 127 as the second scale; the second kernel's output is
  the rescaled contraction of the requantized hidden array with the down weights.  The host operations before the
  first kernel only slice and reshape the arguments, so every entry the kernels read is an entry of an argument.
-/
import proofs.«134952_j29721173688828_1_alg».proof.Proof.RunAll
import proofs.«134952_j29721173688828_1_alg».proof.Proof.HostStretch
import proofs.«134952_j29721173688828_1_alg».proof.Proof.GateUpArr
import proofs.«134952_j29721173688828_1_alg».proof.Proof.DownAcc

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The arguments and the specification at them -/

abbrev aX (c : Dev nD) : FVec Ideal S4096x4096 .f32 := m ((c.tc : Thread nD τ).loc main_arg0)
abbrev aW1 (c : Dev nD) : FVec Ideal S22016x4096 .f32 := m ((c.tc : Thread nD τ).loc main_arg1)
abbrev aS1 (c : Dev nD) : FVec Ideal S22016 .f32 := m ((c.tc : Thread nD τ).loc main_arg2)
abbrev aW2 (c : Dev nD) : FVec Ideal S4096x11008 .f32 := m ((c.tc : Thread nD τ).loc main_arg3)
abbrev aS2 (c : Dev nD) : FVec Ideal S4096 .f32 := m ((c.tc : Thread nD τ).loc main_arg4)

/-- The activation scale. -/
def sxK (c : Dev nD) : EReal := Cert.QuantMlp.scale (aX m c) reducesTo_S4096x4096_S_d0_1 h_S_ ix0
/-- The hidden activation at coordinates. -/
def hidK (c : Dev nD) : Fin 4096 → Fin 11008 → EReal :=
  Cert.QuantMlp.hidden (fun a b => aX m c (ix2 a b)) (fun a b => aW1 m c (ix2 a b)) (fun a => aS1 m c (ix1 a)) (sxK m c)
/-- The hidden activation as an array. -/
def HK (c : Dev nD) : FVec Ideal S4096x11008 .f32 := fun i => hidK m c (i 0) (i 1)
/-- The hidden scale (the program's second result). -/
def shK (c : Dev nD) : FVec Ideal S_ .f32 := Cert.QuantMlp.scale (HK m c) reducesTo_S4096x11008_S_d0_1 h_S_
/-- The program's first result. -/
def outK (c : Dev nD) : FVec Ideal S4096x4096 .f32 := fun i =>
  Cert.QuantMlp.proj (T := 4096) (J := 4096) (K := 11008) (hidK m c) (fun a b => aW2 m c (ix2 a b)) (fun a => aS2 m c (ix1 a)) (shK m c ix0) (i 0) (i 1)

/-! ## The first kernel's inputs are the arguments, sliced and reshaped -/

theorem V1_arg0 (c : Dev nD) : (V1 m c main_arg0 : FVec Ideal S4096x4096 .f32) = aX m c := arg0_after (W0 m c)
theorem V1_v3 (c : Dev nD) : (V1 m c main_v3 : FVec Ideal S1x1 .f32) (ix2 (0 : Fin 1) (0 : Fin 1)) = sxK m c := v3_apply (W0 m c)
theorem V1_v4 (c : Dev nD) (a : Fin 11008) (b : Fin 4096) :
    (V1 m c main_v4 : FVec Ideal S11008x4096 .f32) (ix2 a b) = aW1 m c (ix2 (⟨a.val, by omega⟩ : Fin 22016) b) := v4_apply (W0 m c) a b
theorem V1_v5 (c : Dev nD) (a : Fin 11008) (b : Fin 4096) :
    (V1 m c main_v5 : FVec Ideal S11008x4096 .f32) (ix2 a b) = aW1 m c (ix2 (⟨a.val + 11008, by omega⟩ : Fin 22016) b) := v5_apply (W0 m c) a b
theorem V1_v7 (c : Dev nD) (a : Fin 11008) :
    (V1 m c main_v7 : FVec Ideal S1x11008 .f32) (ix2 (0 : Fin 1) a) = aS1 m c (ix1 (⟨a.val, by omega⟩ : Fin 22016)) := v7_apply (W0 m c) a
theorem V1_v9 (c : Dev nD) (a : Fin 11008) :
    (V1 m c main_v9 : FVec Ideal S1x11008 .f32) (ix2 (0 : Fin 1) a) = aS1 m c (ix1 (⟨a.val + 11008, by omega⟩ : Fin 22016)) := v9_apply (W0 m c) a

/-- The first kernel's output array is the hidden activation. -/
theorem Hs_eq (c : Dev nD) : Hs (V1 m) c = HK m c := by
  funext i
  unfold Hs HK hidK Cert.QuantMlp.hidden Cert.QuantMlp.proj
  refine congrArg₂ (· * ·) (congrArg Cert.QuantMlp.silu (congrArg₂ (· * ·) (Finset.sum_congr rfl fun k _ => ?_) ?_))
    (congrArg₂ (· * ·) (Finset.sum_congr rfl fun k _ => ?_) ?_)
  · exact congrArg₂ (· * ·) (congrArg₂ Cert.QuantMlp.quant (congrFun (V1_arg0 m c) _) (V1_v3 m c)) (V1_v4 m c (i 1) k)
  · exact congrArg₂ (· * ·) (V1_v3 m c) (V1_v7 m c (i 1))
  · exact congrArg₂ (· * ·) (congrArg₂ Cert.QuantMlp.quant (congrFun (V1_arg0 m c) _) (V1_v3 m c)) (V1_v5 m c (i 1) k)
  · exact congrArg₂ (· * ·) (V1_v3 m c) (V1_v9 m c (i 1))

theorem W2_v10 (c : Dev nD) : (W2 m c (Proc.devRef .tc main_v10) : FVec Ideal S4096x11008 .f32) = HK m c :=
  (W2_arr m c 6).trans ((arrAt0_6 (V1 m) c).trans (Hs_eq m c))

/-! ## The second result -/

theorem W4_v13 (c : Dev nD) : (W4 m c (Proc.devRef .tc main_v13) : FVec Ideal S_ .f32) = shK m c := by
  have h1 : W4 m c (Proc.devRef .tc main_v13) = W3 m c (Proc.devRef .tc main_v13) := W4_of_ne m c main_v13 (by decide)
  have h2 := v13_after (W2 m c)
  rw [W2_v10] at h2
  exact h1.trans h2

/-! ## The second kernel's inputs -/

theorem V3_v10 (c : Dev nD) : Hv (V3 m) c = HK m c := (v10_after (W2 m c)).trans (W2_v10 m c)
theorem V3_v14 (c : Dev nD) : shv (V3 m) c = shK m c ix0 := by
  have h := v14_apply (W2 m c)
  rw [W2_v10] at h
  exact h
theorem W2_arg3 (c : Dev nD) : W2 m c (Proc.devRef .tc main_arg3) = m ((c.tc : Thread nD τ).loc main_arg3) :=
  (W2_of_ne m c main_arg3 (by decide)).trans (StableHlo.after_of_writes_sub hostOps0 _ hostOps0_writes (by decide))
theorem W2_arg4 (c : Dev nD) : W2 m c (Proc.devRef .tc main_arg4) = m ((c.tc : Thread nD τ).loc main_arg4) :=
  (W2_of_ne m c main_arg4 (by decide)).trans (StableHlo.after_of_writes_sub hostOps0 _ hostOps0_writes (by decide))
theorem V3_arg3 (c : Dev nD) : Wv (V3 m) c = aW2 m c := (arg3_after (W2 m c)).trans (W2_arg3 m c)
theorem V3_v15 (c : Dev nD) (n : Fin 4096) : Sv (V3 m) c (ix2 (0 : Fin 1) n) = aS2 m c (ix1 n) := by
  have h := v15_apply (W2 m c) n
  rw [W2_arg4] at h
  exact h

theorem Os_eq (c : Dev nD) : Os (V3 m) c = outK m c := by
  funext i
  unfold Os outK Cert.QuantMlp.proj
  refine congrArg₂ (· * ·) (Finset.sum_congr rfl fun k _ => ?_) ?_
  · exact congrArg₂ (· * ·) (congrArg₂ Cert.QuantMlp.quant (congrFun (V3_v10 m c) _) (V3_v14 m c)) (congrFun (V3_arg3 m c) _)
  · exact congrArg₂ (· * ·) (V3_v14 m c) (V3_v15 m c (i 1))

/-! ## The first result -/

theorem W4_v16 (c : Dev nD) : (W4 m c (Proc.devRef .tc main_v16) : FVec Ideal S4096x4096 .f32) = outK m c :=
  (W4_arr m c 4).trans ((arrAt1_4 (V3 m) c).trans (Os_eq m c))

/-- The idealized kernel program's run with both results named. -/
theorem run_values (ρ : Dev nD → PrngReg) :
    θ_run defs (onTc (τ := τ) (main (F := Ideal))) ⟨m, fun _ => 0, ρ⟩ (fun r => ∀ c : Dev nD,
      r.2.mem ((c.tc : Thread nD τ).loc main_v16) = outK m c
      ∧ r.2.mem ((c.tc : Thread nD τ).loc main_v13) = shK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v16 (by decide))).trans (W4_v16 m c),
     (h c _ (mem_uc main_v13 (by decide))).trans (W4_v13 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.RefSide.lean ====
/-
  The reference program read against the specification.

  The reference quantizes the activations `x` against one scale `sx = max |x| / 127` (divide, round half to even, clamp to
  [-127, 127]), contracts each quantized row with each row of the first weights over the hidden axis, and rescales column `n`
  by `sx * s1 n`: that is `proj` at row `t`, column `n` of all 22016 columns.  Column `j < 11008` is the gate and column
  `j + 11008` the matching up-projection; the reference spells `silu g` as `g * (1 / (1 + exp (-g)))`, and on the extended
  reals `1 / (1 + exp (-g))` is by definition `logistic g`, once the float word of 1.0 is read as the real 1.  So the
  operand of the second maximum is `hidden` coordinate by coordinate.  The second scale is the same host term
  `max |h| / 127` applied to that array (the maximum itself is never opened: equal arrays have equal maxima), and the first
  result repeats the first stage with the hidden activation in place of `x`, the down weights, and `sh * s2 n`.

  Every step is a reading of one operation at one index; the only index arithmetic is that a transposed weight matrix read at
  `(k, n)` is the weight matrix at `(n, k)`, that a row of scales broadcast along the tokens is read at its column, and that
  the second half of the columns starts at 11008.
-/
import proofs.«134952_j29721173688828_1_alg».proof.Defs
import proofs.«134952_j29721173688828_1_alg».proof.Proof.Gen.ReferenceIdeal.Read
import proofs.«134952_j29721173688828_1_alg».proof.Proof.Gen.Pre_finite_inputs
import proofs.«134952_j29721173688828_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-! ## The frame -/

/-- The reference terminates with its five argument arrays unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-! ## The two scales are the specification's `scale` -/

/-- The activation scale `max |x| / 127` is the specification's `scale` of `x`: the same host term. -/
theorem xscale_eq (x0 : FVec Ideal S4096x4096 .f32) :
    val_main_v2 (F := Ideal) x0 = Cert.QuantMlp.scale x0 reducesTo_S4096x4096_S_d0_1 h_S_ := rfl

/-- The hidden activation as the reference's whole array: the operand of the second maximum. -/
abbrev Hid (x0 : FVec Ideal S4096x4096 .f32) (x1 : FVec Ideal S22016x4096 .f32) (x2 : FVec Ideal S22016 .f32) :
    FVec Ideal S4096x11008 .f32 := val_main_v17 (F := Ideal) x0 x1 x2

/-- The second result `max |h| / 127` is the specification's `scale` of the hidden array, whatever that array is. -/
theorem hscale_eq (x0 : FVec Ideal S4096x4096 .f32) (x1 : FVec Ideal S22016x4096 .f32) (x2 : FVec Ideal S22016 .f32) :
    val_main_v20 (F := Ideal) x0 x1 x2
      = Cert.QuantMlp.scale (Hid x0 x1 x2) reducesTo_S4096x11008_S_d0_1 h_S_ := rfl

/-- The float word of 1.0 denotes the real 1. -/
theorem one_word : Ideal.ofBits .f32 0x3F800000#32 = 1 := by
  simp [Ideal.ofBits, Ideal.ieee, -EReal.coe_mul]; norm_num

/-- The activation scale as a scalar. -/
abbrev sx (x0 : FVec Ideal S4096x4096 .f32) : EReal :=
  Cert.QuantMlp.scale x0 reducesTo_S4096x4096_S_d0_1 h_S_ ix0

/-- The hidden scale as a scalar, over the reference's own hidden array. -/
abbrev sh (x0 : FVec Ideal S4096x4096 .f32) (x1 : FVec Ideal S22016x4096 .f32) (x2 : FVec Ideal S22016 .f32) : EReal :=
  Cert.QuantMlp.scale (Hid x0 x1 x2) reducesTo_S4096x11008_S_d0_1 h_S_ ix0

/-! ## The first projection -/

/-- An entry of the quantized activations: divide by the scale, round half to even, clamp. -/
theorem qx_apply (x0 : FVec Ideal S4096x4096 .f32) (l : S4096x4096.Idx) :
    val_main_v6 (F := Ideal) x0 l = Cert.QuantMlp.quant (x0 l) (sx x0) := by
  rw [val_main_v6_apply, val_main_call1_v4_apply, val_main_call1_v3_apply, val_main_cst_2_apply,
    val_main_call1_v2_apply, val_main_call1_v1_apply, val_main_call1_v0_apply, val_main_cst_1_apply,
    val_main_v5_apply, val_main_v4_apply, val_main_v3_apply]
  rfl

/-- The left operand of the first contraction at `(t, n)`, summand `k`, is read at `(t, k)`. -/
theorem lidx8 (t : Fin 4096) (n : Fin 22016) (k : Fin 4096) :
    lidx_main_v8 (ix2 t n) k = ix2 t k :=
  funext fun a => Fin.ext (by match a with | ⟨0, _⟩ => rfl | ⟨1, _⟩ => rfl)

/-- The transposed weights at `(k, n)` are the weights at `(n, k)`. -/
theorem ridx8 (t : Fin 4096) (n : Fin 22016) (k : Fin 4096) :
    idx_main_v7 (ridx_main_v8 (ix2 t n) k) = ix2 n k :=
  funext fun a => Fin.ext (by match a with | ⟨0, _⟩ => rfl | ⟨1, _⟩ => rfl)

/-- The first contraction at row `t`, column `n`: the sum over the hidden axis. -/
theorem acc1_apply (x0 : FVec Ideal S4096x4096 .f32) (x1 : FVec Ideal S22016x4096 .f32) (t : Fin 4096) (n : Fin 22016) :
    val_main_v8 (F := Ideal) x0 x1 (ix2 t n)
      = ∑ k : Fin 4096, Cert.QuantMlp.quant (x0 (ix2 t k)) (sx x0) * x1 (ix2 n k) := by
  rw [val_main_v8_apply]
  refine Finset.sum_congr rfl fun k _ => ?_
  rw [qx_apply, val_main_v7_apply, lidx8, ridx8]

/-- The row of column scales, broadcast along the tokens, is read at its column. -/
theorem sidx12 (t : Fin 4096) (n : Fin 22016) :
    idx_main_v11 (idx_main_v12 (ix2 t n)) = ix1 n :=
  funext fun a => Fin.ext (by match a with | ⟨0, _⟩ => rfl)

/-- The first projection, rescaled, at row `t` and column `n` of all 22016. -/
theorem gateup_apply (x0 : FVec Ideal S4096x4096 .f32) (x1 : FVec Ideal S22016x4096 .f32) (x2 : FVec Ideal S22016 .f32)
    (t : Fin 4096) (n : Fin 22016) :
    val_main_v13 (F := Ideal) x0 x1 x2 (ix2 t n)
      = Cert.QuantMlp.proj (T := 4096) (J := 22016) (K := 4096) (fun a b => x0 (ix2 a b)) (fun a b => x1 (ix2 a b))
          (fun a => x2 (ix1 a)) (sx x0) t n := by
  rw [val_main_v13_apply, acc1_apply, val_main_v12_apply, val_main_v11_apply, val_main_v10_apply, val_main_v9_apply,
    sidx12, xscale_eq]
  rfl

/-! ## The hidden activation -/

/-- The gate half: column `j` of the first 11008. -/
theorem idx14 (t : Fin 4096) (j : Fin 11008) :
    idx_main_v14 (ix2 t j) = ix2 t (⟨j.val, by omega⟩ : Fin 22016) :=
  funext fun a => Fin.ext (by match a with | ⟨0, _⟩ => rfl | ⟨1, _⟩ => rfl)

/-- The up half: column `j + 11008`. -/
theorem idx15 (t : Fin 4096) (j : Fin 11008) :
    idx_main_v15 (ix2 t j) = ix2 t (⟨j.val + 11008, by omega⟩ : Fin 22016) :=
  funext fun a => Fin.ext (by match a with | ⟨0, _⟩ => rfl | ⟨1, _⟩ => exact Nat.add_comm _ _)

/-- The hidden activation at row `t`, column `j`: `silu` of the gate times the up-projection. -/
theorem hidden_apply (x0 : FVec Ideal S4096x4096 .f32) (x1 : FVec Ideal S22016x4096 .f32) (x2 : FVec Ideal S22016 .f32)
    (t : Fin 4096) (j : Fin 11008) :
    Hid x0 x1 x2 (ix2 t j)
      = Cert.QuantMlp.hidden (fun a b => x0 (ix2 a b)) (fun a b => x1 (ix2 a b)) (fun a => x2 (ix1 a)) (sx x0) t j := by
  show val_main_v17 (F := Ideal) x0 x1 x2 (ix2 t j) = _
  rw [val_main_v17_apply, val_main_v16_apply, val_main_call2_v5_apply, val_main_call2_v4_apply, val_main_call2_cst_0_apply,
    val_main_call2_v3_apply, val_main_call2_v2_apply, val_main_call2_cst_apply, val_main_call2_v1_apply,
    val_main_call2_v0_apply, val_main_v14_apply, val_main_v15_apply, idx14, idx15, gateup_apply, gateup_apply]
  simp only [Ideal.ofBits_def, one_word]
  rfl

/-- The hidden activation as a whole array is the specification's, coordinate by coordinate. -/
theorem hid_eq (x0 : FVec Ideal S4096x4096 .f32) (x1 : FVec Ideal S22016x4096 .f32) (x2 : FVec Ideal S22016 .f32) :
    Hid x0 x1 x2 = fun i => Cert.QuantMlp.hidden (fun a b => x0 (ix2 a b)) (fun a b => x1 (ix2 a b))
      (fun a => x2 (ix1 a)) (sx x0) (i 0) (i 1) := by
  funext i
  obtain ⟨t, j, rfl⟩ : ∃ (t : Fin 4096) (j : Fin 11008), i = ix2 t j := ⟨i 0, i 1, eq_ix2 i⟩
  exact hidden_apply x0 x1 x2 t j

/-! ## The second projection -/

/-- An entry of the quantized hidden activation, against the hidden scale. -/
theorem qh_apply (x0 : FVec Ideal S4096x4096 .f32) (x1 : FVec Ideal S22016x4096 .f32) (x2 : FVec Ideal S22016 .f32)
    (l : S4096x11008.Idx) :
    val_main_v24 (F := Ideal) x0 x1 x2 l = Cert.QuantMlp.quant (Hid x0 x1 x2 l) (sh x0 x1 x2) := by
  rw [val_main_v24_apply, val_main_call4_v4_apply, val_main_call4_v3_apply, val_main_cst_6_apply,
    val_main_call4_v2_apply, val_main_call4_v1_apply, val_main_call4_v0_apply, val_main_cst_5_apply,
    val_main_v23_apply, val_main_v22_apply, val_main_v21_apply, hscale_eq]
  rfl

theorem lidx26 (t : Fin 4096) (n : Fin 4096) (k : Fin 11008) :
    lidx_main_v26 (ix2 t n) k = ix2 t k :=
  funext fun a => Fin.ext (by match a with | ⟨0, _⟩ => rfl | ⟨1, _⟩ => rfl)

theorem ridx26 (t : Fin 4096) (n : Fin 4096) (k : Fin 11008) :
    idx_main_v25 (ridx_main_v26 (ix2 t n) k) = ix2 n k :=
  funext fun a => Fin.ext (by match a with | ⟨0, _⟩ => rfl | ⟨1, _⟩ => rfl)

/-- The second contraction at row `t`, column `n`: the sum over the intermediate axis. -/
theorem acc2_apply (x0 : FVec Ideal S4096x4096 .f32) (x1 : FVec Ideal S22016x4096 .f32) (x2 : FVec Ideal S22016 .f32)
    (x3 : FVec Ideal S4096x11008 .f32) (t : Fin 4096) (n : Fin 4096) :
    val_main_v26 (F := Ideal) x0 x1 x2 x3 (ix2 t n)
      = ∑ k : Fin 11008, Cert.QuantMlp.quant (Hid x0 x1 x2 (ix2 t k)) (sh x0 x1 x2) * x3 (ix2 n k) := by
  rw [val_main_v26_apply]
  refine Finset.sum_congr rfl fun k _ => ?_
  rw [qh_apply, val_main_v25_apply, lidx26, ridx26]

theorem sidx30 (t : Fin 4096) (n : Fin 4096) :
    idx_main_v29 (idx_main_v30 (ix2 t n)) = ix1 n :=
  funext fun a => Fin.ext (by match a with | ⟨0, _⟩ => rfl)

/-- The first result at row `t`, column `n`, over the reference's own hidden array and hidden scale. -/
theorem out_apply (x0 : FVec Ideal S4096x4096 .f32) (x1 : FVec Ideal S22016x4096 .f32) (x2 : FVec Ideal S22016 .f32)
    (x3 : FVec Ideal S4096x11008 .f32) (x4 : FVec Ideal S4096 .f32) (t : Fin 4096) (n : Fin 4096) :
    val_main_v31 (F := Ideal) x0 x1 x2 x3 x4 (ix2 t n)
      = Cert.QuantMlp.proj (T := 4096) (J := 4096) (K := 11008) (fun a b => Hid x0 x1 x2 (ix2 a b)) (fun a b => x3 (ix2 a b))
          (fun a => x4 (ix1 a)) (sh x0 x1 x2) t n := by
  rw [val_main_v31_apply, acc2_apply, val_main_v30_apply, val_main_v29_apply, val_main_v28_apply, val_main_v27_apply,
    sidx30, hscale_eq]
  rfl

/-! ## Both results over the specification alone -/

/-- The hidden activation over plain coordinates. -/
abbrev hidC (x0 : FVec Ideal S4096x4096 .f32) (x1 : FVec Ideal S22016x4096 .f32) (x2 : FVec Ideal S22016 .f32) :
    Fin 4096 → Fin 11008 → EReal :=
  Cert.QuantMlp.hidden (fun a b => x0 (ix2 a b)) (fun a b => x1 (ix2 a b)) (fun a => x2 (ix1 a)) (sx x0)

/-- The hidden scale, as a rank-0 array, over the specification's hidden array. -/
abbrev shC (x0 : FVec Ideal S4096x4096 .f32) (x1 : FVec Ideal S22016x4096 .f32) (x2 : FVec Ideal S22016 .f32) :
    FVec Ideal S_ .f32 :=
  Cert.QuantMlp.scale (fun i : S4096x11008.Idx => hidC x0 x1 x2 (i 0) (i 1)) reducesTo_S4096x11008_S_d0_1 h_S_

theorem hidC_eq (x0 : FVec Ideal S4096x4096 .f32) (x1 : FVec Ideal S22016x4096 .f32) (x2 : FVec Ideal S22016 .f32) :
    (fun a b => Hid x0 x1 x2 (ix2 a b)) = hidC x0 x1 x2 :=
  funext fun a => funext fun b => hidden_apply x0 x1 x2 a b

/-- The second result is the scale of the specification's hidden array: equal arrays, equal maxima. -/
theorem res1_eq (x0 : FVec Ideal S4096x4096 .f32) (x1 : FVec Ideal S22016x4096 .f32) (x2 : FVec Ideal S22016 .f32) :
    val_main_v20 (F := Ideal) x0 x1 x2 = shC x0 x1 x2 := by
  rw [hscale_eq, hid_eq]

theorem sh_eq (x0 : FVec Ideal S4096x4096 .f32) (x1 : FVec Ideal S22016x4096 .f32) (x2 : FVec Ideal S22016 .f32) :
    sh x0 x1 x2 = shC x0 x1 x2 ix0 := by
  show Cert.QuantMlp.scale (Hid x0 x1 x2) reducesTo_S4096x11008_S_d0_1 h_S_ ix0 = _
  rw [hid_eq]

/-- The first result as a whole array: the second projection of the specification's hidden activation against its scale. -/
theorem res0_eq (x0 : FVec Ideal S4096x4096 .f32) (x1 : FVec Ideal S22016x4096 .f32) (x2 : FVec Ideal S22016 .f32)
    (x3 : FVec Ideal S4096x11008 .f32) (x4 : FVec Ideal S4096 .f32) :
    val_main_v31 (F := Ideal) x0 x1 x2 x3 x4
      = fun i => Cert.QuantMlp.proj (T := 4096) (J := 4096) (K := 11008) (hidC x0 x1 x2) (fun a b => x3 (ix2 a b))
          (fun a => x4 (ix1 a)) (shC x0 x1 x2 ix0) (i 0) (i 1) := by
  funext i
  obtain ⟨t, n, rfl⟩ : ∃ (t : Fin 4096) (n : Fin 4096), i = ix2 t n := ⟨i 0, i 1, eq_ix2 i⟩
  rw [out_apply, hidC_eq, sh_eq]

/-! ## The run, stated over the specification -/

/-- The first result of the run is the value of the program's last operation. -/
theorem res_out0_eq (m : (ℓ : Loc nD τ sig) → Buf (Elt Ideal) ℓ) (c : Dev nD) :
    Cert.ReferenceIdeal.Value.res_out0 m c
      = val_main_v31 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  val_main_v31_eq m c

/-- The reference's run with both results stated over the specification: the first result is the second projection of the
    hidden activation quantized against its own scale, the second result that scale; the arguments end unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = (fun i => Cert.QuantMlp.proj (T := 4096) (J := 4096) (K := 11008)
            (hidC (m ((c.tc : Thread nD τ).loc main_arg0)) (m ((c.tc : Thread nD τ).loc main_arg1)) (m ((c.tc : Thread nD τ).loc main_arg2)))
            (fun a b => m ((c.tc : Thread nD τ).loc main_arg3) (ix2 a b)) (fun a => m ((c.tc : Thread nD τ).loc main_arg4) (ix1 a))
            (shC (m ((c.tc : Thread nD τ).loc main_arg0)) (m ((c.tc : Thread nD τ).loc main_arg1)) (m ((c.tc : Thread nD τ).loc main_arg2)) ix0)
            (i 0) (i 1) : FVec Ideal S4096x4096 .f32)
      ∧ r.2.mem ((c.tc : Thread nD τ).loc main_v20)
        = shC (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans ((val_main_v31_eq m c).trans (res0_eq _ _ _ _ _)),
       (h c).2.1.trans ((val_main_v20_eq (F := Ideal) (m ((c.tc : Thread nD τ).loc main_arg0)) (m ((c.tc : Thread nD τ).loc main_arg1))
          (m ((c.tc : Thread nD τ).loc main_arg2))).trans (res1_eq _ _ _)),
       (h c).2.2⟩)
    (Cert.ReferenceIdeal.Value.run (F := Ideal) m ρ)

end Cert.ReferenceIdeal.RefValue

end
-- ==== Proof.Claims.lean ====
/-
  The five claims.

  Both printed kernel programs — the word-level one and its idealization, which differ in no operation — run as
  four segments (host operations, the gate/up kernel, host operations, the down kernel); each kernel keeps its
  accumulators in scratch across the reduction steps of a block pair, and no segment writes an argument: the
  frames.  The idealization rewrote nothing, so it preserves the kernel trivially.  At the ideal instance the
  kernel program's two results are the quantized two-layer projection of the arguments written once over plain
  coordinates, and the reference's two results are that same function: summing a contraction block by block is
  summing it whole, a change of float format is the identity, and logistic is 1 / (1 + exp (-x)) by definition.
-/
import proofs.«134952_j29721173688828_1_alg».proof.Defs
import proofs.«134952_j29721173688828_1_alg».proof.Proof.KRunAll
import proofs.«134952_j29721173688828_1_alg».proof.Proof.Bridge
import proofs.«134952_j29721173688828_1_alg».proof.Proof.RefSide
import proofs.«134952_j29721173688828_1_alg».proof.Proof.Gen.Kernel
import proofs.«134952_j29721173688828_1_alg».proof.Proof.Gen.KernelIdeal
import proofs.«134952_j29721173688828_1_alg».proof.Proof.Gen.ReferenceIdeal
import proofs.«134952_j29721173688828_1_alg».proof.Proof.Gen.Pre_finite_inputs

set_option maxRecDepth 16384

noncomputable section

namespace Cert.Proof.Claims

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := Cert.ReferenceIdeal.RefValue.frame_ri
theorem preserves : Cert.preserves_Kernel_KernelIdeal := trivial

/-- From memories agreeing on the arguments, both idealized programs end with the same two results: the
    kernel's are the specification at its arguments, the reference's the specification at its own. -/
theorem algebraic : Cert.algebraic_KernelIdeal_ReferenceIdeal := by
  intro m ρ m' ρ' _ hagree
  refine ⟨fun c => Cert.KernelIdeal.Hand.outK m c, fun c => Cert.KernelIdeal.Hand.shK m c,
    Cert.KernelIdeal.Hand.run_values m ρ, ?_⟩
  refine (θ_run Cert.ReferenceIdeal.defs _ _).mono (fun r h c => ⟨?_, ?_, (h c).2.2⟩)
    (Cert.ReferenceIdeal.RefValue.run_spec m' ρ')
  · rw [(h c).1, (hagree c).1, (hagree c).2.1, (hagree c).2.2.1, (hagree c).2.2.2.1, (hagree c).2.2.2.2]
    rfl
  · rw [(h c).2.1, (hagree c).1, (hagree c).2.1, (hagree c).2.2.1]
    rfl

end Cert.Proof.Claims

end
-- ==== Proof.lean ====
/-
  The certificate of a quantized two-layer projection computed by two blocked matrix kernels against its plain
  reference: the frames of the three programs, the (empty) idealization ledger, and the equality of the two
  idealized programs' results on the extended reals.  The claims are proved in Proof/Claims.lean; here they are
  assembled under the programs' stated side conditions.
-/
import proofs.«134952_j29721173688828_1_alg».proof.Defs
import proofs.«134952_j29721173688828_1_alg».proof.Proof.Gen.Kernel
import proofs.«134952_j29721173688828_1_alg».proof.Proof.Gen.Kernel.Skeleton
import proofs.«134952_j29721173688828_1_alg».proof.Proof.Gen.Kernel.Launch
import proofs.«134952_j29721173688828_1_alg».proof.Proof.Gen.Kernel.Regions
import proofs.«134952_j29721173688828_1_alg».proof.Proof.Gen.Kernel.Points
import proofs.«134952_j29721173688828_1_alg».proof.Proof.Gen.KernelIdeal
import proofs.«134952_j29721173688828_1_alg».proof.Proof.Gen.KernelIdeal.Skeleton
import proofs.«134952_j29721173688828_1_alg».proof.Proof.Gen.KernelIdeal.Launch
import proofs.«134952_j29721173688828_1_alg».proof.Proof.Gen.KernelIdeal.Regions
import proofs.«134952_j29721173688828_1_alg».proof.Proof.Gen.KernelIdeal.Points
import proofs.«134952_j29721173688828_1_alg».proof.Proof.Gen.ReferenceIdeal
import proofs.«134952_j29721173688828_1_alg».proof.Proof.Gen.Pre_finite_inputs
import proofs.«134952_j29721173688828_1_alg».proof.Proof.Gen.ReferenceIdeal.Read
import proofs.«134952_j29721173688828_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
